-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S256 .f32) (main_arg16 : FVec F S128x256 .f32) (main_arg17 : FVec F S128 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128x256 .f32 := Host.absf main_arg16
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S256x256 .f32) (main_arg13 : FVec F S256 .f32) (main_arg14 : FVec F S256x256 .f32) (main_arg15 : FVec F S256 .f32) (main_arg16 : FVec F S128x256 .f32) (main_arg17 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_v63 main_v67

def fn_part2 {F : FTy → Type} [FloatOps F] (main_arg8 : FVec F S256x128 .f32) (main_arg9 : FVec F S256 .f32) (main_arg10 : FVec F S256x128 .f32) (main_arg11 : FVec F S256 .f32) (main_arg12 : FVec F S256x256 .f32) (main_arg13 : FVec F S256 .f32) (main_arg14 : FVec F S256x256 .f32) (main_arg15 : FVec F S256 .f32) (main_arg16 : FVec F S128x256 .f32) (main_arg17 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_v48 main_v49 main_v50

def fn_part1 {F : FTy → Type} [FloatOps F] (main_arg5 : FVec F S256x256 .f32) (main_arg6 : FVec F S256 .f32) (main_arg7 : FVec F S256x256 .f32) (main_arg8 : FVec F S256x128 .f32) (main_arg9 : FVec F S256 .f32) (main_arg10 : FVec F S256x128 .f32) (main_arg11 : FVec F S256 .f32) (main_arg12 : FVec F S256x256 .f32) (main_arg13 : FVec F S256 .f32) (main_arg14 : FVec F S256x256 .f32) (main_arg15 : FVec F S256 .f32) (main_arg16 : FVec F S128x256 .f32) (main_arg17 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x600000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S256x128 .f32) (main_arg9 : FVec F S256 .f32) (main_arg10 : FVec F S256x128 .f32) (main_arg11 : FVec F S256 .f32) (main_arg12 : FVec F S256x256 .f32) (main_arg13 : FVec F S256 .f32) (main_arg14 : FVec F S256x256 .f32) (main_arg15 : FVec F S256 .f32) (main_arg16 : FVec F S128x256 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x128 : Shape := ⟨2, ![1, 128]⟩

abbrev nBuf : Space → Nat
  | .hbm => 83
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S128x256, .f32⟩
  | .hbm, ⟨17, _⟩ => ⟨S128, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .f32⟩
  | .hbm, ⟨36, _⟩ => ⟨S600000, .f32⟩
  | .hbm, ⟨37, _⟩ => ⟨S_, .f32⟩
  | .hbm, ⟨38, _⟩ => ⟨S50000, .f32⟩
  | .hbm, ⟨39, _⟩ => ⟨S600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x256, .f32⟩
  | .hbm, ⟨62, _⟩ => ⟨S_, .f32⟩
  | .hbm, ⟨63, _⟩ => ⟨S50000x256, .f32⟩
  | .hbm, ⟨64, _⟩ => ⟨S600000x1, .i32⟩
  | .hbm, ⟨65, _⟩ => ⟨S50000x256, .f32⟩
  | .hbm, ⟨66, _⟩ => ⟨S_, .f32⟩
  | .hbm, ⟨67, _⟩ => ⟨S600000, .f32⟩
  | .hbm, ⟨68, _⟩ => ⟨S_, .f32⟩
  | .hbm, ⟨69, _⟩ => ⟨S50000, .f32⟩
  | .hbm, ⟨70, _⟩ => ⟨S600000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x128, .f32⟩
  | .hbm, ⟨82, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S256x128, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S128x256, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_v26_2 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg13_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem13_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S50000x256.size a
  hwx0_11 : ∀ i : grid0.Coords, EltTy.bits .f32 = 32 ∨ (Rect.block (s := S50000x256) S2000x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x256.size a ≤ S128x256.size a
  hwx1_11 : ∀ i : grid1.Coords, EltTy.bits .f32 = 32 ∨ (Rect.block (s := S128x256) S128x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S50000x128.size a
  hwx1_13 : ∀ i : grid1.Coords, EltTy.bits .f32 = 32 ∨ (Rect.block (s := S50000x128) S2000x128.size (cc1_transform_13 i) (hinb1_13 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26_0) S2000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v26_1) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_2) S2000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v26_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26_2) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v49) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v50) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S50000x256 : Shape := ⟨2, ![50000, 256]⟩
abbrev S1x256 : Shape := ⟨2, ![1, 256]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S600000x256 : Shape := ⟨2, ![600000, 256]⟩
abbrev S1x128 : Shape := ⟨2, ![1, 128]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x600000, .i32⟩
  | 2 => ⟨S256x128, .f32⟩
  | 3 => ⟨S256, .f32⟩
  | 4 => ⟨S256x128, .f32⟩
  | 5 => ⟨S256x256, .f32⟩
  | 6 => ⟨S256, .f32⟩
  | 7 => ⟨S256x256, .f32⟩
  | 8 => ⟨S256x128, .f32⟩
  | 9 => ⟨S256, .f32⟩
  | 10 => ⟨S256x128, .f32⟩
  | 11 => ⟨S256, .f32⟩
  | 12 => ⟨S256x256, .f32⟩
  | 13 => ⟨S256, .f32⟩
  | 14 => ⟨S256x256, .f32⟩
  | 15 => ⟨S256, .f32⟩
  | 16 => ⟨S128x256, .f32⟩
  | 17 => ⟨S128, .f32⟩
  | 18 => ⟨S1x600000, .i32⟩
  | 19 => ⟨S600000, .i32⟩
  | 20 => ⟨S1x600000, .i32⟩
  | 21 => ⟨S600000, .i32⟩
  | 22 => ⟨S128x256, .f32⟩
  | 23 => ⟨S50000x256, .f32⟩
  | 24 => ⟨S1x256, .f32⟩
  | 25 => ⟨S50000x256, .f32⟩
  | 26 => ⟨S50000x256, .f32⟩
  | 27 => ⟨S128x256, .f32⟩
  | 28 => ⟨S50000x256, .f32⟩
  | 29 => ⟨S1x256, .f32⟩
  | 30 => ⟨S50000x256, .f32⟩
  | 31 => ⟨S50000x256, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000, .f32⟩
  | 47 => ⟨S_, .f32⟩
  | 48 => ⟨S50000, .f32⟩
  | 49 => ⟨S600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S128x256, .f32⟩
  | 58 => ⟨S50000x256, .f32⟩
  | 59 => ⟨S1x256, .f32⟩
  | 60 => ⟨S50000x256, .f32⟩
  | 61 => ⟨S50000x256, .f32⟩
  | 62 => ⟨S128x256, .f32⟩
  | 63 => ⟨S50000x256, .f32⟩
  | 64 => ⟨S50000x256, .f32⟩
  | 65 => ⟨S_, .f32⟩
  | 66 => ⟨S50000x256, .f32⟩
  | 67 => ⟨S50000x256, .i1⟩
  | 68 => ⟨S_, .f32⟩
  | 69 => ⟨S50000x256, .f32⟩
  | 70 => ⟨S50000x256, .i1⟩
  | 71 => ⟨S_, .f32⟩
  | 72 => ⟨S_, .f32⟩
  | 73 => ⟨S50000x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x256, .f32⟩
  | 89 => ⟨S_, .f32⟩
  | 90 => ⟨S50000x256, .f32⟩
  | 91 => ⟨S600000x1, .i32⟩
  | 92 => ⟨S50000x256, .f32⟩
  | 93 => ⟨S_, .f32⟩
  | 94 => ⟨S600000, .f32⟩
  | 95 => ⟨S_, .f32⟩
  | 96 => ⟨S50000, .f32⟩
  | 97 => ⟨S600000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x256, .f32⟩
  | 104 => ⟨S50000x256, .f32⟩
  | 105 => ⟨S256x256, .f32⟩
  | 106 => ⟨S50000x256, .f32⟩
  | 107 => ⟨S1x256, .f32⟩
  | 108 => ⟨S50000x256, .f32⟩
  | 109 => ⟨S50000x256, .f32⟩
  | 110 => ⟨S256x256, .f32⟩
  | 111 => ⟨S50000x256, .f32⟩
  | 112 => ⟨S50000x256, .f32⟩
  | 113 => ⟨S_, .f32⟩
  | 114 => ⟨S50000x256, .f32⟩
  | 115 => ⟨S50000x256, .i1⟩
  | 116 => ⟨S_, .f32⟩
  | 117 => ⟨S50000x256, .f32⟩
  | 118 => ⟨S50000x256, .i1⟩
  | 119 => ⟨S_, .f32⟩
  | 120 => ⟨S_, .f32⟩
  | 121 => ⟨S50000x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S256x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .i1⟩
  | 9 => ⟨S_, .f32⟩
  | 10 => ⟨S50000x256, .f32⟩
  | 11 => ⟨S50000x256, .i1⟩
  | 12 => ⟨S_, .f32⟩
  | 13 => ⟨S_, .f32⟩
  | 14 => ⟨S50000x256, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S50000x256, .f32⟩
  | 21 => ⟨S256x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S50000x256, .f32⟩
  | 28 => ⟨S50000x256, .i1⟩
  | 29 => ⟨S_, .f32⟩
  | 30 => ⟨S50000x256, .f32⟩
  | 31 => ⟨S50000x256, .i1⟩
  | 32 => ⟨S_, .f32⟩
  | 33 => ⟨S_, .f32⟩
  | 34 => ⟨S50000x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S50000x256, .f32⟩
  | 41 => ⟨S50000x256, .f32⟩
  | 42 => ⟨S256x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S50000x128, .f32⟩
  | 52 => ⟨S50000x128, .i1⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_cst_1 : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_v4 : Ref sig .tc := ⟨.hbm, 74, rfl⟩
abbrev main_call0_v5 : Ref sig .tc := ⟨.hbm, 75, rfl⟩
abbrev main_call0_cst_2 : Ref sig .tc := ⟨.hbm, 76, rfl⟩
abbrev main_call0_v6 : Ref sig .tc := ⟨.hbm, 77, rfl⟩
abbrev main_call0_v7 : Ref sig .tc := ⟨.hbm, 78, rfl⟩
abbrev main_v41 : Ref sig .tc := ⟨.hbm, 79, rfl⟩
abbrev main_c_4 : Ref sig .tc := ⟨.hbm, 80, rfl⟩
abbrev main_v42 : Ref sig .tc := ⟨.hbm, 81, rfl⟩
abbrev main_v43 : Ref sig .tc := ⟨.hbm, 82, rfl⟩
abbrev main_c_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_cst_8 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_9 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_cst_1 : Ref sig .tc := ⟨.hbm, 119, rfl⟩
abbrev main_call1_call0_v0 : Ref sig .tc := ⟨.hbm, 120, rfl⟩
abbrev main_call1_call0_v1 : Ref sig .tc := ⟨.hbm, 121, rfl⟩
abbrev main_call1_v4 : Ref sig .tc := ⟨.hbm, 122, rfl⟩
abbrev main_call1_v5 : Ref sig .tc := ⟨.hbm, 123, rfl⟩
abbrev main_call1_cst_2 : Ref sig .tc := ⟨.hbm, 124, rfl⟩
abbrev main_call1_v6 : Ref sig .tc := ⟨.hbm, 125, rfl⟩
abbrev main_call1_v7 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_cst_1 : Ref sig .tc := ⟨.hbm, 140, rfl⟩
abbrev main_call2_call0_v0 : Ref sig .tc := ⟨.hbm, 141, rfl⟩
abbrev main_call2_call0_v1 : Ref sig .tc := ⟨.hbm, 142, rfl⟩
abbrev main_call2_v4 : Ref sig .tc := ⟨.hbm, 143, rfl⟩
abbrev main_call2_v5 : Ref sig .tc := ⟨.hbm, 144, rfl⟩
abbrev main_call2_cst_2 : Ref sig .tc := ⟨.hbm, 145, rfl⟩
abbrev main_call2_v6 : Ref sig .tc := ⟨.hbm, 146, rfl⟩
abbrev main_call2_v7 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_cst_0 : Ref sig .tc := ⟨.hbm, 157, rfl⟩
abbrev main_call3_v2 : Ref sig .tc := ⟨.hbm, 158, rfl⟩
abbrev main_call3_v3 : Ref sig .tc := ⟨.hbm, 159, rfl⟩
abbrev main_call3_cst_1 : Ref sig .tc := ⟨.hbm, 160, rfl⟩
abbrev main_call3_call0_v0 : Ref sig .tc := ⟨.hbm, 161, rfl⟩
abbrev main_call3_call0_v1 : Ref sig .tc := ⟨.hbm, 162, rfl⟩
abbrev main_call3_v4 : Ref sig .tc := ⟨.hbm, 163, rfl⟩
abbrev main_call3_v5 : Ref sig .tc := ⟨.hbm, 164, rfl⟩
abbrev main_call3_cst_2 : Ref sig .tc := ⟨.hbm, 165, rfl⟩
abbrev main_call3_v6 : Ref sig .tc := ⟨.hbm, 166, rfl⟩
abbrev main_call3_v7 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_v6 : Ref sig .tc := ⟨.hbm, 182, rfl⟩
abbrev main_call4_v7 : Ref sig .tc := ⟨.hbm, 183, rfl⟩
abbrev main_call4_v8 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_v89 : Ref sig .tc := ⟨.hbm, 188, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KBlocks0.lean ====
/- Stage 1 of the kernel, from blocks to arrays.

   The stage runs over 25 grid points; point `t` works on rows `2000 t … 2000 t + 1999` of the row-blocked arrays
   (one row per node) and on the whole of every weight and bias array. Here: the index maps of its windows decided over
   the grid; each input block read as that part of its array (a row block is the array's rows at `2000 t`, a weight or
   bias block is the array); and, for each output window, that the array the 25 write-backs leave is `G` of the arrays
   the stage is entered from, for ANY `G` whose row `n` is what the body computes at row `p` of a block from blocks
   holding the arrays' row `n` at their row `p` — every output row depends on that row of the row-blocked inputs only.
   The point whose block covers row `r` is `r / 2000`. -/
import proofs.«160599_j22651657519232_1_alg».proof.Proof.KernelIdealFrameP
import Idealize.ShloMosaic.Lib.ValueIdx
import Idealize.ShloMosaic.Lib.Pipeline.Value

set_option maxRecDepth 16384

noncomputable section

namespace Cert.KernelIdeal.KVal

open Cert.KernelIdeal.Gen Cert.KernelIdeal.GenP

open Idealize.ShloMosaic Idealize.ShloMosaic.TcCoe Idealize.ShloMosaic.Tactic
open Idealize.ShloMosaic.Pipeline (Dat Cfg Window cellOf)
open Idealize.ShloMosaic.ValueIdx

variable {F : FTy → Type} [FloatOps F]

-- the contents of the TensorCore's buffers when the stage is entered
variable (V : (c : Dev nD) → (b : Ref sig .tc) → Buf (Elt F) ((c : Thread nD τ).loc b))

/-! ## The windows' index maps -/

/-- The index map of window 0, decided over the grid: block row `t`, block column 0. -/
theorem idx0_0 : ∀ t : Fin cfg0.N, win0_0.index t (0 : Fin 2) = t.val ∧ win0_0.index t (1 : Fin 2) = 0 :=
  (by decide +kernel : ∀ t : Fin grid0.N, _)
/-- The index map of window 1, decided over the grid: block row `t`, block column 0. -/
theorem idx0_1 : ∀ t : Fin cfg0.N, win0_1.index t (0 : Fin 2) = t.val ∧ win0_1.index t (1 : Fin 2) = 0 :=
  (by decide +kernel : ∀ t : Fin grid0.N, _)
/-- The index map of window 2, decided over the grid: the one block (0, 0) at every point. -/
theorem idx0_2 : ∀ t : Fin cfg0.N, win0_2.index t (0 : Fin 2) = 0 ∧ win0_2.index t (1 : Fin 2) = 0 :=
  (by decide +kernel : ∀ t : Fin grid0.N, _)
/-- The index map of window 3, decided over the grid: the one block (0, 0) at every point. -/
theorem idx0_3 : ∀ t : Fin cfg0.N, win0_3.index t (0 : Fin 2) = 0 ∧ win0_3.index t (1 : Fin 2) = 0 :=
  (by decide +kernel : ∀ t : Fin grid0.N, _)
/-- The index map of window 4, decided over the grid: the one block (0, 0) at every point. -/
theorem idx0_4 : ∀ t : Fin cfg0.N, win0_4.index t (0 : Fin 2) = 0 ∧ win0_4.index t (1 : Fin 2) = 0 :=
  (by decide +kernel : ∀ t : Fin grid0.N, _)
/-- The index map of window 5, decided over the grid: the one block (0, 0) at every point. -/
theorem idx0_5 : ∀ t : Fin cfg0.N, win0_5.index t (0 : Fin 2) = 0 ∧ win0_5.index t (1 : Fin 2) = 0 :=
  (by decide +kernel : ∀ t : Fin grid0.N, _)
/-- The index map of window 6, decided over the grid: the one block (0, 0) at every point. -/
theorem idx0_6 : ∀ t : Fin cfg0.N, win0_6.index t (0 : Fin 2) = 0 ∧ win0_6.index t (1 : Fin 2) = 0 :=
  (by decide +kernel : ∀ t : Fin grid0.N, _)
/-- The index map of window 7, decided over the grid: the one block (0, 0) at every point. -/
theorem idx0_7 : ∀ t : Fin cfg0.N, win0_7.index t (0 : Fin 2) = 0 ∧ win0_7.index t (1 : Fin 2) = 0 :=
  (by decide +kernel : ∀ t : Fin grid0.N, _)
/-- The index map of window 8, decided over the grid: the one block (0, 0) at every point. -/
theorem idx0_8 : ∀ t : Fin cfg0.N, win0_8.index t (0 : Fin 2) = 0 ∧ win0_8.index t (1 : Fin 2) = 0 :=
  (by decide +kernel : ∀ t : Fin grid0.N, _)
/-- The index map of window 9, decided over the grid: block row `t`, block column 0. -/
theorem idx0_9 : ∀ t : Fin cfg0.N, win0_9.index t (0 : Fin 2) = t.val ∧ win0_9.index t (1 : Fin 2) = 0 :=
  (by decide +kernel : ∀ t : Fin grid0.N, _)
/-- The index map of window 10, decided over the grid: block row `t`, block column 0. -/
theorem idx0_10 : ∀ t : Fin cfg0.N, win0_10.index t (0 : Fin 2) = t.val ∧ win0_10.index t (1 : Fin 2) = 0 :=
  (by decide +kernel : ∀ t : Fin grid0.N, _)
/-- The index map of window 11, decided over the grid: block row `t`, block column 0. -/
theorem idx0_11 : ∀ t : Fin cfg0.N, win0_11.index t (0 : Fin 2) = t.val ∧ win0_11.index t (1 : Fin 2) = 0 :=
  (by decide +kernel : ∀ t : Fin grid0.N, _)

/-! ## The input blocks, as parts of their arrays -/

/-- Row `p` of input window 0's block at point `t` is row `t * 2000 + p` of its array. -/
theorem iblk0_0_row (c : Dev nD) (t : Fin cfg0.N) (p : Fin 2000) (n : Fin 50000) (hn : n.val = t.val * 2000 + p.val) (j : Fin 128) :
    iblk0 V c 0 t (ix2 p j) = V c main_arg0 (ix2 n j) := by
  show V c main_arg0 (((cfg0.win 0).blk t).view.emb (ix2 p j)) = V c main_arg0 (ix2 n j)
  refine congrArg _ (funext fun a => Fin.ext ?_)
  obtain ⟨e0, e1⟩ := idx0_0 t
  match a with
  | ⟨0, _⟩ => show win0_0.index t (0 : Fin 2) * 2000 + 1 * p.val = n.val; omega
  | ⟨1, _⟩ => show win0_0.index t (1 : Fin 2) * 128 + 1 * j.val = j.val; omega
/-- Row `p` of input window 1's block at point `t` is row `t * 2000 + p` of its array. -/
theorem iblk0_1_row (c : Dev nD) (t : Fin cfg0.N) (p : Fin 2000) (n : Fin 50000) (hn : n.val = t.val * 2000 + p.val) (j : Fin 128) :
    iblk0 V c 1 t (ix2 p j) = V c main_v22 (ix2 n j) := by
  show V c main_v22 (((cfg0.win 1).blk t).view.emb (ix2 p j)) = V c main_v22 (ix2 n j)
  refine congrArg _ (funext fun a => Fin.ext ?_)
  obtain ⟨e0, e1⟩ := idx0_1 t
  match a with
  | ⟨0, _⟩ => show win0_1.index t (0 : Fin 2) * 2000 + 1 * p.val = n.val; omega
  | ⟨1, _⟩ => show win0_1.index t (1 : Fin 2) * 128 + 1 * j.val = j.val; omega
/-- Input window 2's block is its whole array at every point. -/
theorem iblk0_2_eq (c : Dev nD) (t : Fin cfg0.N) : iblk0 V c 2 t = V c main_arg2 := by
  funext y
  show V c main_arg2 (((cfg0.win 2).blk t).view.emb y) = V c main_arg2 y
  refine congrArg _ (funext fun a => Fin.ext ?_)
  obtain ⟨e0, e1⟩ := idx0_2 t
  match a with
  | ⟨0, _⟩ => show win0_2.index t (0 : Fin 2) * 256 + 1 * (y 0).val = (y 0).val; omega
  | ⟨1, _⟩ => show win0_2.index t (1 : Fin 2) * 128 + 1 * (y 1).val = (y 1).val; omega
/-- Input window 3's block is its whole array at every point. -/
theorem iblk0_3_eq (c : Dev nD) (t : Fin cfg0.N) : iblk0 V c 3 t = V c main_v23 := by
  funext y
  show V c main_v23 (((cfg0.win 3).blk t).view.emb y) = V c main_v23 y
  refine congrArg _ (funext fun a => Fin.ext ?_)
  obtain ⟨e0, e1⟩ := idx0_3 t
  match a with
  | ⟨0, _⟩ => show win0_3.index t (0 : Fin 2) * 1 + 1 * (y 0).val = (y 0).val; omega
  | ⟨1, _⟩ => show win0_3.index t (1 : Fin 2) * 256 + 1 * (y 1).val = (y 1).val; omega
/-- Input window 4's block is its whole array at every point. -/
theorem iblk0_4_eq (c : Dev nD) (t : Fin cfg0.N) : iblk0 V c 4 t = V c main_arg4 := by
  funext y
  show V c main_arg4 (((cfg0.win 4).blk t).view.emb y) = V c main_arg4 y
  refine congrArg _ (funext fun a => Fin.ext ?_)
  obtain ⟨e0, e1⟩ := idx0_4 t
  match a with
  | ⟨0, _⟩ => show win0_4.index t (0 : Fin 2) * 256 + 1 * (y 0).val = (y 0).val; omega
  | ⟨1, _⟩ => show win0_4.index t (1 : Fin 2) * 128 + 1 * (y 1).val = (y 1).val; omega
/-- Input window 5's block is its whole array at every point. -/
theorem iblk0_5_eq (c : Dev nD) (t : Fin cfg0.N) : iblk0 V c 5 t = V c main_arg8 := by
  funext y
  show V c main_arg8 (((cfg0.win 5).blk t).view.emb y) = V c main_arg8 y
  refine congrArg _ (funext fun a => Fin.ext ?_)
  obtain ⟨e0, e1⟩ := idx0_5 t
  match a with
  | ⟨0, _⟩ => show win0_5.index t (0 : Fin 2) * 256 + 1 * (y 0).val = (y 0).val; omega
  | ⟨1, _⟩ => show win0_5.index t (1 : Fin 2) * 128 + 1 * (y 1).val = (y 1).val; omega
/-- Input window 6's block is its whole array at every point. -/
theorem iblk0_6_eq (c : Dev nD) (t : Fin cfg0.N) : iblk0 V c 6 t = V c main_v24 := by
  funext y
  show V c main_v24 (((cfg0.win 6).blk t).view.emb y) = V c main_v24 y
  refine congrArg _ (funext fun a => Fin.ext ?_)
  obtain ⟨e0, e1⟩ := idx0_6 t
  match a with
  | ⟨0, _⟩ => show win0_6.index t (0 : Fin 2) * 1 + 1 * (y 0).val = (y 0).val; omega
  | ⟨1, _⟩ => show win0_6.index t (1 : Fin 2) * 256 + 1 * (y 1).val = (y 1).val; omega
/-- Input window 7's block is its whole array at every point. -/
theorem iblk0_7_eq (c : Dev nD) (t : Fin cfg0.N) : iblk0 V c 7 t = V c main_arg10 := by
  funext y
  show V c main_arg10 (((cfg0.win 7).blk t).view.emb y) = V c main_arg10 y
  refine congrArg _ (funext fun a => Fin.ext ?_)
  obtain ⟨e0, e1⟩ := idx0_7 t
  match a with
  | ⟨0, _⟩ => show win0_7.index t (0 : Fin 2) * 256 + 1 * (y 0).val = (y 0).val; omega
  | ⟨1, _⟩ => show win0_7.index t (1 : Fin 2) * 128 + 1 * (y 1).val = (y 1).val; omega
/-- Input window 8's block is its whole array at every point. -/
theorem iblk0_8_eq (c : Dev nD) (t : Fin cfg0.N) : iblk0 V c 8 t = V c main_v25 := by
  funext y
  show V c main_v25 (((cfg0.win 8).blk t).view.emb y) = V c main_v25 y
  refine congrArg _ (funext fun a => Fin.ext ?_)
  obtain ⟨e0, e1⟩ := idx0_8 t
  match a with
  | ⟨0, _⟩ => show win0_8.index t (0 : Fin 2) * 1 + 1 * (y 0).val = (y 0).val; omega
  | ⟨1, _⟩ => show win0_8.index t (1 : Fin 2) * 256 + 1 * (y 1).val = (y 1).val; omega

/-! ## Output window 9 of stage 1: from its 25 blocks to the array -/

/-- WHAT POINT `t` WRITES BACK is block `t` of `G` of the arrays the stage is entered from, for any `G` whose row
    `n` is what the body computes at row `p` of a block from blocks that hold, at row `p`, the arrays' row `n`. -/
theorem flushed0_9_eq (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_9 x0 x1 a2 a3 a4 a5 a6 a7 a8 (ix2 p q) = G a0 a1 a2 a3 a4 a5 a6 a7 a8 (ix2 n q))
    (c : Dev nD) (t : Fin cfg0.N) :
    (dat0 V c).flushed 9 t = ((cfg0.win 9).blk t).view.read (Elt F) (G (V c main_arg0) (V c main_v22) (V c main_arg2) (V c main_v23) (V c main_arg4) (V c main_arg8) (V c main_v24) (V c main_arg10) (V c main_v25)) := by
  show (cfg0.win 9).cut (grid0.coords t) ((dat0 V c).after 9 t) = _
  rw [after0_9]
  funext y
  obtain ⟨p, q, rfl⟩ : ∃ (p : Fin 2000) (q : Fin 256), y = ix2 p q := ⟨y 0, y 1, eq_ix2 y⟩
  have ht : t.val < 25 := t.isLt
  obtain ⟨n, hn⟩ : ∃ n : Fin 50000, n.val = t.val * 2000 + p.val := ⟨⟨t.val * 2000 + p.val, by omega⟩, rfl⟩
  have hemb : ((cfg0.win 9).blk t).view.emb (ix2 p q) = ix2 n q := by
    funext a; apply Fin.ext
    obtain ⟨e0, e1⟩ := idx0_9 t
    match a with
    | ⟨0, _⟩ => show win0_9.index t (0 : Fin 2) * 2000 + 1 * p.val = n.val; omega
    | ⟨1, _⟩ => show win0_9.index t (1 : Fin 2) * 256 + 1 * q.val = q.val; omega
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = G (V c main_arg0) (V c main_v22) (V c main_arg2) (V c main_v23) (V c main_arg4) (V c main_arg8) (V c main_v24) (V c main_arg10) (V c main_v25) (((cfg0.win 9).blk t).view.emb (ix2 p q))
  rw [hemb, iblk0_2_eq V c t, iblk0_3_eq V c t, iblk0_4_eq V c t, iblk0_5_eq V c t, iblk0_6_eq V c t, iblk0_7_eq V c t, iblk0_8_eq V c t]
  exact hG (V c main_arg0) (V c main_v22) (V c main_arg2) (V c main_v23) (V c main_arg4) (V c main_arg8) (V c main_v24) (V c main_arg10) (V c main_v25) (iblk0 V c 0 t) (iblk0 V c 1 t) p n q (fun j => iblk0_0_row V c t p n hn j) (fun j => iblk0_1_row V c t p n hn j)

/-- An index of the array is in point `t`'s block iff each coordinate is in the block's range on its axis. -/
theorem mem_blk0_9 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v26_0).slice (win0_9.rect t)).set ↔ _
  rw [View.set_slice_whole, Rect.mem_set_unit]
  exact Iff.rfl

/-- The 25 blocks of 2000 rows tile the 50000 rows: row `r` is in the block of point `r / 2000`. -/
theorem covered0_9 (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have hlt : (i 0).val / 2000 < 25 := by omega
  refine ⟨⟨(i 0).val / 2000, hlt⟩, flush0_9 _, ?_⟩
  rw [mem_blk0_9]
  obtain ⟨e0, e1⟩ := idx0_9 ⟨(i 0).val / 2000, hlt⟩
  have e0' : win0_9.index ⟨(i 0).val / 2000, hlt⟩ (0 : Fin 2) = (i 0).val / 2000 := e0
  intro a
  match a with
  | ⟨0, _⟩ =>
    show win0_9.index ⟨(i 0).val / 2000, hlt⟩ (0 : Fin 2) * 2000 ≤ (i 0).val ∧ (i 0).val < win0_9.index ⟨(i 0).val / 2000, hlt⟩ (0 : Fin 2) * 2000 + 2000
    omega
  | ⟨1, _⟩ =>
    show win0_9.index ⟨(i 0).val / 2000, hlt⟩ (1 : Fin 2) * 256 ≤ (i 1).val ∧ (i 1).val < win0_9.index ⟨(i 0).val / 2000, hlt⟩ (1 : Fin 2) * 256 + 256
    omega

/-- THE ARRAY after the stage: `G` of the arrays the stage is entered from. -/
theorem final0_9_of (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_9 x0 x1 a2 a3 a4 a5 a6 a7 a8 (ix2 p q) = G a0 a1 a2 a3 a4 a5 a6 a7 a8 (ix2 n q))
    (c : Dev nD) :
    (dat0 V c).arrAt 9 cfg0.N = G (V c main_arg0) (V c main_v22) (V c main_arg2) (V c main_v23) (V c main_arg4) (V c main_arg8) (V c main_v24) (V c main_arg10) (V c main_v25) :=
  (dat0 V c).arrAt_eq_of_cover 9 (G (V c main_arg0) (V c main_v22) (V c main_arg2) (V c main_v23) (V c main_arg4) (V c main_arg8) (V c main_v24) (V c main_arg10) (V c main_v25)) (fun t _ => flushed0_9_eq V G hG c t) (covered0_9)

/-! ## Output window 10 of stage 1: from its 25 blocks to the array -/

/-- WHAT POINT `t` WRITES BACK is block `t` of `G` of the arrays the stage is entered from, for any `G` whose row
    `n` is what the body computes at row `p` of a block from blocks that hold, at row `p`, the arrays' row `n`. -/
theorem flushed0_10_eq (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_10 x0 x1 a2 a3 a4 a5 a6 a7 a8 (ix2 p q) = G a0 a1 a2 a3 a4 a5 a6 a7 a8 (ix2 n q))
    (c : Dev nD) (t : Fin cfg0.N) :
    (dat0 V c).flushed 10 t = ((cfg0.win 10).blk t).view.read (Elt F) (G (V c main_arg0) (V c main_v22) (V c main_arg2) (V c main_v23) (V c main_arg4) (V c main_arg8) (V c main_v24) (V c main_arg10) (V c main_v25)) := by
  show (cfg0.win 10).cut (grid0.coords t) ((dat0 V c).after 10 t) = _
  rw [after0_10]
  funext y
  obtain ⟨p, q, rfl⟩ : ∃ (p : Fin 2000) (q : Fin 256), y = ix2 p q := ⟨y 0, y 1, eq_ix2 y⟩
  have ht : t.val < 25 := t.isLt
  obtain ⟨n, hn⟩ : ∃ n : Fin 50000, n.val = t.val * 2000 + p.val := ⟨⟨t.val * 2000 + p.val, by omega⟩, rfl⟩
  have hemb : ((cfg0.win 10).blk t).view.emb (ix2 p q) = ix2 n q := by
    funext a; apply Fin.ext
    obtain ⟨e0, e1⟩ := idx0_10 t
    match a with
    | ⟨0, _⟩ => show win0_10.index t (0 : Fin 2) * 2000 + 1 * p.val = n.val; omega
    | ⟨1, _⟩ => show win0_10.index t (1 : Fin 2) * 256 + 1 * q.val = q.val; omega
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = G (V c main_arg0) (V c main_v22) (V c main_arg2) (V c main_v23) (V c main_arg4) (V c main_arg8) (V c main_v24) (V c main_arg10) (V c main_v25) (((cfg0.win 10).blk t).view.emb (ix2 p q))
  rw [hemb, iblk0_2_eq V c t, iblk0_3_eq V c t, iblk0_4_eq V c t, iblk0_5_eq V c t, iblk0_6_eq V c t, iblk0_7_eq V c t, iblk0_8_eq V c t]
  exact hG (V c main_arg0) (V c main_v22) (V c main_arg2) (V c main_v23) (V c main_arg4) (V c main_arg8) (V c main_v24) (V c main_arg10) (V c main_v25) (iblk0 V c 0 t) (iblk0 V c 1 t) p n q (fun j => iblk0_0_row V c t p n hn j) (fun j => iblk0_1_row V c t p n hn j)

/-- An index of the array is in point `t`'s block iff each coordinate is in the block's range on its axis. -/
theorem mem_blk0_10 (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v26_1).slice (win0_10.rect t)).set ↔ _
  rw [View.set_slice_whole, Rect.mem_set_unit]
  exact Iff.rfl

/-- The 25 blocks of 2000 rows tile the 50000 rows: row `r` is in the block of point `r / 2000`. -/
theorem covered0_10 (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hlt : (i 0).val / 2000 < 25 := by omega
  refine ⟨⟨(i 0).val / 2000, hlt⟩, flush0_10 _, ?_⟩
  rw [mem_blk0_10]
  obtain ⟨e0, e1⟩ := idx0_10 ⟨(i 0).val / 2000, hlt⟩
  have e0' : win0_10.index ⟨(i 0).val / 2000, hlt⟩ (0 : Fin 2) = (i 0).val / 2000 := e0
  intro a
  match a with
  | ⟨0, _⟩ =>
    show win0_10.index ⟨(i 0).val / 2000, hlt⟩ (0 : Fin 2) * 2000 ≤ (i 0).val ∧ (i 0).val < win0_10.index ⟨(i 0).val / 2000, hlt⟩ (0 : Fin 2) * 2000 + 2000
    omega
  | ⟨1, _⟩ =>
    show win0_10.index ⟨(i 0).val / 2000, hlt⟩ (1 : Fin 2) * 256 ≤ (i 1).val ∧ (i 1).val < win0_10.index ⟨(i 0).val / 2000, hlt⟩ (1 : Fin 2) * 256 + 256
    omega

/-- THE ARRAY after the stage: `G` of the arrays the stage is entered from. -/
theorem final0_10_of (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_10 x0 x1 a2 a3 a4 a5 a6 a7 a8 (ix2 p q) = G a0 a1 a2 a3 a4 a5 a6 a7 a8 (ix2 n q))
    (c : Dev nD) :
    (dat0 V c).arrAt 10 cfg0.N = G (V c main_arg0) (V c main_v22) (V c main_arg2) (V c main_v23) (V c main_arg4) (V c main_arg8) (V c main_v24) (V c main_arg10) (V c main_v25) :=
  (dat0 V c).arrAt_eq_of_cover 10 (G (V c main_arg0) (V c main_v22) (V c main_arg2) (V c main_v23) (V c main_arg4) (V c main_arg8) (V c main_v24) (V c main_arg10) (V c main_v25)) (fun t _ => flushed0_10_eq V G hG c t) (covered0_10)

/-! ## Output window 11 of stage 1: from its 25 blocks to the array -/

/-- WHAT POINT `t` WRITES BACK is block `t` of `G` of the arrays the stage is entered from, for any `G` whose row
    `n` is what the body computes at row `p` of a block from blocks that hold, at row `p`, the arrays' row `n`. -/
theorem flushed0_11_eq (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_11 x0 x1 a2 a3 a4 a5 a6 a7 a8 (ix2 p q) = G a0 a1 a2 a3 a4 a5 a6 a7 a8 (ix2 n q))
    (c : Dev nD) (t : Fin cfg0.N) :
    (dat0 V c).flushed 11 t = ((cfg0.win 11).blk t).view.read (Elt F) (G (V c main_arg0) (V c main_v22) (V c main_arg2) (V c main_v23) (V c main_arg4) (V c main_arg8) (V c main_v24) (V c main_arg10) (V c main_v25)) := by
  show (cfg0.win 11).cut (grid0.coords t) ((dat0 V c).after 11 t) = _
  rw [after0_11]
  funext y
  obtain ⟨p, q, rfl⟩ : ∃ (p : Fin 2000) (q : Fin 256), y = ix2 p q := ⟨y 0, y 1, eq_ix2 y⟩
  have ht : t.val < 25 := t.isLt
  obtain ⟨n, hn⟩ : ∃ n : Fin 50000, n.val = t.val * 2000 + p.val := ⟨⟨t.val * 2000 + p.val, by omega⟩, rfl⟩
  have hemb : ((cfg0.win 11).blk t).view.emb (ix2 p q) = ix2 n q := by
    funext a; apply Fin.ext
    obtain ⟨e0, e1⟩ := idx0_11 t
    match a with
    | ⟨0, _⟩ => show win0_11.index t (0 : Fin 2) * 2000 + 1 * p.val = n.val; omega
    | ⟨1, _⟩ => show win0_11.index t (1 : Fin 2) * 256 + 1 * q.val = q.val; omega
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = G (V c main_arg0) (V c main_v22) (V c main_arg2) (V c main_v23) (V c main_arg4) (V c main_arg8) (V c main_v24) (V c main_arg10) (V c main_v25) (((cfg0.win 11).blk t).view.emb (ix2 p q))
  rw [hemb, iblk0_2_eq V c t, iblk0_3_eq V c t, iblk0_4_eq V c t, iblk0_5_eq V c t, iblk0_6_eq V c t, iblk0_7_eq V c t, iblk0_8_eq V c t]
  exact hG (V c main_arg0) (V c main_v22) (V c main_arg2) (V c main_v23) (V c main_arg4) (V c main_arg8) (V c main_v24) (V c main_arg10) (V c main_v25) (iblk0 V c 0 t) (iblk0 V c 1 t) p n q (fun j => iblk0_0_row V c t p n hn j) (fun j => iblk0_1_row V c t p n hn j)

/-- An index of the array is in point `t`'s block iff each coordinate is in the block's range on its axis. -/
theorem mem_blk0_11 (t : Fin cfg0.N) (i : S50000x256.Idx) :
    i ∈ ((cfg0.win 11).blk t).view.set ↔ ∀ a : Fin 2, win0_11.index t a * S2000x256.size a ≤ (i a).val ∧ (i a).val < win0_11.index t a * S2000x256.size a + S2000x256.size a := by
  show i ∈ ((View.whole main_v26_2).slice (win0_11.rect t)).set ↔ _
  rw [View.set_slice_whole, Rect.mem_set_unit]
  exact Iff.rfl

/-- The 25 blocks of 2000 rows tile the 50000 rows: row `r` is in the block of point `r / 2000`. -/
theorem covered0_11 (i : S50000x256.Idx) :
    ∃ t : Fin cfg0.N, (cfg0.win 11).flush t = true ∧ i ∈ ((cfg0.win 11).blk t).view.set := by
  have hi0 : (i 0).val < 50000 := (i 0).isLt
  have hi1 : (i 1).val < 256 := (i 1).isLt
  have hlt : (i 0).val / 2000 < 25 := by omega
  refine ⟨⟨(i 0).val / 2000, hlt⟩, flush0_11 _, ?_⟩
  rw [mem_blk0_11]
  obtain ⟨e0, e1⟩ := idx0_11 ⟨(i 0).val / 2000, hlt⟩
  have e0' : win0_11.index ⟨(i 0).val / 2000, hlt⟩ (0 : Fin 2) = (i 0).val / 2000 := e0
  intro a
  match a with
  | ⟨0, _⟩ =>
    show win0_11.index ⟨(i 0).val / 2000, hlt⟩ (0 : Fin 2) * 2000 ≤ (i 0).val ∧ (i 0).val < win0_11.index ⟨(i 0).val / 2000, hlt⟩ (0 : Fin 2) * 2000 + 2000
    omega
  | ⟨1, _⟩ =>
    show win0_11.index ⟨(i 0).val / 2000, hlt⟩ (1 : Fin 2) * 256 ≤ (i 1).val ∧ (i 1).val < win0_11.index ⟨(i 0).val / 2000, hlt⟩ (1 : Fin 2) * 256 + 256
    omega

/-- THE ARRAY after the stage: `G` of the arrays the stage is entered from. -/
theorem final0_11_of (G : Vec F S50000x128 .f32 → Vec F S50000x128 .f32 → Vec F S256x128 .f32 → Vec F S1x256 .f32 → Vec F S256x128 .f32 → Vec F S256x128 .f32 → Vec F S1x256 .f32 → Vec F S256x128 .f32 → Vec F S1x256 .f32 → Vec F S50000x256 .f32)
    (hG : ∀ (a0 : Vec F S50000x128 .f32) (a1 : Vec F S50000x128 .f32) (a2 : Vec F S256x128 .f32) (a3 : Vec F S1x256 .f32) (a4 : Vec F S256x128 .f32) (a5 : Vec F S256x128 .f32) (a6 : Vec F S1x256 .f32) (a7 : Vec F S256x128 .f32) (a8 : Vec F S1x256 .f32)
        (x0 : Vec F S2000x128 .f32) (x1 : Vec F S2000x128 .f32) (p : Fin 2000) (n : Fin 50000) (q : Fin 256),
        (∀ j : Fin 128, x0 (ix2 p j) = a0 (ix2 n j)) →
        (∀ j : Fin 128, x1 (ix2 p j) = a1 (ix2 n j)) →
        out0_11 x0 x1 a2 a3 a4 a5 a6 a7 a8 (ix2 p q) = G a0 a1 a2 a3 a4 a5 a6 a7 a8 (ix2 n q))
    (c : Dev nD) :
    (dat0 V c).arrAt 11 cfg0.N = G (V c main_arg0) (V c main_v22) (V c main_arg2) (V c main_v23) (V c main_arg4) (V c main_arg8) (V c main_v24) (V c main_arg10) (V c main_v25) :=
  (dat0 V c).arrAt_eq_of_cover 11 (G (V c main_arg0) (V c main_v22) (V c main_arg2) (V c main_v23) (V c main_arg4) (V c main_arg8) (V c main_v24) (V c main_arg10) (V c main_v25)) (fun t _ => flushed0_11_eq V G hG c t) (covered0_11)

end Cert.KernelIdeal.KVal

end
-- ==== Proof.KBlocks1.lean ====
/- Stage 2 of the kernel, from blocks to arrays.

   The stage runs over 25 grid points; point `t` works on rows `2000 t … 2000 t + 1999` of the row-blocked arrays
   (one row per node) and on the whole of every weight and bias array. Here: the index maps of its windows decided over
   the grid; each input block read as that part of its array (a row block is the array's rows at `2000 t`, a weight or
   bias block is the array); and, for each output window, that the array the 25 write-backs leave is `G` of the arrays
   the stage is entered from, for ANY `G` whose row `n` is what the body computes at row `p` of a block from blocks
   holding the arrays' row `n` at their row `p` — every output row depends on that row of the row-blocked inputs only.
   The point whose block covers row `r` is `r / 2000`. -/
import proofs.«160599_j22651657519232_1_alg».proof.Proof.KernelIdealFrameP
import Idealize.ShloMosaic.Lib.ValueIdx
import Idealize.ShloMosaic.Lib.Pipeline.Value

set_option maxRecDepth 16384

noncomputable section

namespace Cert.KernelIdeal.KVal

open Cert.KernelIdeal.Gen Cert.KernelIdeal.GenP

open Idealize.ShloMosaic Idealize.ShloMosaic.TcCoe Idealize.ShloMosaic.Tactic
open Idealize.ShloMosaic.Pipeline (Dat Cfg Window cellOf)
open Idealize.ShloMosaic.ValueIdx

variable {F : FTy → Type} [FloatOps F]

-- the contents of the TensorCore's buffers when the stage is entered
variable (V : (c : Dev nD) → (b : Ref sig .tc) → Buf (Elt F) ((c : Thread nD τ).loc b))

/-! ## The windows' index maps -/

/-- The index map of window 0, decided over the grid: block row `t`, block column 0. -/
theorem idx1_0 : ∀ t : Fin cfg1.N, win1_0.index t (0 : Fin 2) = t.val ∧ win1_0.index t (1 : Fin 2) = 0 :=
  (by decide +kernel : ∀ t : Fin grid1.N, _)
/-- The index map of window 1, decided over the grid: block row `t`, block column 0. -/
theorem idx1_1 : ∀ t : Fin cfg1.N, win1_1.index t (0 : Fin 2) = t.val ∧ win1_1.index t (1 : Fin 2) = 0 :=
  (by decide +kernel : ∀ t : Fin grid1.N, _)
/-- The index map of window 2, decided over the grid: block row `t`, block column 0. -/
theorem idx1_2 : ∀ t : Fin cfg1.N, win1_2.index t (0 : Fin 2) = t.val ∧ win1_2.index t (1 : Fin 2) = 0 :=
  (by decide +kernel : ∀ t : Fin grid1.N, _)
/-- The index map of window 3, decided over the grid: block row `t`, block column 0. -/
theorem idx1_3 : ∀ t : Fin cfg1.N, win1_3.index t (0 : Fin 2) = t.val ∧ win1_3.index t (1 : Fin 2) = 0 :=
  (by decide +kernel : ∀ t : Fin grid1.N, _)
/-- The index map of window 4, decided over the grid: the one block (0, 0) at every point. -/
theorem idx1_4 : ∀ t : Fin cfg1.N, win1_4.index t (0 : Fin 2) = 0 ∧ win1_4.index t (1 : Fin 2) = 0 :=
  (by decide +kernel : ∀ t : Fin grid1.N, _)
/-- The index map of window 5, decided over the grid: the one block (0, 0) at every point. -/
theorem idx1_5 : ∀ t : Fin cfg1.N, win1_5.index t (0 : Fin 2) = 0 ∧ win1_5.index t (1 : Fin 2) = 0 :=
  (by decide +kernel : ∀ t : Fin grid1.N, _)
/-- The index map of window 6, decided over the grid: the one block (0, 0) at every point. -/
theorem idx1_6 : ∀ t : Fin cfg1.N, win1_6.index t (0 : Fin 2) = 0 ∧ win1_6.index t (1 : Fin 2) = 0 :=
  (by decide +kernel : ∀ t : Fin grid1.N, _)
/-- The index map of window 7, decided over the grid: the one block (0, 0) at every point. -/
theorem idx1_7 : ∀ t : Fin cfg1.N, win1_7.index t (0 : Fin 2) = 0 ∧ win1_7.index t (1 : Fin 2) = 0 :=
  (by decide +kernel : ∀ t : Fin grid1.N, _)
/-- The index map of window 8, decided over the grid: the one block (0, 0) at every point. -/
theorem idx1_8 : ∀ t : Fin cfg1.N, win1_8.index t (0 : Fin 2) = 0 ∧ win1_8.index t (1 : Fin 2) = 0 :=
  (by decide +kernel : ∀ t : Fin grid1.N, _)
/-- The index map of window 9, decided over the grid: the one block (0, 0) at every point. -/
theorem idx1_9 : ∀ t : Fin cfg1.N, win1_9.index t (0 : Fin 2) = 0 ∧ win1_9.index t (1 : Fin 2) = 0 :=
  (by decide +kernel : ∀ t : Fin grid1.N, _)
/-- The index map of window 10, decided over the grid: the one block (0, 0) at every point. -/
theorem idx1_10 : ∀ t : Fin cfg1.N, win1_10.index t (0 : Fin 2) = 0 ∧ win1_10.index t (1 : Fin 2) = 0 :=
  (by decide +kernel : ∀ t : Fin grid1.N, _)
/-- The index map of window 11, decided over the grid: the one block (0, 0) at every point. -/
theorem idx1_11 : ∀ t : Fin cfg1.N, win1_11.index t (0 : Fin 2) = 0 ∧ win1_11.index t (1 : Fin 2) = 0 :=
  (by decide +kernel : ∀ t : Fin grid1.N, _)
/-- The index map of window 12, decided over the grid: the one block (0, 0) at every point. -/
theorem idx1_12 : ∀ t : Fin cfg1.N, win1_12.index t (0 : Fin 2) = 0 ∧ win1_12.index t (1 : Fin 2) = 0 :=
  (by decide +kernel : ∀ t : Fin grid1.N, _)
/-- The index map of window 13, decided over the grid: block row `t`, block column 0. -/
theorem idx1_13 : ∀ t : Fin cfg1.N, win1_13.index t (0 : Fin 2) = t.val ∧ win1_13.index t (1 : Fin 2) = 0 :=
  (by decide +kernel : ∀ t : Fin grid1.N, _)

/-! ## The input blocks, as parts of their arrays -/

/-- Row `p` of input window 0's block at point `t` is row `t * 2000 + p` of its array. -/
theorem iblk1_0_row (c : Dev nD) (t : Fin cfg1.N) (p : Fin 2000) (n : Fin 50000) (hn : n.val = t.val * 2000 + p.val) (j : Fin 256) :
    iblk1 V c 0 t (ix2 p j) = V c main_v26_0 (ix2 n j) := by
  show V c main_v26_0 (((cfg1.win 0).blk t).view.emb (ix2 p j)) = V c main_v26_0 (ix2 n j)
  refine congrArg _ (funext fun a => Fin.ext ?_)
  obtain ⟨e0, e1⟩ := idx1_0 t
  match a with
  | ⟨0, _⟩ => show win1_0.index t (0 : Fin 2) * 2000 + 1 * p.val = n.val; omega
  | ⟨1, _⟩ => show win1_0.index t (1 : Fin 2) * 256 + 1 * j.val = j.val; omega
/-- Row `p` of input window 1's block at point `t` is row `t * 2000 + p` of its array. -/
theorem iblk1_1_row (c : Dev nD) (t : Fin cfg1.N) (p : Fin 2000) (n : Fin 50000) (hn : n.val = t.val * 2000 + p.val) (j : Fin 256) :
    iblk1 V c 1 t (ix2 p j) = V c main_v45 (ix2 n j) := by
  show V c main_v45 (((cfg1.win 1).blk t).view.emb (ix2 p j)) = V c main_v45 (ix2 n j)
  refine congrArg _ (funext fun a => Fin.ext ?_)
  obtain ⟨e0, e1⟩ := idx1_1 t
  match a with
  | ⟨0, _⟩ => show win1_1.index t (0 : Fin 2) * 2000 + 1 * p.val = n.val; omega
  | ⟨1, _⟩ => show win1_1.index t (1 : Fin 2) * 256 + 1 * j.val = j.val; omega
/-- Row `p` of input window 2's block at point `t` is row `t * 2000 + p` of its array. -/
theorem iblk1_2_row (c : Dev nD) (t : Fin cfg1.N) (p : Fin 2000) (n : Fin 50000) (hn : n.val = t.val * 2000 + p.val) (j : Fin 256) :
    iblk1 V c 2 t (ix2 p j) = V c main_v26_1 (ix2 n j) := by
  show V c main_v26_1 (((cfg1.win 2).blk t).view.emb (ix2 p j)) = V c main_v26_1 (ix2 n j)
  refine congrArg _ (funext fun a => Fin.ext ?_)
  obtain ⟨e0, e1⟩ := idx1_2 t
  match a with
  | ⟨0, _⟩ => show win1_2.index t (0 : Fin 2) * 2000 + 1 * p.val = n.val; omega
  | ⟨1, _⟩ => show win1_2.index t (1 : Fin 2) * 256 + 1 * j.val = j.val; omega
/-- Row `p` of input window 3's block at point `t` is row `t * 2000 + p` of its array. -/
theorem iblk1_3_row (c : Dev nD) (t : Fin cfg1.N) (p : Fin 2000) (n : Fin 50000) (hn : n.val = t.val * 2000 + p.val) (j : Fin 256) :
    iblk1 V c 3 t (ix2 p j) = V c main_v26_2 (ix2 n j) := by
  show V c main_v26_2 (((cfg1.win 3).blk t).view.emb (ix2 p j)) = V c main_v26_2 (ix2 n j)
  refine congrArg _ (funext fun a => Fin.ext ?_)
  obtain ⟨e0, e1⟩ := idx1_3 t
  match a with
  | ⟨0, _⟩ => show win1_3.index t (0 : Fin 2) * 2000 + 1 * p.val = n.val; omega
  | ⟨1, _⟩ => show win1_3.index t (1 : Fin 2) * 256 + 1 * j.val = j.val; omega
/-- Input window 4's block is its whole array at every point. -/
theorem iblk1_4_eq (c : Dev nD) (t : Fin cfg1.N) : iblk1 V c 4 t = V c main_arg5 := by
  funext y
  show V c main_arg5 (((cfg1.win 4).blk t).view.emb y) = V c main_arg5 y
  refine congrArg _ (funext fun a => Fin.ext ?_)
  obtain ⟨e0, e1⟩ := idx1_4 t
  match a with
  | ⟨0, _⟩ => show win1_4.index t (0 : Fin 2) * 256 + 1 * (y 0).val = (y 0).val; omega
  | ⟨1, _⟩ => show win1_4.index t (1 : Fin 2) * 256 + 1 * (y 1).val = (y 1).val; omega
/-- Input window 5's block is its whole array at every point. -/
theorem iblk1_5_eq (c : Dev nD) (t : Fin cfg1.N) : iblk1 V c 5 t = V c main_v46 := by
  funext y
  show V c main_v46 (((cfg1.win 5).blk t).view.emb y) = V c main_v46 y
  refine congrArg _ (funext fun a => Fin.ext ?_)
  obtain ⟨e0, e1⟩ := idx1_5 t
  match a with
  | ⟨0, _⟩ => show win1_5.index t (0 : Fin 2) * 1 + 1 * (y 0).val = (y 0).val; omega
  | ⟨1, _⟩ => show win1_5.index t (1 : Fin 2) * 256 + 1 * (y 1).val = (y 1).val; omega
/-- Input window 6's block is its whole array at every point. -/
theorem iblk1_6_eq (c : Dev nD) (t : Fin cfg1.N) : iblk1 V c 6 t = V c main_arg7 := by
  funext y
  show V c main_arg7 (((cfg1.win 6).blk t).view.emb y) = V c main_arg7 y
  refine congrArg _ (funext fun a => Fin.ext ?_)
  obtain ⟨e0, e1⟩ := idx1_6 t
  match a with
  | ⟨0, _⟩ => show win1_6.index t (0 : Fin 2) * 256 + 1 * (y 0).val = (y 0).val; omega
  | ⟨1, _⟩ => show win1_6.index t (1 : Fin 2) * 256 + 1 * (y 1).val = (y 1).val; omega
/-- Input window 7's block is its whole array at every point. -/
theorem iblk1_7_eq (c : Dev nD) (t : Fin cfg1.N) : iblk1 V c 7 t = V c main_arg12 := by
  funext y
  show V c main_arg12 (((cfg1.win 7).blk t).view.emb y) = V c main_arg12 y
  refine congrArg _ (funext fun a => Fin.ext ?_)
  obtain ⟨e0, e1⟩ := idx1_7 t
  match a with
  | ⟨0, _⟩ => show win1_7.index t (0 : Fin 2) * 256 + 1 * (y 0).val = (y 0).val; omega
  | ⟨1, _⟩ => show win1_7.index t (1 : Fin 2) * 256 + 1 * (y 1).val = (y 1).val; omega
/-- Input window 8's block is its whole array at every point. -/
theorem iblk1_8_eq (c : Dev nD) (t : Fin cfg1.N) : iblk1 V c 8 t = V c main_v47 := by
  funext y
  show V c main_v47 (((cfg1.win 8).blk t).view.emb y) = V c main_v47 y
  refine congrArg _ (funext fun a => Fin.ext ?_)
  obtain ⟨e0, e1⟩ := idx1_8 t
  match a with
  | ⟨0, _⟩ => show win1_8.index t (0 : Fin 2) * 1 + 1 * (y 0).val = (y 0).val; omega
  | ⟨1, _⟩ => show win1_8.index t (1 : Fin 2) * 256 + 1 * (y 1).val = (y 1).val; omega
/-- Input window 9's block is its whole array at every point. -/
theorem iblk1_9_eq (c : Dev nD) (t : Fin cfg1.N) : iblk1 V c 9 t = V c main_arg14 := by
  funext y
  show V c main_arg14 (((cfg1.win 9).blk t).view.emb y) = V c main_arg14 y
  refine congrArg _ (funext fun a => Fin.ext ?_)
  obtain ⟨e0, e1⟩ := idx1_9 t
  match a with
  | ⟨0, _⟩ => show win1_9.index t (0 : Fin 2) * 256 + 1 * (y 0).val = (y 0).val; omega
  | ⟨1, _⟩ => show win1_9.index t (1 : Fin 2) * 256 + 1 * (y 1).val = (y 1).val; omega
/-- Input window 10's block is its whole array at every point. -/
theorem iblk1_10_eq (c : Dev nD) (t : Fin cfg1.N) : iblk1 V c 10 t = V c main_v48 := by
  funext y
  show V c main_v48 (((cfg1.win 10).blk t).view.emb y) = V c main_v48 y
  refine congrArg _ (funext fun a => Fin.ext ?_)
  obtain ⟨e0, e1⟩ := idx1_10 t
  match a with
  | ⟨0, _⟩ => show win1_10.index t (0 : Fin 2) * 1 + 1 * (y 0).val = (y 0).val; omega
  | ⟨1, _⟩ => show win1_10.index t (1 : Fin 2) * 256 + 1 * (y 1).val = (y 1).val; omega
/-- Input window 11's block is its whole array at every point. -/
theorem iblk1_11_eq (c : Dev nD) (t : Fin cfg1.N) : iblk1 V c 11 t = V c main_arg16 := by
  funext y
  show V c main_arg16 (((cfg1.win 11).blk t).view.emb y) = V c main_arg16 y
  refine congrArg _ (funext fun a => Fin.ext ?_)
  obtain ⟨e0, e1⟩ := idx1_11 t
  match a with
  | ⟨0, _⟩ => show win1_11.index t (0 : Fin 2) * 128 + 1 * (y 0).val = (y 0).val; omega
  | ⟨1, _⟩ => show win1_11.index t (1 : Fin 2) * 256 + 1 * (y 1).val = (y 1).val; omega
/-- Input window 12's block is its whole array at every point. -/
theorem iblk1_12_eq (c : Dev nD) (t : Fin cfg1.N) : iblk1 V c 12 t = V c main_v49 := by
  funext y
  show V c main_v49 (((cfg1.win 12).blk t).view.emb y) = V c main_v49 y
  refine congrArg _ (funext fun a => Fin.ext ?_)
  obtain ⟨e0, e1⟩ := idx1_12 t
  match a with
  | ⟨0, _⟩ => show win1_12.index t (0 : Fin 2) * 1 + 1 * (y 0).val = (y 0).val; omega
  | ⟨1, _⟩ => show win1_12.index t (1 : Fin 2) * 128 + 1 * (y 1).val = (y 1).val; omega

/-! ## Output window 13 of stage 2: from its 25 blocks to the array -/

/-- WHAT POINT `t` WRITES BACK is block `t` of `G` of the arrays the stage is entered from, for any `G` whose row
    `n` is what the body computes at row `p` of a block from blocks that hold, at row `p`, the arrays' row `n`. -/
theorem flushed1_13_eq (G : Vec F S50000x256 .f32 → Vec F S50000x256 .f32 → Vec F S50000x256 .f32 → Vec F S50000x256 .f32 → Vec F S256x256 .f32 → Vec F S1x256 .f32 → Vec F S256x256 .f32 → Vec F S256x256 .f32 → Vec F S1x256 .f32 → Vec F S256x256 .f32 → Vec F S1x256 .f32 → Vec F S128x256 .f32 → Vec F S1x128 .f32 → Vec F S50000x128 .f32)
    (hG : ∀ (a0 : Vec F S50000x256 .f32) (a1 : Vec F S50000x256 .f32) (a2 : Vec F S50000x256 .f32) (a3 : Vec F S50000x256 .f32) (a4 : Vec F S256x256 .f32) (a5 : Vec F S1x256 .f32) (a6 : Vec F S256x256 .f32) (a7 : Vec F S256x256 .f32) (a8 : Vec F S1x256 .f32) (a9 : Vec F S256x256 .f32) (a10 : Vec F S1x256 .f32) (a11 : Vec F S128x256 .f32) (a12 : Vec F S1x128 .f32)
        (x0 : Vec F S2000x256 .f32) (x1 : Vec F S2000x256 .f32) (x2 : Vec F S2000x256 .f32) (x3 : Vec F S2000x256 .f32) (p : Fin 2000) (n : Fin 50000) (q : Fin 128),
        (∀ j : Fin 256, x0 (ix2 p j) = a0 (ix2 n j)) →
        (∀ j : Fin 256, x1 (ix2 p j) = a1 (ix2 n j)) →
        (∀ j : Fin 256, x2 (ix2 p j) = a2 (ix2 n j)) →
        (∀ j : Fin 256, x3 (ix2 p j) = a3 (ix2 n j)) →
        out1_13 x0 x1 x2 x3 a4 a5 a6 a7 a8 a9 a10 a11 a12 (ix2 p q) = G a0 a1 a2 a3 a4 a5 a6 a7 a8 a9 a10 a11 a12 (ix2 n q))
    (c : Dev nD) (t : Fin cfg1.N) :
    (dat1 V c).flushed 13 t = ((cfg1.win 13).blk t).view.read (Elt F) (G (V c main_v26_0) (V c main_v45) (V c main_v26_1) (V c main_v26_2) (V c main_arg5) (V c main_v46) (V c main_arg7) (V c main_arg12) (V c main_v47) (V c main_arg14) (V c main_v48) (V c main_arg16) (V c main_v49)) := by
  show (cfg1.win 13).cut (grid1.coords t) ((dat1 V c).after 13 t) = _
  rw [after1_13]
  funext y
  obtain ⟨p, q, rfl⟩ : ∃ (p : Fin 2000) (q : Fin 128), y = ix2 p q := ⟨y 0, y 1, eq_ix2 y⟩
  have ht : t.val < 25 := t.isLt
  obtain ⟨n, hn⟩ : ∃ n : Fin 50000, n.val = t.val * 2000 + p.val := ⟨⟨t.val * 2000 + p.val, by omega⟩, rfl⟩
  have hemb : ((cfg1.win 13).blk t).view.emb (ix2 p q) = ix2 n q := by
    funext a; apply Fin.ext
    obtain ⟨e0, e1⟩ := idx1_13 t
    match a with
    | ⟨0, _⟩ => show win1_13.index t (0 : Fin 2) * 2000 + 1 * p.val = n.val; omega
    | ⟨1, _⟩ => show win1_13.index t (1 : Fin 2) * 128 + 1 * q.val = q.val; omega
  show out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 p q)
    = G (V c main_v26_0) (V c main_v45) (V c main_v26_1) (V c main_v26_2) (V c main_arg5) (V c main_v46) (V c main_arg7) (V c main_arg12) (V c main_v47) (V c main_arg14) (V c main_v48) (V c main_arg16) (V c main_v49) (((cfg1.win 13).blk t).view.emb (ix2 p q))
  rw [hemb, iblk1_4_eq V c t, iblk1_5_eq V c t, iblk1_6_eq V c t, iblk1_7_eq V c t, iblk1_8_eq V c t, iblk1_9_eq V c t, iblk1_10_eq V c t, iblk1_11_eq V c t, iblk1_12_eq V c t]
  exact hG (V c main_v26_0) (V c main_v45) (V c main_v26_1) (V c main_v26_2) (V c main_arg5) (V c main_v46) (V c main_arg7) (V c main_arg12) (V c main_v47) (V c main_arg14) (V c main_v48) (V c main_arg16) (V c main_v49) (iblk1 V c 0 t) (iblk1 V c 1 t) (iblk1 V c 2 t) (iblk1 V c 3 t) p n q (fun j => iblk1_0_row V c t p n hn j) (fun j => iblk1_1_row V c t p n hn j) (fun j => iblk1_2_row V c t p n hn j) (fun j => iblk1_3_row V c t p n hn j)

/-- An index of the array is in point `t`'s block iff each coordinate is in the block's range on its axis. -/
theorem mem_blk1_13 (t : Fin cfg1.N) (i : S50000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v50).slice (win1_13.rect t)).set ↔ _
  rw [View.set_slice_whole, Rect.mem_set_unit]
  exact Iff.rfl

/-- The 25 blocks of 2000 rows tile the 50000 rows: row `r` is in the block of point `r / 2000`. -/
theorem covered1_13 (i : S50000x128.Idx) :
    ∃ t : Fin cfg1.N, (cfg1.win 13).flush t = true ∧ i ∈ ((cfg1.win 13).blk t).view.set := by
  have hi0 : (i 0).val < 50000 := (i 0).isLt
  have hi1 : (i 1).val < 128 := (i 1).isLt
  have hlt : (i 0).val / 2000 < 25 := by omega
  refine ⟨⟨(i 0).val / 2000, hlt⟩, flush1_13 _, ?_⟩
  rw [mem_blk1_13]
  obtain ⟨e0, e1⟩ := idx1_13 ⟨(i 0).val / 2000, hlt⟩
  have e0' : win1_13.index ⟨(i 0).val / 2000, hlt⟩ (0 : Fin 2) = (i 0).val / 2000 := e0
  intro a
  match a with
  | ⟨0, _⟩ =>
    show win1_13.index ⟨(i 0).val / 2000, hlt⟩ (0 : Fin 2) * 2000 ≤ (i 0).val ∧ (i 0).val < win1_13.index ⟨(i 0).val / 2000, hlt⟩ (0 : Fin 2) * 2000 + 2000
    omega
  | ⟨1, _⟩ =>
    show win1_13.index ⟨(i 0).val / 2000, hlt⟩ (1 : Fin 2) * 128 ≤ (i 1).val ∧ (i 1).val < win1_13.index ⟨(i 0).val / 2000, hlt⟩ (1 : Fin 2) * 128 + 128
    omega

/-- THE ARRAY after the stage: `G` of the arrays the stage is entered from. -/
theorem final1_13_of (G : Vec F S50000x256 .f32 → Vec F S50000x256 .f32 → Vec F S50000x256 .f32 → Vec F S50000x256 .f32 → Vec F S256x256 .f32 → Vec F S1x256 .f32 → Vec F S256x256 .f32 → Vec F S256x256 .f32 → Vec F S1x256 .f32 → Vec F S256x256 .f32 → Vec F S1x256 .f32 → Vec F S128x256 .f32 → Vec F S1x128 .f32 → Vec F S50000x128 .f32)
    (hG : ∀ (a0 : Vec F S50000x256 .f32) (a1 : Vec F S50000x256 .f32) (a2 : Vec F S50000x256 .f32) (a3 : Vec F S50000x256 .f32) (a4 : Vec F S256x256 .f32) (a5 : Vec F S1x256 .f32) (a6 : Vec F S256x256 .f32) (a7 : Vec F S256x256 .f32) (a8 : Vec F S1x256 .f32) (a9 : Vec F S256x256 .f32) (a10 : Vec F S1x256 .f32) (a11 : Vec F S128x256 .f32) (a12 : Vec F S1x128 .f32)
        (x0 : Vec F S2000x256 .f32) (x1 : Vec F S2000x256 .f32) (x2 : Vec F S2000x256 .f32) (x3 : Vec F S2000x256 .f32) (p : Fin 2000) (n : Fin 50000) (q : Fin 128),
        (∀ j : Fin 256, x0 (ix2 p j) = a0 (ix2 n j)) →
        (∀ j : Fin 256, x1 (ix2 p j) = a1 (ix2 n j)) →
        (∀ j : Fin 256, x2 (ix2 p j) = a2 (ix2 n j)) →
        (∀ j : Fin 256, x3 (ix2 p j) = a3 (ix2 n j)) →
        out1_13 x0 x1 x2 x3 a4 a5 a6 a7 a8 a9 a10 a11 a12 (ix2 p q) = G a0 a1 a2 a3 a4 a5 a6 a7 a8 a9 a10 a11 a12 (ix2 n q))
    (c : Dev nD) :
    (dat1 V c).arrAt 13 cfg1.N = G (V c main_v26_0) (V c main_v45) (V c main_v26_1) (V c main_v26_2) (V c main_arg5) (V c main_v46) (V c main_arg7) (V c main_arg12) (V c main_v47) (V c main_arg14) (V c main_v48) (V c main_arg16) (V c main_v49) :=
  (dat1 V c).arrAt_eq_of_cover 13 (G (V c main_v26_0) (V c main_v45) (V c main_v26_1) (V c main_v26_2) (V c main_arg5) (V c main_v46) (V c main_arg7) (V c main_arg12) (V c main_v47) (V c main_arg14) (V c main_v48) (V c main_arg16) (V c main_v49)) (fun t _ => flushed1_13_eq V G hG c t) (covered1_13)

end Cert.KernelIdeal.KVal

end
-- ==== Proof.KHost.lean ====
/- The two stretches of host operations of the kernel's program, read back.

   The first stretch computes, from the node features (50000 x 128) and the edge list (2 x 600000), the first
   neighbourhood mean: for every node the mean, over its incoming edges, of the source nodes' feature rows, the count
   clamped below by 1; it also reshapes three bias vectors into one-row arrays. The second stretch does the same with
   the first stage's first output array (50000 x 256) in place of the node features, along the same edge list, and
   reshapes four more bias vectors. Each aggregation is named as one function of the array aggregated and the two
   node-number vectors of the edge list, and is never opened: whoever compares this program with another that
   aggregates the same way compares the arguments.

   Also here: every buffer the two stages read that neither stretch nor the first stage writes is what it was at
   launch, and the first stage's three output arrays pass through the second stretch untouched. -/
import proofs.«160599_j22651657519232_1_alg».proof.Proof.KernelIdealFrameP

set_option maxRecDepth 16384

noncomputable section

namespace Cert.KernelIdeal.KVal

open Cert.KernelIdeal.Gen Cert.KernelIdeal.GenP

open Idealize.ShloMosaic Idealize.ShloMosaic.TcCoe Idealize.ShloMosaic.Tactic
open Idealize.ShloMosaic.Pipeline (Dat Cfg Window cellOf)

variable {F : FTy → Type} [FloatOps F]

/-- The edge list's source nodes: row 0 of the 2 x 600000 edge array, as a vector of 600000 node numbers. -/
def edgeSrc (e : (⟨S2x600000, .i32⟩ : BufTy).Contents (Elt F)) : (⟨S600000, .i32⟩ : BufTy).Contents (Elt F) :=
  fun i => shapeCast S600000 (extractStridedSlice S1x600000 ![0, 0] e slices_S2x600000_S1x600000_0_0) shapeCasts_S1x600000_S600000 i

/-- The edge list's destination nodes: row 1 of the 2 x 600000 edge array, as a vector of 600000 node numbers. -/
def edgeDst (e : (⟨S2x600000, .i32⟩ : BufTy).Contents (Elt F)) : (⟨S600000, .i32⟩ : BufTy).Contents (Elt F) :=
  fun i => shapeCast S600000 (extractStridedSlice S1x600000 ![1, 0] e slices_S2x600000_S1x600000_1_0) shapeCasts_S1x600000_S600000 i

/-- Mean aggregation over incoming edges, at feature width 128: gather the source nodes' rows of `x` (a negative
    source number wrapped by adding 50000), scatter-add them onto the destination nodes' rows of a zero array, and
    divide each row by the destination's in-degree (ones scatter-added onto zeros) clamped below by 1. -/
def meanAgg128 (x : (⟨S50000x128, .f32⟩ : BufTy).Contents (Elt F)) (src dst : (⟨S600000, .i32⟩ : BufTy).Contents (Elt F)) :
    (⟨S50000x128, .f32⟩ : BufTy).Contents (Elt F) :=
  Host.divf (F := F)
    (Host.scatterAdd (F := F) scatter_S50000x128_S600000x1_S600000x128_1_0_0_1
      (broadcastInDim S50000x128 ![] bcast_S_S50000x128 (constant (F := F) S_ .f32 0x00000000#32))
      (broadcastInDim S600000x1 ![0] bcast_S600000_S600000x1_0 dst)
      (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd (F := F) scatter_S50000_S600000x1_S600000_n_0_0_1
            (broadcastInDim S50000 ![] bcast_S_S50000 (constant (F := F) S_ .f32 0x00000000#32))
            (broadcastInDim S600000x1 ![0] bcast_S600000_S600000x1_0 dst)
            (broadcastInDim S600000 ![] bcast_S_S600000 (constant (F := F) S_ .f32 0x3F800000#32)))
          (broadcastInDim S50000 ![] bcast_S_S50000 (constant (F := F) S_ .f32 0x3F800000#32)))))

/-- Mean aggregation over incoming edges, at feature width 256: the same operations as `meanAgg128` on rows of 256. -/
def meanAgg256 (x : (⟨S50000x256, .f32⟩ : BufTy).Contents (Elt F)) (src dst : (⟨S600000, .i32⟩ : BufTy).Contents (Elt F)) :
    (⟨S50000x256, .f32⟩ : BufTy).Contents (Elt F) :=
  Host.divf (F := F)
    (Host.scatterAdd (F := F) scatter_S50000x256_S600000x1_S600000x256_1_0_0_1
      (broadcastInDim S50000x256 ![] bcast_S_S50000x256 (constant (F := F) S_ .f32 0x00000000#32))
      (broadcastInDim S600000x1 ![0] bcast_S600000_S600000x1_0 dst)
      (Host.gather gather_S50000x256_S600000x1_S600000x256_1_0_n_n_0_1_1256 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x256 ![0, 1] bcast_S50000x1_S50000x256_0_1
      (broadcastInDim S50000x1 ![0] bcast_S50000_S50000x1_0
        (maximumf
          (Host.scatterAdd (F := F) scatter_S50000_S600000x1_S600000_n_0_0_1
            (broadcastInDim S50000 ![] bcast_S_S50000 (constant (F := F) S_ .f32 0x00000000#32))
            (broadcastInDim S600000x1 ![0] bcast_S600000_S600000x1_0 dst)
            (broadcastInDim S600000 ![] bcast_S_S600000 (constant (F := F) S_ .f32 0x3F800000#32)))
          (broadcastInDim S50000 ![] bcast_S_S50000 (constant (F := F) S_ .f32 0x3F800000#32)))))

/-- A bias vector of 256 entries as an array of one row. -/
def biasRow256 (b : (⟨S256, .f32⟩ : BufTy).Contents (Elt F)) : (⟨S1x256, .f32⟩ : BufTy).Contents (Elt F) :=
  fun i => shapeCast S1x256 b shapeCasts_S256_S1x256 i

/-- A bias vector of 128 entries as an array of one row. -/
def biasRow128 (b : (⟨S128, .f32⟩ : BufTy).Contents (Elt F)) : (⟨S1x128, .f32⟩ : BufTy).Contents (Elt F) :=
  fun i => shapeCast S1x128 b shapeCasts_S128_S1x128 i

variable (m : (ℓ : Loc nD τ sig) → Buf (Elt F) ℓ) (ρ : Dev nD → PrngReg)

/-! ## The first stretch of host operations: what the first stage is entered from -/

/-- The first neighbourhood mean: the mean aggregation of the node features along the edge list. -/
theorem V1_main_v22 (c : Dev nD) :
    V1 m ρ c main_v22 = meanAgg128 (m ((c.tc : Thread nD τ).loc main_arg0)) (edgeSrc (m ((c.tc : Thread nD τ).loc main_arg1))) (edgeDst (m ((c.tc : Thread nD τ).loc main_arg1))) := by
  show StableHlo.after hostOps0 (W0 m ρ c) (Proc.devRef .tc main_v22) = _
  after_results_simp
  rfl

/-- The source-node vector the first stretch leaves (the second stretch reads it again). -/
theorem W1_main_v1 (c : Dev nD) : W1 m ρ c (Proc.devRef .tc main_v1) = edgeSrc (m ((c.tc : Thread nD τ).loc main_arg1)) := by
  show StableHlo.after hostOps0 (W0 m ρ c) (Proc.devRef .tc main_v1) = _
  after_results_simp
  rfl

/-- The destination-node vector the first stretch leaves (the second stretch reads it again). -/
theorem W1_main_v3 (c : Dev nD) : W1 m ρ c (Proc.devRef .tc main_v3) = edgeDst (m ((c.tc : Thread nD τ).loc main_arg1)) := by
  show StableHlo.after hostOps0 (W0 m ρ c) (Proc.devRef .tc main_v3) = _
  after_results_simp
  rfl

/-- A bias vector as a one-row array. -/
theorem V1_main_v23 (c : Dev nD) : V1 m ρ c main_v23 = biasRow256 (m ((c.tc : Thread nD τ).loc main_arg3)) := by
  show StableHlo.after hostOps0 (W0 m ρ c) (Proc.devRef .tc main_v23) = _
  after_results_simp
  rfl

/-- A bias vector as a one-row array. -/
theorem V1_main_v24 (c : Dev nD) : V1 m ρ c main_v24 = biasRow256 (m ((c.tc : Thread nD τ).loc main_arg9)) := by
  show StableHlo.after hostOps0 (W0 m ρ c) (Proc.devRef .tc main_v24) = _
  after_results_simp
  rfl

/-- A bias vector as a one-row array. -/
theorem V1_main_v25 (c : Dev nD) : V1 m ρ c main_v25 = biasRow256 (m ((c.tc : Thread nD τ).loc main_arg11)) := by
  show StableHlo.after hostOps0 (W0 m ρ c) (Proc.devRef .tc main_v25) = _
  after_results_simp
  rfl

/-- No operation of the first stretch writes this argument. -/
theorem V1_main_arg0 (c : Dev nD) : V1 m ρ c main_arg0 = m ((c.tc : Thread nD τ).loc main_arg0) := by
  show StableHlo.after hostOps0 (W0 m ρ c) (Proc.devRef .tc main_arg0) = _
  after_results_simp

/-- No operation of the first stretch writes this argument. -/
theorem V1_main_arg2 (c : Dev nD) : V1 m ρ c main_arg2 = m ((c.tc : Thread nD τ).loc main_arg2) := by
  show StableHlo.after hostOps0 (W0 m ρ c) (Proc.devRef .tc main_arg2) = _
  after_results_simp

/-- No operation of the first stretch writes this argument. -/
theorem V1_main_arg4 (c : Dev nD) : V1 m ρ c main_arg4 = m ((c.tc : Thread nD τ).loc main_arg4) := by
  show StableHlo.after hostOps0 (W0 m ρ c) (Proc.devRef .tc main_arg4) = _
  after_results_simp

/-- No operation of the first stretch writes this argument. -/
theorem V1_main_arg8 (c : Dev nD) : V1 m ρ c main_arg8 = m ((c.tc : Thread nD τ).loc main_arg8) := by
  show StableHlo.after hostOps0 (W0 m ρ c) (Proc.devRef .tc main_arg8) = _
  after_results_simp

/-- No operation of the first stretch writes this argument. -/
theorem V1_main_arg10 (c : Dev nD) : V1 m ρ c main_arg10 = m ((c.tc : Thread nD τ).loc main_arg10) := by
  show StableHlo.after hostOps0 (W0 m ρ c) (Proc.devRef .tc main_arg10) = _
  after_results_simp

/-- No operation of the first stretch writes this argument. -/
theorem W1_main_arg5 (c : Dev nD) : W1 m ρ c (Proc.devRef .tc main_arg5) = m ((c.tc : Thread nD τ).loc main_arg5) := by
  show StableHlo.after hostOps0 (W0 m ρ c) (Proc.devRef .tc main_arg5) = _
  after_results_simp

/-- No operation of the first stretch writes this argument. -/
theorem W1_main_arg6 (c : Dev nD) : W1 m ρ c (Proc.devRef .tc main_arg6) = m ((c.tc : Thread nD τ).loc main_arg6) := by
  show StableHlo.after hostOps0 (W0 m ρ c) (Proc.devRef .tc main_arg6) = _
  after_results_simp

/-- No operation of the first stretch writes this argument. -/
theorem W1_main_arg7 (c : Dev nD) : W1 m ρ c (Proc.devRef .tc main_arg7) = m ((c.tc : Thread nD τ).loc main_arg7) := by
  show StableHlo.after hostOps0 (W0 m ρ c) (Proc.devRef .tc main_arg7) = _
  after_results_simp

/-- No operation of the first stretch writes this argument. -/
theorem W1_main_arg12 (c : Dev nD) : W1 m ρ c (Proc.devRef .tc main_arg12) = m ((c.tc : Thread nD τ).loc main_arg12) := by
  show StableHlo.after hostOps0 (W0 m ρ c) (Proc.devRef .tc main_arg12) = _
  after_results_simp

/-- No operation of the first stretch writes this argument. -/
theorem W1_main_arg13 (c : Dev nD) : W1 m ρ c (Proc.devRef .tc main_arg13) = m ((c.tc : Thread nD τ).loc main_arg13) := by
  show StableHlo.after hostOps0 (W0 m ρ c) (Proc.devRef .tc main_arg13) = _
  after_results_simp

/-- No operation of the first stretch writes this argument. -/
theorem W1_main_arg14 (c : Dev nD) : W1 m ρ c (Proc.devRef .tc main_arg14) = m ((c.tc : Thread nD τ).loc main_arg14) := by
  show StableHlo.after hostOps0 (W0 m ρ c) (Proc.devRef .tc main_arg14) = _
  after_results_simp

/-- No operation of the first stretch writes this argument. -/
theorem W1_main_arg15 (c : Dev nD) : W1 m ρ c (Proc.devRef .tc main_arg15) = m ((c.tc : Thread nD τ).loc main_arg15) := by
  show StableHlo.after hostOps0 (W0 m ρ c) (Proc.devRef .tc main_arg15) = _
  after_results_simp

/-- No operation of the first stretch writes this argument. -/
theorem W1_main_arg16 (c : Dev nD) : W1 m ρ c (Proc.devRef .tc main_arg16) = m ((c.tc : Thread nD τ).loc main_arg16) := by
  show StableHlo.after hostOps0 (W0 m ρ c) (Proc.devRef .tc main_arg16) = _
  after_results_simp

/-- No operation of the first stretch writes this argument. -/
theorem W1_main_arg17 (c : Dev nD) : W1 m ρ c (Proc.devRef .tc main_arg17) = m ((c.tc : Thread nD τ).loc main_arg17) := by
  show StableHlo.after hostOps0 (W0 m ρ c) (Proc.devRef .tc main_arg17) = _
  after_results_simp

/-! ## Across the first stage: its three output arrays are what its write-backs leave, every other buffer is untouched -/

theorem W2_main_v26_0 (c : Dev nD) : W2 m ρ c (Proc.devRef .tc main_v26_0) = (dat0 (V1 m ρ) c).arrAt 9 cfg0.N := W2_arr m ρ c 9
theorem W2_main_v26_1 (c : Dev nD) : W2 m ρ c (Proc.devRef .tc main_v26_1) = (dat0 (V1 m ρ) c).arrAt 10 cfg0.N := W2_arr m ρ c 10
theorem W2_main_v26_2 (c : Dev nD) : W2 m ρ c (Proc.devRef .tc main_v26_2) = (dat0 (V1 m ρ) c).arrAt 11 cfg0.N := W2_arr m ρ c 11

theorem W2_main_v1 (c : Dev nD) : W2 m ρ c (Proc.devRef .tc main_v1) = edgeSrc (m ((c.tc : Thread nD τ).loc main_arg1)) :=
  (W2_of_ne m ρ c main_v1 (by decide)).trans (W1_main_v1 m ρ c)
theorem W2_main_v3 (c : Dev nD) : W2 m ρ c (Proc.devRef .tc main_v3) = edgeDst (m ((c.tc : Thread nD τ).loc main_arg1)) :=
  (W2_of_ne m ρ c main_v3 (by decide)).trans (W1_main_v3 m ρ c)

theorem W2_main_arg5 (c : Dev nD) : W2 m ρ c (Proc.devRef .tc main_arg5) = m ((c.tc : Thread nD τ).loc main_arg5) :=
  (W2_of_ne m ρ c main_arg5 (by decide)).trans (W1_main_arg5 m ρ c)
theorem W2_main_arg6 (c : Dev nD) : W2 m ρ c (Proc.devRef .tc main_arg6) = m ((c.tc : Thread nD τ).loc main_arg6) :=
  (W2_of_ne m ρ c main_arg6 (by decide)).trans (W1_main_arg6 m ρ c)
theorem W2_main_arg7 (c : Dev nD) : W2 m ρ c (Proc.devRef .tc main_arg7) = m ((c.tc : Thread nD τ).loc main_arg7) :=
  (W2_of_ne m ρ c main_arg7 (by decide)).trans (W1_main_arg7 m ρ c)
theorem W2_main_arg12 (c : Dev nD) : W2 m ρ c (Proc.devRef .tc main_arg12) = m ((c.tc : Thread nD τ).loc main_arg12) :=
  (W2_of_ne m ρ c main_arg12 (by decide)).trans (W1_main_arg12 m ρ c)
theorem W2_main_arg13 (c : Dev nD) : W2 m ρ c (Proc.devRef .tc main_arg13) = m ((c.tc : Thread nD τ).loc main_arg13) :=
  (W2_of_ne m ρ c main_arg13 (by decide)).trans (W1_main_arg13 m ρ c)
theorem W2_main_arg14 (c : Dev nD) : W2 m ρ c (Proc.devRef .tc main_arg14) = m ((c.tc : Thread nD τ).loc main_arg14) :=
  (W2_of_ne m ρ c main_arg14 (by decide)).trans (W1_main_arg14 m ρ c)
theorem W2_main_arg15 (c : Dev nD) : W2 m ρ c (Proc.devRef .tc main_arg15) = m ((c.tc : Thread nD τ).loc main_arg15) :=
  (W2_of_ne m ρ c main_arg15 (by decide)).trans (W1_main_arg15 m ρ c)
theorem W2_main_arg16 (c : Dev nD) : W2 m ρ c (Proc.devRef .tc main_arg16) = m ((c.tc : Thread nD τ).loc main_arg16) :=
  (W2_of_ne m ρ c main_arg16 (by decide)).trans (W1_main_arg16 m ρ c)
theorem W2_main_arg17 (c : Dev nD) : W2 m ρ c (Proc.devRef .tc main_arg17) = m ((c.tc : Thread nD τ).loc main_arg17) :=
  (W2_of_ne m ρ c main_arg17 (by decide)).trans (W1_main_arg17 m ρ c)

/-! ## The second stretch of host operations: what the second stage is entered from -/

/-- The second neighbourhood mean: the mean aggregation, along the same edge list, of the first stage's first output
    array. -/
theorem V3_main_v45 (c : Dev nD) :
    V3 m ρ c main_v45 = meanAgg256 ((dat0 (V1 m ρ) c).arrAt 9 cfg0.N) (edgeSrc (m ((c.tc : Thread nD τ).loc main_arg1))) (edgeDst (m ((c.tc : Thread nD τ).loc main_arg1))) := by
  have e : V3 m ρ c main_v45 = meanAgg256 (W2 m ρ c (Proc.devRef .tc main_v26_0)) (W2 m ρ c (Proc.devRef .tc main_v1))
      (W2 m ρ c (Proc.devRef .tc main_v3)) := by
    show StableHlo.after hostOps1 (W2 m ρ c) (Proc.devRef .tc main_v45) = _
    after_results_simp
    rfl
  rw [e, W2_main_v26_0, W2_main_v1, W2_main_v3]

/-- A bias vector as a one-row array. -/
theorem V3_main_v46 (c : Dev nD) : V3 m ρ c main_v46 = biasRow256 (m ((c.tc : Thread nD τ).loc main_arg6)) := by
  have e : V3 m ρ c main_v46 = biasRow256 (W2 m ρ c (Proc.devRef .tc main_arg6)) := by
    show StableHlo.after hostOps1 (W2 m ρ c) (Proc.devRef .tc main_v46) = _
    after_results_simp
    rfl
  rw [e, W2_main_arg6]

/-- A bias vector as a one-row array. -/
theorem V3_main_v47 (c : Dev nD) : V3 m ρ c main_v47 = biasRow256 (m ((c.tc : Thread nD τ).loc main_arg13)) := by
  have e : V3 m ρ c main_v47 = biasRow256 (W2 m ρ c (Proc.devRef .tc main_arg13)) := by
    show StableHlo.after hostOps1 (W2 m ρ c) (Proc.devRef .tc main_v47) = _
    after_results_simp
    rfl
  rw [e, W2_main_arg13]

/-- A bias vector as a one-row array. -/
theorem V3_main_v48 (c : Dev nD) : V3 m ρ c main_v48 = biasRow256 (m ((c.tc : Thread nD τ).loc main_arg15)) := by
  have e : V3 m ρ c main_v48 = biasRow256 (W2 m ρ c (Proc.devRef .tc main_arg15)) := by
    show StableHlo.after hostOps1 (W2 m ρ c) (Proc.devRef .tc main_v48) = _
    after_results_simp
    rfl
  rw [e, W2_main_arg15]

/-- A bias vector as a one-row array. -/
theorem V3_main_v49 (c : Dev nD) : V3 m ρ c main_v49 = biasRow128 (m ((c.tc : Thread nD τ).loc main_arg17)) := by
  have e : V3 m ρ c main_v49 = biasRow128 (W2 m ρ c (Proc.devRef .tc main_arg17)) := by
    show StableHlo.after hostOps1 (W2 m ρ c) (Proc.devRef .tc main_v49) = _
    after_results_simp
    rfl
  rw [e, W2_main_arg17]

/-- No operation of the second stretch writes the first stage's output arrays. -/
theorem V3_main_v26_0 (c : Dev nD) : V3 m ρ c main_v26_0 = (dat0 (V1 m ρ) c).arrAt 9 cfg0.N := by
  have e : V3 m ρ c main_v26_0 = W2 m ρ c (Proc.devRef .tc main_v26_0) := by
    show StableHlo.after hostOps1 (W2 m ρ c) (Proc.devRef .tc main_v26_0) = _
    after_results_simp
  rw [e, W2_main_v26_0]

/-- No operation of the second stretch writes the first stage's output arrays. -/
theorem V3_main_v26_1 (c : Dev nD) : V3 m ρ c main_v26_1 = (dat0 (V1 m ρ) c).arrAt 10 cfg0.N := by
  have e : V3 m ρ c main_v26_1 = W2 m ρ c (Proc.devRef .tc main_v26_1) := by
    show StableHlo.after hostOps1 (W2 m ρ c) (Proc.devRef .tc main_v26_1) = _
    after_results_simp
  rw [e, W2_main_v26_1]

/-- No operation of the second stretch writes the first stage's output arrays. -/
theorem V3_main_v26_2 (c : Dev nD) : V3 m ρ c main_v26_2 = (dat0 (V1 m ρ) c).arrAt 11 cfg0.N := by
  have e : V3 m ρ c main_v26_2 = W2 m ρ c (Proc.devRef .tc main_v26_2) := by
    show StableHlo.after hostOps1 (W2 m ρ c) (Proc.devRef .tc main_v26_2) = _
    after_results_simp
  rw [e, W2_main_v26_2]

/-- No operation of the second stretch writes this argument. -/
theorem V3_main_arg5 (c : Dev nD) : V3 m ρ c main_arg5 = m ((c.tc : Thread nD τ).loc main_arg5) := by
  have e : V3 m ρ c main_arg5 = W2 m ρ c (Proc.devRef .tc main_arg5) := by
    show StableHlo.after hostOps1 (W2 m ρ c) (Proc.devRef .tc main_arg5) = _
    after_results_simp
  rw [e, W2_main_arg5]

/-- No operation of the second stretch writes this argument. -/
theorem V3_main_arg7 (c : Dev nD) : V3 m ρ c main_arg7 = m ((c.tc : Thread nD τ).loc main_arg7) := by
  have e : V3 m ρ c main_arg7 = W2 m ρ c (Proc.devRef .tc main_arg7) := by
    show StableHlo.after hostOps1 (W2 m ρ c) (Proc.devRef .tc main_arg7) = _
    after_results_simp
  rw [e, W2_main_arg7]

/-- No operation of the second stretch writes this argument. -/
theorem V3_main_arg12 (c : Dev nD) : V3 m ρ c main_arg12 = m ((c.tc : Thread nD τ).loc main_arg12) := by
  have e : V3 m ρ c main_arg12 = W2 m ρ c (Proc.devRef .tc main_arg12) := by
    show StableHlo.after hostOps1 (W2 m ρ c) (Proc.devRef .tc main_arg12) = _
    after_results_simp
  rw [e, W2_main_arg12]

/-- No operation of the second stretch writes this argument. -/
theorem V3_main_arg14 (c : Dev nD) : V3 m ρ c main_arg14 = m ((c.tc : Thread nD τ).loc main_arg14) := by
  have e : V3 m ρ c main_arg14 = W2 m ρ c (Proc.devRef .tc main_arg14) := by
    show StableHlo.after hostOps1 (W2 m ρ c) (Proc.devRef .tc main_arg14) = _
    after_results_simp
  rw [e, W2_main_arg14]

/-- No operation of the second stretch writes this argument. -/
theorem V3_main_arg16 (c : Dev nD) : V3 m ρ c main_arg16 = m ((c.tc : Thread nD τ).loc main_arg16) := by
  have e : V3 m ρ c main_arg16 = W2 m ρ c (Proc.devRef .tc main_arg16) := by
    show StableHlo.after hostOps1 (W2 m ρ c) (Proc.devRef .tc main_arg16) = _
    after_results_simp
  rw [e, W2_main_arg16]

end Cert.KernelIdeal.KVal

end
-- ==== Proof.KRun.lean ====
/- The run of the idealized kernel's @main on the TensorCores, with its RESULT: every weakly fair execution from a
   launch memory with zero counters terminates, nothing faulting, and in every final state the result buffer
   (the second stage's output array, 50000 x 128) holds the contents the fold through the program's four segments
   leaves there, while the eighteen argument arrays hold what they held at launch. The fold is: the launch memory,
   after the first stretch of host operations (the first mean-aggregation), with the first stage's three output
   arrays at what its 25 write-backs leave, after the second stretch of host operations (the second
   mean-aggregation), with the second stage's output array at what its 25 write-backs leave. -/
import proofs.«160599_j22651657519232_1_alg».proof.Proof.KernelIdealFrameP

set_option maxRecDepth 16384

noncomputable section

namespace Cert.KernelIdeal.KVal

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with its result: at the end the result buffer holds the last boundary's contents `W4 m ρ c` there (every
    unscoped buffer does; the result buffer is one), and each argument array is as launched. -/
theorem run_main : θ_run defs (onTc (τ := τ) (main (F := F))) ⟨m, fun _ => 0, ρ⟩ (fun r => ∀ c : Dev nD,
      r.2.mem ((c.tc : Thread nD τ).loc main_v50) = W4 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v50 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.KVal

end
-- ==== Proof.SageSpec.lean ====
/-
  The mathematics of the two-layer neighbourhood-mean network, as functions on extended reals, index by index.

  All matrices are row-major two-dimensional arrays. A "row-blocked" operand has one row per node; a weight has one row
  per OUTPUT feature (so a product contracts the operand's row with a weight's row: `∑ₖ A[r,k]·W[c,k]`, the product
  with the transposed weight), and a bias is a one-row array.

  * `linT A W b`  : `(∑ₖ A[r,k]·W[c,k]) + b[0,c]`.
  * `sageT A X Wl Wr b` : `(∑ₖ A[r,k]·Wl[c,k]) + b[0,c] + (∑ₖ X[r,k]·Wr[c,k])` — a neighbourhood mean `A` and the node's own
    features `X`, each through its own weight.
  * `elu z o x`  : `x` when `x > z`, else `exp x - o`  (at `z = 0`, `o = 1` the exponential linear unit).
  * `softplus z x` : `max x z + log (1 + exp (z - |x - z|))`, guarded by the test `x - z ≠ x - z` (never true of an
    extended real), the numerically stable spelling of `log (exp x + exp z)`.
  * the three layers built from them: `hidden1`, `residual`, `head`.

  Every value at row `r` depends only on row `r` of the row-blocked operands: the `_rows` lemmas say so, which is what
  lets a block of rows computed by itself be read as those rows of the whole array.
-/
import Idealize.ShloMosaic.PureOps.Ideal.Laws
import Idealize.ShloMosaic.Lib.ValueIdx
import Idealize.ShloMosaic.Lib.IdealHost

noncomputable section

open Idealize.ShloMosaic Idealize.ShloMosaic.ValueIdx

namespace Sage

/-- The zero and the one of single precision, as the words the programs spell them with. -/
abbrev z32 : EReal := Ideal.ofBits .f32 0x00000000#32
abbrev o32 : EReal := Ideal.ofBits .f32 0x3F800000#32

theorem z32_eq : z32 = 0 := Ideal.ofBits_zero_f32
theorem o32_eq : o32 = 1 := Ideal.ofBits_one_f32

/-! ## The scalar functions -/

/-- `x` above the threshold `z`, `exp x - o` at or below it. -/
def elu (z o x : EReal) : EReal := Scalar.select (Ideal.cmp .ogt x z) x (Ideal.exp x - o)

/-- `max x z + log (1 + exp (z - |x - z|))`, behind the test `x - z ≠ x - z`. -/
def softplus (z x : EReal) : EReal :=
  Scalar.select (Ideal.cmp .one (x - z) (x - z)) (x + z)
    (max x z + Ideal.log1p (Ideal.exp (z - max (x - z) (-(x - z)))))

/-- The exponential linear unit spelt with `exp x - 1` scaled by one, the argument of the exponential clamped to the
    threshold where the branch is not taken, is the same function: where `x > 0` both are `x`; elsewhere the clamp
    leaves `x` and the scale by one changes nothing. -/
theorem elu_scaled (x : EReal) :
    Scalar.select (Ideal.cmp .ogt x z32) x (o32 * (Ideal.exp (Scalar.select (Ideal.cmp .ogt x z32) z32 x) - 1))
      = elu z32 o32 x := by
  unfold elu
  by_cases h : Ideal.cmp .ogt x z32 = 1#1
  · rw [h, select_one, select_one]
  · rw [eq_zero_of_ne_one h, select_zero, select_zero, select_zero, o32_eq, one_mul]

/-- The guarded `softplus` spelt with a negation instead of a subtraction from zero is the same function. -/
theorem softplus_neg (x : EReal) :
    Scalar.select (Ideal.cmp .une (x - z32) (x - z32)) (x + z32)
      (max x z32 + Ideal.log1p (Ideal.exp (-(max (x - z32) (-(x - z32))))))
      = softplus z32 x := by
  unfold softplus
  rw [show z32 - max (x - z32) (-(x - z32)) = -(max (x - z32) (-(x - z32))) from by rw [z32_eq, zero_sub]]
  rfl

/-! ## Rows times weight rows -/

variable {M M' K N : Nat}

/-- `(∑ₖ A[r,k]·W[c,k]) + b[0,c]` at `j = (r, c)`. -/
def linT (A : (⟨2, ![M, K]⟩ : Shape).Idx → EReal) (W : (⟨2, ![N, K]⟩ : Shape).Idx → EReal)
    (b : (⟨2, ![1, N]⟩ : Shape).Idx → EReal) (j : (⟨2, ![M, N]⟩ : Shape).Idx) : EReal :=
  (∑ k : Fin K, A (ix2 (j 0) k) * W (ix2 (j 1) k)) + b (ix2 0 (j 1))

/-- `(∑ₖ A[r,k]·Wl[c,k]) + b[0,c] + (∑ₖ X[r,k]·Wr[c,k])` at `j = (r, c)`. -/
def sageT (A X : (⟨2, ![M, K]⟩ : Shape).Idx → EReal) (Wl Wr : (⟨2, ![N, K]⟩ : Shape).Idx → EReal)
    (b : (⟨2, ![1, N]⟩ : Shape).Idx → EReal) (j : (⟨2, ![M, N]⟩ : Shape).Idx) : EReal :=
  (∑ k : Fin K, A (ix2 (j 0) k) * Wl (ix2 (j 1) k)) + b (ix2 0 (j 1)) + (∑ k : Fin K, X (ix2 (j 0) k) * Wr (ix2 (j 1) k))

/-- A row of `linT` is a function of that row of its operand. -/
theorem linT_rows (a : (⟨2, ![M, K]⟩ : Shape).Idx → EReal) (A : (⟨2, ![M', K]⟩ : Shape).Idx → EReal)
    (W : (⟨2, ![N, K]⟩ : Shape).Idx → EReal) (b : (⟨2, ![1, N]⟩ : Shape).Idx → EReal)
    (p : Fin M) (n : Fin M') (q : Fin N) (h : ∀ k : Fin K, a (ix2 p k) = A (ix2 n k)) :
    linT a W b (ix2 p q) = linT A W b (ix2 n q) := by
  unfold linT
  exact congrArg (· + b (ix2 0 q)) (Finset.sum_congr rfl fun k _ => congrArg (· * W (ix2 q k)) (h k))

/-- A row of `sageT` is a function of that row of its two operands. -/
theorem sageT_rows (a x : (⟨2, ![M, K]⟩ : Shape).Idx → EReal) (A X : (⟨2, ![M', K]⟩ : Shape).Idx → EReal)
    (Wl Wr : (⟨2, ![N, K]⟩ : Shape).Idx → EReal) (b : (⟨2, ![1, N]⟩ : Shape).Idx → EReal)
    (p : Fin M) (n : Fin M') (q : Fin N) (ha : ∀ k : Fin K, a (ix2 p k) = A (ix2 n k))
    (hx : ∀ k : Fin K, x (ix2 p k) = X (ix2 n k)) :
    sageT a x Wl Wr b (ix2 p q) = sageT A X Wl Wr b (ix2 n q) := by
  unfold sageT
  have e1 : (∑ k : Fin K, a (ix2 p k) * Wl (ix2 q k)) = ∑ k : Fin K, A (ix2 n k) * Wl (ix2 q k) :=
    Finset.sum_congr rfl fun k _ => congrArg (· * Wl (ix2 q k)) (ha k)
  have e2 : (∑ k : Fin K, x (ix2 p k) * Wr (ix2 q k)) = ∑ k : Fin K, X (ix2 n k) * Wr (ix2 q k) :=
    Finset.sum_congr rfl fun k _ => congrArg (· * Wr (ix2 q k)) (hx k)
  show (∑ k : Fin K, a (ix2 p k) * Wl (ix2 q k)) + b (ix2 0 q) + (∑ k : Fin K, x (ix2 p k) * Wr (ix2 q k))
    = (∑ k : Fin K, A (ix2 n k) * Wl (ix2 q k)) + b (ix2 0 q) + (∑ k : Fin K, X (ix2 n k) * Wr (ix2 q k))
  rw [e1, e2]

/-! ## The layers -/

/-- The first layer: the exponential linear unit of the neighbourhood-mean map. -/
def hidden1 (X A : (⟨2, ![M, K]⟩ : Shape).Idx → EReal) (Wl Wr : (⟨2, ![N, K]⟩ : Shape).Idx → EReal)
    (b : (⟨2, ![1, N]⟩ : Shape).Idx → EReal) (j : (⟨2, ![M, N]⟩ : Shape).Idx) : EReal :=
  elu z32 o32 (sageT A X Wl Wr b j)

theorem hidden1_rows (x a : (⟨2, ![M, K]⟩ : Shape).Idx → EReal) (X A : (⟨2, ![M', K]⟩ : Shape).Idx → EReal)
    (Wl Wr : (⟨2, ![N, K]⟩ : Shape).Idx → EReal) (b : (⟨2, ![1, N]⟩ : Shape).Idx → EReal)
    (p : Fin M) (n : Fin M') (q : Fin N) (hx : ∀ k : Fin K, x (ix2 p k) = X (ix2 n k))
    (ha : ∀ k : Fin K, a (ix2 p k) = A (ix2 n k)) :
    hidden1 x a Wl Wr b (ix2 p q) = hidden1 X A Wl Wr b (ix2 n q) := by
  unfold hidden1
  rw [sageT_rows a x A X Wl Wr b p n q ha hx]

/-! ## The second stage: three more layers, two of them with a residual, and the output unit -/

variable {D1 D2 D3 D4 : Nat}

/-- The exponential linear unit of the second neighbourhood-mean map, plus the first residual. -/
def mid1 (H A : (⟨2, ![M, K]⟩ : Shape).Idx → EReal) (R : (⟨2, ![M, D1]⟩ : Shape).Idx → EReal)
    (Wl Wr : (⟨2, ![D1, K]⟩ : Shape).Idx → EReal) (b : (⟨2, ![1, D1]⟩ : Shape).Idx → EReal)
    (i : (⟨2, ![M, D1]⟩ : Shape).Idx) : EReal :=
  elu z32 o32 (sageT A H Wl Wr b i) + R i

/-- The exponential linear unit of a dense layer. -/
def mid2 (G : (⟨2, ![M, D1]⟩ : Shape).Idx → EReal) (W : (⟨2, ![D2, D1]⟩ : Shape).Idx → EReal)
    (b : (⟨2, ![1, D2]⟩ : Shape).Idx → EReal) (i : (⟨2, ![M, D2]⟩ : Shape).Idx) : EReal :=
  elu z32 o32 (linT G W b i)

/-- The exponential linear unit of a dense layer, plus the second residual. -/
def mid3 (G : (⟨2, ![M, D2]⟩ : Shape).Idx → EReal) (R : (⟨2, ![M, D3]⟩ : Shape).Idx → EReal)
    (W : (⟨2, ![D3, D2]⟩ : Shape).Idx → EReal) (b : (⟨2, ![1, D3]⟩ : Shape).Idx → EReal)
    (i : (⟨2, ![M, D3]⟩ : Shape).Idx) : EReal :=
  elu z32 o32 (linT G W b i) + R i

/-- The output unit: `softplus` of a dense layer. -/
def head (G : (⟨2, ![M, D3]⟩ : Shape).Idx → EReal) (W : (⟨2, ![D4, D3]⟩ : Shape).Idx → EReal)
    (b : (⟨2, ![1, D4]⟩ : Shape).Idx → EReal) (j : (⟨2, ![M, D4]⟩ : Shape).Idx) : EReal :=
  softplus z32 (linT G W b j)

/-- The whole second stage, from the first layer's output `H`, its neighbourhood mean `A` and the two residuals. -/
def stage2 (H A : (⟨2, ![M, K]⟩ : Shape).Idx → EReal) (R1 : (⟨2, ![M, D1]⟩ : Shape).Idx → EReal)
    (R2 : (⟨2, ![M, D3]⟩ : Shape).Idx → EReal)
    (Wl Wr : (⟨2, ![D1, K]⟩ : Shape).Idx → EReal) (b : (⟨2, ![1, D1]⟩ : Shape).Idx → EReal)
    (W1 : (⟨2, ![D2, D1]⟩ : Shape).Idx → EReal) (b1 : (⟨2, ![1, D2]⟩ : Shape).Idx → EReal)
    (W2 : (⟨2, ![D3, D2]⟩ : Shape).Idx → EReal) (b2 : (⟨2, ![1, D3]⟩ : Shape).Idx → EReal)
    (W3 : (⟨2, ![D4, D3]⟩ : Shape).Idx → EReal) (b3 : (⟨2, ![1, D4]⟩ : Shape).Idx → EReal) :
    (⟨2, ![M, D4]⟩ : Shape).Idx → EReal :=
  head (mid3 (mid2 (mid1 H A R1 Wl Wr b) W1 b1) R2 W2 b2) W3 b3

theorem mid1_rows (h a : (⟨2, ![M, K]⟩ : Shape).Idx → EReal) (r : (⟨2, ![M, D1]⟩ : Shape).Idx → EReal)
    (H A : (⟨2, ![M', K]⟩ : Shape).Idx → EReal) (R : (⟨2, ![M', D1]⟩ : Shape).Idx → EReal)
    (Wl Wr : (⟨2, ![D1, K]⟩ : Shape).Idx → EReal) (b : (⟨2, ![1, D1]⟩ : Shape).Idx → EReal)
    (p : Fin M) (n : Fin M') (q : Fin D1) (hh : ∀ k : Fin K, h (ix2 p k) = H (ix2 n k))
    (ha : ∀ k : Fin K, a (ix2 p k) = A (ix2 n k)) (hr : ∀ k : Fin D1, r (ix2 p k) = R (ix2 n k)) :
    mid1 h a r Wl Wr b (ix2 p q) = mid1 H A R Wl Wr b (ix2 n q) := by
  unfold mid1
  rw [sageT_rows a h A H Wl Wr b p n q ha hh, hr q]

theorem mid2_rows (g : (⟨2, ![M, D1]⟩ : Shape).Idx → EReal) (G : (⟨2, ![M', D1]⟩ : Shape).Idx → EReal)
    (W : (⟨2, ![D2, D1]⟩ : Shape).Idx → EReal) (b : (⟨2, ![1, D2]⟩ : Shape).Idx → EReal)
    (p : Fin M) (n : Fin M') (q : Fin D2) (hg : ∀ k : Fin D1, g (ix2 p k) = G (ix2 n k)) :
    mid2 g W b (ix2 p q) = mid2 G W b (ix2 n q) := by
  unfold mid2
  rw [linT_rows g G W b p n q hg]

theorem mid3_rows (g : (⟨2, ![M, D2]⟩ : Shape).Idx → EReal) (r : (⟨2, ![M, D3]⟩ : Shape).Idx → EReal)
    (G : (⟨2, ![M', D2]⟩ : Shape).Idx → EReal) (R : (⟨2, ![M', D3]⟩ : Shape).Idx → EReal)
    (W : (⟨2, ![D3, D2]⟩ : Shape).Idx → EReal) (b : (⟨2, ![1, D3]⟩ : Shape).Idx → EReal)
    (p : Fin M) (n : Fin M') (q : Fin D3) (hg : ∀ k : Fin D2, g (ix2 p k) = G (ix2 n k))
    (hr : ∀ k : Fin D3, r (ix2 p k) = R (ix2 n k)) :
    mid3 g r W b (ix2 p q) = mid3 G R W b (ix2 n q) := by
  unfold mid3
  rw [linT_rows g G W b p n q hg, hr q]

theorem head_rows (g : (⟨2, ![M, D3]⟩ : Shape).Idx → EReal) (G : (⟨2, ![M', D3]⟩ : Shape).Idx → EReal)
    (W : (⟨2, ![D4, D3]⟩ : Shape).Idx → EReal) (b : (⟨2, ![1, D4]⟩ : Shape).Idx → EReal)
    (p : Fin M) (n : Fin M') (q : Fin D4) (hg : ∀ k : Fin D3, g (ix2 p k) = G (ix2 n k)) :
    head g W b (ix2 p q) = head G W b (ix2 n q) := by
  unfold head
  rw [linT_rows g G W b p n q hg]

/-- A row of the second stage is a function of that row of its four row-blocked operands. -/
theorem stage2_rows (h a : (⟨2, ![M, K]⟩ : Shape).Idx → EReal) (r1 : (⟨2, ![M, D1]⟩ : Shape).Idx → EReal)
    (r2 : (⟨2, ![M, D3]⟩ : Shape).Idx → EReal)
    (H A : (⟨2, ![M', K]⟩ : Shape).Idx → EReal) (R1 : (⟨2, ![M', D1]⟩ : Shape).Idx → EReal)
    (R2 : (⟨2, ![M', D3]⟩ : Shape).Idx → EReal)
    (Wl Wr : (⟨2, ![D1, K]⟩ : Shape).Idx → EReal) (b : (⟨2, ![1, D1]⟩ : Shape).Idx → EReal)
    (W1 : (⟨2, ![D2, D1]⟩ : Shape).Idx → EReal) (b1 : (⟨2, ![1, D2]⟩ : Shape).Idx → EReal)
    (W2 : (⟨2, ![D3, D2]⟩ : Shape).Idx → EReal) (b2 : (⟨2, ![1, D3]⟩ : Shape).Idx → EReal)
    (W3 : (⟨2, ![D4, D3]⟩ : Shape).Idx → EReal) (b3 : (⟨2, ![1, D4]⟩ : Shape).Idx → EReal)
    (p : Fin M) (n : Fin M') (q : Fin D4) (hh : ∀ k : Fin K, h (ix2 p k) = H (ix2 n k))
    (ha : ∀ k : Fin K, a (ix2 p k) = A (ix2 n k)) (hr1 : ∀ k : Fin D1, r1 (ix2 p k) = R1 (ix2 n k))
    (hr2 : ∀ k : Fin D3, r2 (ix2 p k) = R2 (ix2 n k)) :
    stage2 h a r1 r2 Wl Wr b W1 b1 W2 b2 W3 b3 (ix2 p q) = stage2 H A R1 R2 Wl Wr b W1 b1 W2 b2 W3 b3 (ix2 n q) := by
  unfold stage2
  refine head_rows _ _ W3 b3 p n q fun k3 => ?_
  refine mid3_rows _ _ _ _ W2 b2 p n k3 (fun k2 => ?_) hr2
  refine mid2_rows _ _ W1 b1 p n k2 fun k1 => ?_
  exact mid1_rows h a r1 H A R1 Wl Wr b p n k1 hh ha hr1

end Sage

end
-- ==== Proof.LibPlainDot.lean ====
/-
  General lemmas at the ideal instance (floats are extended reals) for a plain two-dimensional contraction
  `[M, K] × [K, N] → [M, N]` and for the row broadcasts that go with it, each read at an index.

  * `PlainDot.sum_contr`: the sum over the one-axis contraction index of a plain dot is the sum over `k : Fin K` of
    the left operand at `(row, k)` times the right operand at `(k, column)`.
  * `PlainDot.matmul_zero_apply` / `PlainDot.dotGeneral_apply`: the matrix unit's product into a zero accumulator and
    the host's `dot_general` are both that sum.
  * the row forms of a broadcast: a `[1, N]` array broadcast over `M` rows reads its one row; a vector of `N` entries
    re-laid as one row `[1, N]` (by a reshape or by a broadcast along a new leading axis) reads the vector.
  * `PlainDot.affineAt`: `(∑ₖ A[r,k]·Wl[k,c]) + (∑ₖ H[r,k]·Wr[k,c]) + b[c]` clamped below by `z` (a two-operand affine map
    followed by `max · z`), and `PlainDot.linAt`: `(∑ₖ P[r,k]·W[k,c]) + b[c]`; the host's spelling and the kernel
    body's spelling of each are these functions index by index; and the congruence that reads a block's entry as
    an array's entry.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace PlainDot

variable {M K N : Nat}

/-- The sum over a plain dot's contraction index, re-indexed by the one contracted coordinate. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congrArg₂ (· * ·) (congrArg l el) (congrArg r er)

/-- The matrix unit's product into a zero accumulator, at an index. -/
theorem matmul_zero_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant (F := Ideal) ⟨2, ![M, N]⟩ .f32 0x00000000#32) j
      = ∑ k : Fin K, l (ix2 (j 0) k) * r (ix2 k (j 1)) := by
  show FloatOps.matmul (DotDims.plain M K N) prec l r (constant (F := Ideal) ⟨2, ![M, N]⟩ .f32 0x00000000#32) j = _
  rw [Ideal.matmul_constant_zero_apply]
  exact sum_contr l r j

/-- The host's `dot_general`, at an index. -/
theorem dotGeneral_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  show FloatOps.dotGeneral (DotDims.plain M K N) prec .single l r j = _
  rw [Ideal.dotGeneral_apply]
  exact sum_contr l r j

/-! ## Rows -/

section Rows
variable {α : Type}

/-- A one-row array broadcast over `M` rows (`vector.broadcast`) reads its row. -/
theorem broadcastTo_row (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  refine broadcastTo_apply x h j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A one-row array broadcast over `M` rows (`broadcast_in_dim`, both axes kept) reads its row. -/
theorem broadcastInDim_row (x : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h x j = x (ix2 0 (j 1)) := by
  refine broadcastInDim_apply ![0, 1] h x j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A vector laid out as one row by a broadcast along a new leading axis. -/
theorem broadcastInDim_vec_row (b : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h b j = b (ix1 (j 1)) := by
  refine broadcastInDim_apply ![1] h b j (ix1 (j 1)) fun a => ?_
  match a with
  | ⟨0, _⟩ =>
    show (j 1).val = if N = 1 then 0 else (j 1).val
    split_ifs with hN
    · have := (j 1).isLt; simp only [Matrix.cons_val_one, Matrix.cons_val_zero] at this; omega
    · rfl

/-- A vector laid out as one row by a reshape. -/
theorem shapeCast_vec_row (b : (⟨1, ![N]⟩ : Shape).Idx → α) (h : (⟨1, ![N]⟩ : Shape).ShapeCasts ⟨2, ![1, N]⟩)
    (j : (⟨2, ![1, N]⟩ : Shape).Idx) : shapeCast ⟨2, ![1, N]⟩ b h j = b (ix1 (j 1)) := by
  refine (shapeCast_addUnit_apply ![N] b h j).trans (congrArg b (funext fun a => ?_))
  match a with
  | ⟨0, _⟩ => rfl

/-- The two layouts of a vector as one row are one array. -/
theorem shapeCast_eq_broadcastInDim_row (b : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ b h = broadcastInDim ⟨2, ![1, N]⟩ ![1] h' b :=
  funext fun j => (shapeCast_vec_row b h j).trans (broadcastInDim_vec_row b h' j).symm

/-- A scalar broadcast to any shape reads the scalar. -/
theorem broadcastInDim_scalar {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 fun a => a.elim0

end Rows

/-! ## The two affine maps, index by index -/

/-- `max ((∑ₖ A[r,k]·Wl[k,c]) + (∑ₖ H[r,k]·Wr[k,c]) + B[0,c]) z` at `j = (r, c)`. -/
def affineAt (A H : (⟨2, ![M, K]⟩ : Shape).Idx → EReal) (Wl Wr : (⟨2, ![K, N]⟩ : Shape).Idx → EReal)
    (B : (⟨2, ![1, N]⟩ : Shape).Idx → EReal) (z : EReal) (j : (⟨2, ![M, N]⟩ : Shape).Idx) : EReal :=
  max ((∑ k : Fin K, A (ix2 (j 0) k) * Wl (ix2 k (j 1))) + (∑ k : Fin K, H (ix2 (j 0) k) * Wr (ix2 k (j 1))) + B (ix2 0 (j 1))) z

/-- `(∑ₖ P[r,k]·W[k,c]) + B[0,c]` at `j = (r, c)`. -/
def linAt (P : (⟨2, ![M, K]⟩ : Shape).Idx → EReal) (W : (⟨2, ![K, N]⟩ : Shape).Idx → EReal)
    (B : (⟨2, ![1, N]⟩ : Shape).Idx → EReal) (j : (⟨2, ![M, N]⟩ : Shape).Idx) : EReal :=
  (∑ k : Fin K, P (ix2 (j 0) k) * W (ix2 k (j 1))) + B (ix2 0 (j 1))

/-- An entry of `affineAt` over blocks is the entry of `affineAt` over arrays when the block entries it reads are the
    array entries at the matching row and column. -/
theorem affineAt_congr {P : Nat} (a h : (⟨2, ![P, K]⟩ : Shape).Idx → EReal) (wl wr : (⟨2, ![K, N]⟩ : Shape).Idx → EReal)
    (b : (⟨2, ![1, N]⟩ : Shape).Idx → EReal) (A H : (⟨2, ![M, K]⟩ : Shape).Idx → EReal)
    (Wl Wr : (⟨2, ![K, N]⟩ : Shape).Idx → EReal) (B : (⟨2, ![1, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hh : ∀ k : Fin K, h (ix2 (y 0) k) = H (ix2 (i 0) k))
    (hwl : ∀ k : Fin K, wl (ix2 k (y 1)) = Wl (ix2 k (i 1))) (hwr : ∀ k : Fin K, wr (ix2 k (y 1)) = Wr (ix2 k (i 1)))
    (hb : b (ix2 0 (y 1)) = B (ix2 0 (i 1))) :
    affineAt a h wl wr b z y = affineAt A H Wl Wr B z i := by
  have e1 : (∑ k : Fin K, a (ix2 (y 0) k) * wl (ix2 k (y 1))) = ∑ k : Fin K, A (ix2 (i 0) k) * Wl (ix2 k (i 1)) :=
    Finset.sum_congr rfl fun k _ => by rw [ha k, hwl k]
  have e2 : (∑ k : Fin K, h (ix2 (y 0) k) * wr (ix2 k (y 1))) = ∑ k : Fin K, H (ix2 (i 0) k) * Wr (ix2 k (i 1)) :=
    Finset.sum_congr rfl fun k _ => by rw [hh k, hwr k]
  unfold affineAt
  rw [e1, e2, hb]

theorem linAt_congr {P : Nat} (p : (⟨2, ![P, K]⟩ : Shape).Idx → EReal) (w : (⟨2, ![K, N]⟩ : Shape).Idx → EReal)
    (b : (⟨2, ![1, N]⟩ : Shape).Idx → EReal) (Pa : (⟨2, ![M, K]⟩ : Shape).Idx → EReal)
    (W : (⟨2, ![K, N]⟩ : Shape).Idx → EReal) (B : (⟨2, ![1, N]⟩ : Shape).Idx → EReal)
    (y : (⟨2, ![P, N]⟩ : Shape).Idx) (i : (⟨2, ![M, N]⟩ : Shape).Idx)
    (hp : ∀ k : Fin K, p (ix2 (y 0) k) = Pa (ix2 (i 0) k)) (hw : ∀ k : Fin K, w (ix2 k (y 1)) = W (ix2 k (i 1)))
    (hb : b (ix2 0 (y 1)) = B (ix2 0 (i 1))) :
    linAt p w b y = linAt Pa W B i := by
  have e1 : (∑ k : Fin K, p (ix2 (y 0) k) * w (ix2 k (y 1))) = ∑ k : Fin K, Pa (ix2 (i 0) k) * W (ix2 k (i 1)) :=
    Finset.sum_congr rfl fun k _ => by rw [hp k, hw k]
  unfold linAt
  rw [e1, hb]

/-- The host's spelling of the clamped affine map: two `dot_general`s added, a one-row bias broadcast over the rows
    added, `maximum` with a broadcast zero scalar. -/
theorem host_affine_apply (A H : FVec Ideal ⟨2, ![M, K]⟩ .f32) (Wl Wr : FVec Ideal ⟨2, ![K, N]⟩ .f32)
    (B : FVec Ideal ⟨2, ![1, N]⟩ .f32)
    (hb : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (addf (Host.dotGeneral (DotDims.plain M K N) none A Wl) (Host.dotGeneral (DotDims.plain M K N) none H Wr))
        (broadcastInDim ⟨2, ![M, N]⟩ ![0, 1] hb B))
      (broadcastInDim ⟨2, ![M, N]⟩ ![] hz (constant (F := Ideal) ⟨0, ![]⟩ .f32 0x00000000#32)) j
      = affineAt A H Wl Wr B (Ideal.ofBits .f32 0x00000000#32) j := by
  rw [maximumf_apply, addf_apply, addf_apply, dotGeneral_apply, dotGeneral_apply, broadcastInDim_row, broadcastInDim_scalar]
  rfl

/-- The host's spelling of the plain affine map. -/
theorem host_lin_apply (P : FVec Ideal ⟨2, ![M, K]⟩ .f32) (W : FVec Ideal ⟨2, ![K, N]⟩ .f32)
    (B : FVec Ideal ⟨2, ![1, N]⟩ .f32)
    (hb : (⟨2, ![1, N]⟩ : Shape).BroadcastsInDim ⟨2, ![M, N]⟩ ![0, 1]) (j : (⟨2, ![M, N]⟩ : Shape).Idx) :
    addf (Host.dotGeneral (DotDims.plain M K N) none P W) (broadcastInDim ⟨2, ![M, N]⟩ ![0, 1] hb B) j
      = linAt P W B j := by
  rw [addf_apply, dotGeneral_apply, broadcastInDim_row]
  rfl

/-- The kernel body's spelling of the clamped affine map: operands rounded to bf16 (the identity on extended reals),
    two matrix-unit products into zero accumulators added, the one-row bias broadcast added, `maximum` with zero. -/
theorem body_affine_apply (x0 x1 : FVec Ideal ⟨2, ![M, K]⟩ .f32) (x2 x3 : FVec Ideal ⟨2, ![K, N]⟩ .f32)
    (x4 : FVec Ideal ⟨2, ![1, N]⟩ .f32)
    (h0 : (⟨2, ![M, K]⟩ : Shape).ShapeCasts ⟨2, ![M, K]⟩) (h4 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    maximumf (addf (addf
          (matmul (DotDims.plain M K N) none (truncf .bf16 (shapeCast ⟨2, ![M, K]⟩ x0 h0) hlt) (truncf .bf16 x2 hlt)
            (constant (F := Ideal) ⟨2, ![M, N]⟩ .f32 0x00000000#32))
          (matmul (DotDims.plain M K N) none (truncf .bf16 (shapeCast ⟨2, ![M, K]⟩ x1 h0) hlt) (truncf .bf16 x3 hlt)
            (constant (F := Ideal) ⟨2, ![M, N]⟩ .f32 0x00000000#32)))
        (broadcastTo ⟨2, ![M, N]⟩ (shapeCast ⟨2, ![1, N]⟩ x4 h4) hb))
      (broadcast ⟨2, ![M, N]⟩ (Scalar.ofBits (F := Ideal) .f32 0x00000000#32)) j
      = affineAt x0 x1 x2 x3 x4 (Ideal.ofBits .f32 0x00000000#32) j := by
  rw [maximumf_apply, addf_apply, addf_apply, matmul_zero_apply, matmul_zero_apply, broadcastTo_row, shapeCast_self,
    shapeCast_self, shapeCast_self]
  rfl

/-- The kernel body's spelling of the plain affine map. -/
theorem body_lin_apply (x0 : FVec Ideal ⟨2, ![M, K]⟩ .f32) (x1 : FVec Ideal ⟨2, ![K, N]⟩ .f32)
    (x2 : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    addf (matmul (DotDims.plain M K N) none (truncf .bf16 (shapeCast ⟨2, ![M, K]⟩ x0 h0) hlt) (truncf .bf16 x1 hlt)
          (constant (F := Ideal) ⟨2, ![M, N]⟩ .f32 0x00000000#32))
        (broadcastTo ⟨2, ![M, N]⟩ (shapeCast ⟨2, ![1, N]⟩ x2 h2) hb) j
      = linAt x0 x1 x2 j := by
  rw [addf_apply, matmul_zero_apply, broadcastTo_row, shapeCast_self, shapeCast_self]
  rfl

end PlainDot

end
-- ==== Proof.SageBody.lean ====
/-
  The kernel body's and the host's spellings of the layers of SageSpec, each read at an index over the extended reals.

  A product with a transposed weight: the matrix unit's product into a zero accumulator, or the host's contraction,
  of rows `l` with the transpose of `w`, is `∑ₖ l[r,k]·w[c,k]`. Rounding an operand to a narrower float format is the
  identity on extended reals, a reshape to the same shape is the identity, and a one-row array broadcast over the rows
  reads its row; so the body's chains of such operations are the layer functions themselves.
-/
import proofs.«160599_j22651657519232_1_alg».proof.Proof.SageSpec
import proofs.«160599_j22651657519232_1_alg».proof.Proof.LibPlainDot
import Idealize.ShloMosaic.Lib.ValueLayout

noncomputable section

open Idealize.ShloMosaic Idealize.ShloMosaic.ValueIdx

namespace Sage

variable {M K N : Nat}

/-- The matrix unit's product of rows with a transposed weight, into a zero accumulator, at an index. -/
theorem matmulT_apply {φ₁ φ₂ : FTy} (prec : Option ContractPrecision) (l : FVec Ideal ⟨2, ![M, K]⟩ φ₁)
    (w : FVec Ideal ⟨2, ![N, K]⟩ φ₂) (h : (⟨2, ![N, K]⟩ : Shape).Transposes [1, 0] ⟨2, ![K, N]⟩)
    (j : (⟨2, ![M, N]⟩ : Shape).Idx) :
    matmul (DotDims.plain M K N) prec l (transpose ⟨2, ![K, N]⟩ [1, 0] w h)
        (constant (F := Ideal) ⟨2, ![M, N]⟩ .f32 0x00000000#32) j
      = ∑ k : Fin K, l (ix2 (j 0) k) * w (ix2 (j 1) k) :=
  (PlainDot.matmul_zero_apply prec l _ j).trans
    (Finset.sum_congr rfl fun k _ => congrArg (l (ix2 (j 0) k) * ·) (transpose_ix2_apply w h k (j 1)))

/-- The host's contraction of rows with a transposed weight, at an index. -/
theorem dotGeneralT_apply {φ₁ φ₂ : FTy} (prec : Option ContractPrecision) (l : FVec Ideal ⟨2, ![M, K]⟩ φ₁)
    (w : FVec Ideal ⟨2, ![N, K]⟩ φ₂) (h : (⟨2, ![N, K]⟩ : Shape).Transposes [1, 0] ⟨2, ![K, N]⟩)
    (j : (⟨2, ![M, N]⟩ : Shape).Idx) :
    Host.dotGeneral (DotDims.plain M K N) prec l (transpose ⟨2, ![K, N]⟩ [1, 0] w h) j
      = ∑ k : Fin K, l (ix2 (j 0) k) * w (ix2 (j 1) k) :=
  (PlainDot.dotGeneral_apply prec l _ j).trans
    (Finset.sum_congr rfl fun k _ => congrArg (l (ix2 (j 0) k) * ·) (transpose_ix2_apply w h k (j 1)))

/-! ## The kernel body's spellings -/

/-- A dense layer in the body: the weight rounded and transposed, the product into zero, the bias row broadcast. -/
theorem body_linT {φ₁ : FTy} (l : FVec Ideal ⟨2, ![M, K]⟩ φ₁) (w : FVec Ideal ⟨2, ![N, K]⟩ .f32)
    (b : FVec Ideal ⟨2, ![1, N]⟩ .f32) (hlt : FTy.bf16.bits < FTy.f32.bits)
    (ht : (⟨2, ![N, K]⟩ : Shape).Transposes [1, 0] ⟨2, ![K, N]⟩)
    (hb1 : (⟨2, ![1, N]⟩ : Shape).ShapeCasts ⟨2, ![1, N]⟩) (hb : (⟨2, ![1, N]⟩ : Shape).Broadcasts ⟨2, ![M, N]⟩) :
    addf (matmul (DotDims.plain M K N) none l (transpose ⟨2, ![K, N]⟩ [1, 0] (truncf .bf16 w hlt) ht)
          (constant (F := Ideal) ⟨2, ![M, N]⟩ .f32 0x00000000#32))
        (broadcastTo ⟨2, ![M, N]⟩ (shapeCast ⟨2, ![1, N]⟩ b hb1) hb)
      = linT l w b := by
  funext j
  rw [addf_apply, matmulT_apply, PlainDot.broadcastTo_row, shapeCast_self]
  rfl

/-- The neighbourhood-mean map in the body: two products into zero, the bias row added between them. -/
theorem body_sageT {φ₁ φ₂ : FTy} (la : FVec Ideal ⟨2, ![M, K]⟩ φ₁) (lx : FVec Ideal ⟨2, ![M, K]⟩ φ₂)
    (wl wr : FVec Ideal ⟨2, ![N, K]⟩ .f32) (b : FVec Ideal ⟨2, ![1, N]⟩ .f32) (hlt : FTy.bf16.bits < FTy.f32.bits)
    (ht : (⟨2, ![N, K]⟩ : Shape).Transposes [1, 0] ⟨2, ![K, N]⟩)
    (hb1 : (⟨2, ![1, N]⟩ : Shape).ShapeCasts ⟨2, ![1, N]⟩) (hb : (⟨2, ![1, N]⟩ : Shape).Broadcasts ⟨2, ![M, N]⟩) :
    addf (addf (matmul (DotDims.plain M K N) none la (transpose ⟨2, ![K, N]⟩ [1, 0] (truncf .bf16 wl hlt) ht)
            (constant (F := Ideal) ⟨2, ![M, N]⟩ .f32 0x00000000#32))
          (broadcastTo ⟨2, ![M, N]⟩ (shapeCast ⟨2, ![1, N]⟩ b hb1) hb))
        (matmul (DotDims.plain M K N) none lx (transpose ⟨2, ![K, N]⟩ [1, 0] (truncf .bf16 wr hlt) ht)
          (constant (F := Ideal) ⟨2, ![M, N]⟩ .f32 0x00000000#32))
      = sageT la lx wl wr b := by
  funext j
  rw [addf_apply, addf_apply, matmulT_apply, matmulT_apply, PlainDot.broadcastTo_row, shapeCast_self]
  rfl

/-- The exponential linear unit in the body: a comparison with a broadcast zero, `exp` minus a broadcast one, a select. -/
theorem body_elu {s : Shape} (v : FVec Ideal s .f32) (z : Ideal .f32) :
    select (cmpf .ogt v (broadcast s z)) v
        (subf (exp v) (broadcast s (Scalar.ofBits (F := Ideal) .f32 0x3F800000#32)))
      = fun i => elu z o32 (v i) := rfl

/-- The output unit in the body. -/
theorem body_softplus {s : Shape} (v : FVec Ideal s .f32) :
    select (cmpf .one (subf v (broadcast s (Scalar.ofBits (F := Ideal) .f32 0x00000000#32)))
          (subf v (broadcast s (Scalar.ofBits (F := Ideal) .f32 0x00000000#32))))
        (addf v (broadcast s (Scalar.ofBits (F := Ideal) .f32 0x00000000#32)))
        (addf (maximumf v (broadcast s (Scalar.ofBits (F := Ideal) .f32 0x00000000#32)))
          (log1p (exp (subf (broadcast s (Scalar.ofBits (F := Ideal) .f32 0x00000000#32))
            (absf (subf v (broadcast s (Scalar.ofBits (F := Ideal) .f32 0x00000000#32))))))))
      = fun i => softplus z32 (v i) := rfl

end Sage

end
-- ==== Proof.SagePayload.lean ====
/-
  What each grid point of the two kernels writes into its output blocks, as the layer functions of SageSpec applied to
  the point's input blocks (a block of 2000 node rows; the weights and bias rows whole).

  The first kernel writes three blocks: the first layer `hidden1` of the point's rows and of their neighbourhood means,
  and the two residual projections `linT` of the point's rows. The second kernel writes one block: the second stage
  `stage2` of the point's rows of the first layer, of their neighbourhood means and of the two residuals. Each body
  stores its whole block once, so the block after the body is that one stored value.
-/
import proofs.«160599_j22651657519232_1_alg».proof.Proof.KernelIdealFrameP
import proofs.«160599_j22651657519232_1_alg».proof.Proof.SageBody

noncomputable section

open Idealize.ShloMosaic Idealize.ShloMosaic.ValueIdx Idealize.ShloMosaic.Pipeline

namespace Cert.KernelIdeal.Pay

open Cert.KernelIdeal Cert.KernelIdeal.Gen Cert.KernelIdeal.GenP

/-- The offset of a store of the whole block is zero on both axes. -/
theorem hz : (![0, 0] : Fin 2 → Nat) = fun _ => 0 := funext fun a => by fin_cases a <;> rfl

/-- Rounding to a narrower format and a reshape to the same shape leave an array of extended reals as it is. -/
theorem trunc_cast_self {s : Shape} (v : s.Idx → EReal) (hc : s.ShapeCasts s) (hlt : FTy.bf16.bits < FTy.f32.bits) :
    (truncf (F := Ideal) (φ := .f32) .bf16 (shapeCast s v hc) hlt : s.Idx → EReal) = v := by
  rw [shapeCast_self]; rfl

/-! ## The first kernel -/

/-- The first layer of a block: the exponential linear unit of the neighbourhood-mean map of the block's rows. -/
theorem hidden_block (v0 v2 : Vec Ideal S2000x128 .f32) (v5 v7 : Vec Ideal S256x128 .f32) (v11 : Vec Ideal S1x256 .f32) :
    (k0_pay3 (F := Ideal) v0 v2 v5 v7 v11 : S2000x256.Idx → EReal)
      = Sage.hidden1 (M := 2000) (K := 128) (N := 256) v0 v2 v5 v7 v11 := by
  have hs := Sage.body_sageT (M := 2000) (K := 128) (N := 256)
    (truncf (F := Ideal) .bf16 (shapeCast S2000x128 v2 shapeCasts_S2000x128_S2000x128) bitsLt_bf16_f32) (k0_pay2 (F := Ideal) v0)
    v5 v7 v11 bitsLt_bf16_f32 transposes_S256x128_p1_0_S128x256 shapeCasts_S1x256_S1x256 broadcasts_S1x256_S2000x256
  have hr : Sage.sageT (M := 2000) (K := 128) (N := 256)
      (truncf (F := Ideal) .bf16 (shapeCast S2000x128 v2 shapeCasts_S2000x128_S2000x128) bitsLt_bf16_f32) (k0_pay2 (F := Ideal) v0)
      v5 v7 v11 = Sage.sageT (M := 2000) (K := 128) (N := 256) v2 v0 v5 v7 v11 := by
    rw [trunc_cast_self]; rfl
  exact (Sage.body_elu _ _).trans
    (funext fun j => congrArg (Sage.elu Sage.z32 Sage.o32) ((congrFun hs j).trans (congrFun hr j)))

/-- A residual projection of a block. -/
theorem residual_block1 (v0 : Vec Ideal S2000x128 .f32) (v25 : Vec Ideal S256x128 .f32) (v29 : Vec Ideal S1x256 .f32) :
    (k0_pay4 (F := Ideal) v0 v25 v29 : S2000x256.Idx → EReal) = Sage.linT (M := 2000) (K := 128) (N := 256) v0 v25 v29 :=
  Sage.body_linT (M := 2000) (K := 128) (N := 256) (k0_pay2 (F := Ideal) v0) v25 v29 bitsLt_bf16_f32
    transposes_S256x128_p1_0_S128x256 shapeCasts_S1x256_S1x256 broadcasts_S1x256_S2000x256

theorem residual_block2 (v0 : Vec Ideal S2000x128 .f32) (v34 : Vec Ideal S256x128 .f32) (v38 : Vec Ideal S1x256 .f32) :
    (k0_pay1 (F := Ideal) (k0_pay2 v0) v34 v38 : S2000x256.Idx → EReal)
      = Sage.linT (M := 2000) (K := 128) (N := 256) v0 v34 v38 :=
  Sage.body_linT (M := 2000) (K := 128) (N := 256) (k0_pay2 (F := Ideal) v0) v34 v38 bitsLt_bf16_f32
    transposes_S256x128_p1_0_S128x256 shapeCasts_S1x256_S1x256 broadcasts_S1x256_S2000x256

/-- Output block 9 of the first kernel is the first layer of the point's rows. -/
theorem out0_9_eq (x0 x1 : Vec Ideal S2000x128 .f32) (x2 : Vec Ideal S256x128 .f32) (x3 : Vec Ideal S1x256 .f32)
    (x4 x5 : Vec Ideal S256x128 .f32) (x6 : Vec Ideal S1x256 .f32) (x7 : Vec Ideal S256x128 .f32) (x8 : Vec Ideal S1x256 .f32) :
    (out0_9 (F := Ideal) x0 x1 x2 x3 x4 x5 x6 x7 x8 : S2000x256.Idx → EReal)
      = Sage.hidden1 (M := 2000) (K := 128) (N := 256) x0 x1 x2 x4 x3 := by
  unfold out0_9
  rw [View.canon_unit_zero hz]
  simp only [View.ld_unit_zero (S := S2000x128) hz, View.ld_unit_zero (S := S256x128) hz, View.ld_unit_zero (S := S1x256) hz]
  exact hidden_block x0 x1 x2 x4 x3

/-- Output block 10 of the first kernel is the first residual projection of the point's rows. -/
theorem out0_10_eq (x0 x1 : Vec Ideal S2000x128 .f32) (x2 : Vec Ideal S256x128 .f32) (x3 : Vec Ideal S1x256 .f32)
    (x4 x5 : Vec Ideal S256x128 .f32) (x6 : Vec Ideal S1x256 .f32) (x7 : Vec Ideal S256x128 .f32) (x8 : Vec Ideal S1x256 .f32) :
    (out0_10 (F := Ideal) x0 x1 x2 x3 x4 x5 x6 x7 x8 : S2000x256.Idx → EReal)
      = Sage.linT (M := 2000) (K := 128) (N := 256) x0 x5 x6 := by
  unfold out0_10
  rw [View.canon_unit_zero hz]
  simp only [View.ld_unit_zero (S := S2000x128) hz, View.ld_unit_zero (S := S256x128) hz, View.ld_unit_zero (S := S1x256) hz]
  exact residual_block1 x0 x5 x6

/-- Output block 11 of the first kernel is the second residual projection of the point's rows. -/
theorem out0_11_eq (x0 x1 : Vec Ideal S2000x128 .f32) (x2 : Vec Ideal S256x128 .f32) (x3 : Vec Ideal S1x256 .f32)
    (x4 x5 : Vec Ideal S256x128 .f32) (x6 : Vec Ideal S1x256 .f32) (x7 : Vec Ideal S256x128 .f32) (x8 : Vec Ideal S1x256 .f32) :
    (out0_11 (F := Ideal) x0 x1 x2 x3 x4 x5 x6 x7 x8 : S2000x256.Idx → EReal)
      = Sage.linT (M := 2000) (K := 128) (N := 256) x0 x7 x8 := by
  unfold out0_11
  rw [View.canon_unit_zero hz]
  simp only [View.ld_unit_zero (S := S2000x128) hz, View.ld_unit_zero (S := S256x128) hz, View.ld_unit_zero (S := S1x256) hz]
  exact residual_block2 x0 x7 x8

/-! ## The second kernel -/

/-- The first dense layer's input and pre-activation of a block: the exponential linear unit of the second
    neighbourhood-mean map plus the first residual, through the first dense layer. -/
theorem pre1_block (v0 v3 : Vec Ideal S2000x256 .f32) (v6 v8 : Vec Ideal S256x256 .f32) (v12 : Vec Ideal S1x256 .f32)
    (v25 : Vec Ideal S2000x256 .f32) (v29 : Vec Ideal S256x256 .f32) (v33 : Vec Ideal S1x256 .f32) :
    (k1_pay2 (F := Ideal) v0 v3 v6 v8 v12 v25 v29 v33 : S2000x256.Idx → EReal)
      = Sage.linT (M := 2000) (K := 256) (N := 256)
          (Sage.mid1 (M := 2000) (K := 256) (D1 := 256) v0 v3 v25 v6 v8 v12) v29 v33 := by
  have hs := Sage.body_sageT (M := 2000) (K := 256) (N := 256)
    (truncf (F := Ideal) .bf16 (shapeCast S2000x256 v3 shapeCasts_S2000x256_S2000x256) bitsLt_bf16_f32)
    (truncf (F := Ideal) .bf16 (shapeCast S2000x256 v0 shapeCasts_S2000x256_S2000x256) bitsLt_bf16_f32)
    v6 v8 v12 bitsLt_bf16_f32 transposes_S256x256_p1_0_S256x256 shapeCasts_S1x256_S1x256 broadcasts_S1x256_S2000x256
  have hr : Sage.sageT (M := 2000) (K := 256) (N := 256)
      (truncf (F := Ideal) .bf16 (shapeCast S2000x256 v3 shapeCasts_S2000x256_S2000x256) bitsLt_bf16_f32)
      (truncf (F := Ideal) .bf16 (shapeCast S2000x256 v0 shapeCasts_S2000x256_S2000x256) bitsLt_bf16_f32)
      v6 v8 v12 = Sage.sageT (M := 2000) (K := 256) (N := 256) v3 v0 v6 v8 v12 := by
    rw [trunc_cast_self, trunc_cast_self]
  refine (Sage.body_linT (M := 2000) (K := 256) (N := 256) _ v29 v33 bitsLt_bf16_f32 transposes_S256x256_p1_0_S256x256
    shapeCasts_S1x256_S1x256 broadcasts_S1x256_S2000x256).trans ?_
  refine congrArg (fun g => Sage.linT (M := 2000) (K := 256) (N := 256) g v29 v33) (funext fun i => ?_)
  exact congrArg₂ (· + ·) (congrArg (Sage.elu Sage.z32 Sage.o32) ((congrFun hs i).trans (congrFun hr i)))
    (congrFun (shapeCast_self v25 shapeCasts_S2000x256_S2000x256) i)

/-- From the first dense layer's pre-activation to the output unit's: the exponential linear unit, the second dense
    layer, its exponential linear unit plus the second residual, the third dense layer. -/
theorem pre3_block (v36 : FVec Ideal S2000x256 .f32) (v44 : Vec Ideal S256x256 .f32) (v48 : Vec Ideal S1x256 .f32)
    (v58 : Vec Ideal S2000x256 .f32) (v62 : Vec Ideal S128x256 .f32) (v66 : Vec Ideal S1x128 .f32) :
    (k1_pay3 (F := Ideal) v36 (Scalar.ofBits (F := Ideal) .f32 0x00000000#32) v44 v48 v58 v62 v66 : S2000x128.Idx → EReal)
      = Sage.linT (M := 2000) (K := 256) (N := 128)
          (Sage.mid3 (M := 2000) (D2 := 256) (D3 := 256) (fun i => Sage.elu Sage.z32 Sage.o32 (v36 i)) v58 v44 v48) v62 v66 := by
  have hl := Sage.body_linT (M := 2000) (K := 256) (N := 256) (φ₁ := .bf16)
    (fun i => Sage.elu Sage.z32 Sage.o32 (v36 i)) v44 v48 bitsLt_bf16_f32 transposes_S256x256_p1_0_S256x256
    shapeCasts_S1x256_S1x256 broadcasts_S1x256_S2000x256
  refine (Sage.body_linT (M := 2000) (K := 256) (N := 128) _ v62 v66 bitsLt_bf16_f32 transposes_S128x256_p1_0_S256x128
    shapeCasts_S1x128_S1x128 broadcasts_S1x128_S2000x128).trans ?_
  refine congrArg (fun g => Sage.linT (M := 2000) (K := 256) (N := 128) g v62 v66) (funext fun i => ?_)
  exact congrArg₂ (· + ·) (congrArg (Sage.elu Sage.z32 Sage.o32) (congrFun hl i))
    (congrFun (shapeCast_self v58 shapeCasts_S2000x256_S2000x256) i)

/-- Output block 13 of the second kernel is the second stage of the point's rows. -/
theorem out1_13_eq (x0 x1 x2 x3 : Vec Ideal S2000x256 .f32) (x4 : Vec Ideal S256x256 .f32) (x5 : Vec Ideal S1x256 .f32)
    (x6 x7 : Vec Ideal S256x256 .f32) (x8 : Vec Ideal S1x256 .f32) (x9 : Vec Ideal S256x256 .f32)
    (x10 : Vec Ideal S1x256 .f32) (x11 : Vec Ideal S128x256 .f32) (x12 : Vec Ideal S1x128 .f32) :
    (out1_13 (F := Ideal) x0 x1 x2 x3 x4 x5 x6 x7 x8 x9 x10 x11 x12 : S2000x128.Idx → EReal)
      = Sage.stage2 (M := 2000) (K := 256) (D1 := 256) (D2 := 256) (D3 := 256) (D4 := 128)
          x0 x1 x2 x3 x4 x6 x5 x7 x8 x9 x10 x11 x12 := by
  unfold out1_13
  rw [View.canon_unit_zero hz]
  simp only [View.ld_unit_zero (S := S2000x256) hz, View.ld_unit_zero (S := S256x256) hz, View.ld_unit_zero (S := S1x256) hz,
    View.ld_unit_zero (S := S128x256) hz, View.ld_unit_zero (S := S1x128) hz]
  refine (Sage.body_softplus (k1_pay3 (F := Ideal) (k1_pay2 x0 x1 x4 x6 x5 x2 x7 x8)
    (Scalar.ofBits (F := Ideal) .f32 0x00000000#32) x9 x10 x3 x11 x12)).trans ?_
  rw [pre3_block, pre1_block]
  rfl

end Cert.KernelIdeal.Pay

end
-- ==== Proof.KArrays.lean ====
/- The idealized kernel's result as ONE function of its eighteen argument arrays.

   Stage 1 leaves three arrays of 50000 rows: the first layer `hidden1` of the node features and their neighbourhood
   mean, and the two residual projections `linT` of the node features. Stage 2 leaves the result: `stage2` of the
   first layer's array, ITS neighbourhood mean along the same edge list, and the two residual arrays. Each stage's body
   computes, at row `p` of a block, the layer's function of row `p` of its blocks (the payload equations), every
   layer's row `n` depends on row `n` of its row-blocked operands only (the `_rows` lemmas), and block `t` holds rows
   `2000 t …` of the arrays: so each output array is the layer's function of whole arrays. The two host stretches supply
   the neighbourhood means and the one-row bias arrays, and every other operand is an argument as launched. -/
import proofs.«160599_j22651657519232_1_alg».proof.Proof.KBlocks0
import proofs.«160599_j22651657519232_1_alg».proof.Proof.KBlocks1
import proofs.«160599_j22651657519232_1_alg».proof.Proof.KHost
import proofs.«160599_j22651657519232_1_alg».proof.Proof.KRun
import proofs.«160599_j22651657519232_1_alg».proof.Proof.SageSpec
import proofs.«160599_j22651657519232_1_alg».proof.Proof.SagePayload

set_option maxRecDepth 16384

noncomputable section

namespace Cert.KernelIdeal.KVal

open Cert.KernelIdeal.Gen Cert.KernelIdeal.GenP

open Idealize.ShloMosaic Idealize.ShloMosaic.TcCoe Idealize.ShloMosaic.Tactic
open Idealize.SL Idealize.SL.Sem
open Idealize.ShloMosaic.Pipeline (Dat Cfg Window cellOf)
open Idealize.ShloMosaic.ValueIdx

/-! ## Each stage's output arrays, as the layers' functions of the arrays the stage is entered from -/

section Stages
variable (V : (c : Dev nD) → (b : Ref sig .tc) → Buf (Elt Ideal) ((c : Thread nD τ).loc b))

/-- Stage 1's first output array is the first layer of the node features and their neighbourhood mean. -/
theorem final0_9 (c : Dev nD) :
    (dat0 (F := Ideal) V c).arrAt 9 cfg0.N
      = Sage.hidden1 (M := 50000) (K := 128) (N := 256) (V c main_arg0) (V c main_v22) (V c main_arg2) (V c main_arg4) (V c main_v23) :=
  final0_9_of V (fun a0 a1 a2 a3 a4 _ _ _ _ => Sage.hidden1 (M := 50000) (K := 128) (N := 256) a0 a1 a2 a4 a3)
    (fun a0 a1 a2 a3 a4 a5 a6 a7 a8 x0 x1 p n q h0 h1 =>
      (congrFun (Pay.out0_9_eq x0 x1 a2 a3 a4 a5 a6 a7 a8) (ix2 p q)).trans
        (Sage.hidden1_rows x0 x1 a0 a1 a2 a4 a3 p n q h0 h1)) c

/-- Stage 1's second output array is the first residual projection of the node features. -/
theorem final0_10 (c : Dev nD) :
    (dat0 (F := Ideal) V c).arrAt 10 cfg0.N
      = Sage.linT (M := 50000) (K := 128) (N := 256) (V c main_arg0) (V c main_arg8) (V c main_v24) :=
  final0_10_of V (fun a0 _ _ _ _ a5 a6 _ _ => Sage.linT (M := 50000) (K := 128) (N := 256) a0 a5 a6)
    (fun a0 a1 a2 a3 a4 a5 a6 a7 a8 x0 x1 p n q h0 h1 =>
      (congrFun (Pay.out0_10_eq x0 x1 a2 a3 a4 a5 a6 a7 a8) (ix2 p q)).trans
        (Sage.linT_rows x0 a0 a5 a6 p n q h0)) c

/-- Stage 1's third output array is the second residual projection of the node features. -/
theorem final0_11 (c : Dev nD) :
    (dat0 (F := Ideal) V c).arrAt 11 cfg0.N
      = Sage.linT (M := 50000) (K := 128) (N := 256) (V c main_arg0) (V c main_arg10) (V c main_v25) :=
  final0_11_of V (fun a0 _ _ _ _ _ _ a7 a8 => Sage.linT (M := 50000) (K := 128) (N := 256) a0 a7 a8)
    (fun a0 a1 a2 a3 a4 a5 a6 a7 a8 x0 x1 p n q h0 h1 =>
      (congrFun (Pay.out0_11_eq x0 x1 a2 a3 a4 a5 a6 a7 a8) (ix2 p q)).trans
        (Sage.linT_rows x0 a0 a7 a8 p n q h0)) c

/-- Stage 2's output array is the second stage of the first layer's array, its neighbourhood mean and the two
    residual arrays. -/
theorem final1_13 (c : Dev nD) :
    (dat1 (F := Ideal) V c).arrAt 13 cfg1.N
      = Sage.stage2 (M := 50000) (K := 256) (D1 := 256) (D2 := 256) (D3 := 256) (D4 := 128)
          (V c main_v26_0) (V c main_v45) (V c main_v26_1) (V c main_v26_2) (V c main_arg5) (V c main_arg7) (V c main_v46)
          (V c main_arg12) (V c main_v47) (V c main_arg14) (V c main_v48) (V c main_arg16) (V c main_v49) :=
  final1_13_of V (fun a0 a1 a2 a3 a4 a5 a6 a7 a8 a9 a10 a11 a12 =>
      Sage.stage2 (M := 50000) (K := 256) (D1 := 256) (D2 := 256) (D3 := 256) (D4 := 128) a0 a1 a2 a3 a4 a6 a5 a7 a8 a9 a10 a11 a12)
    (fun a0 a1 a2 a3 a4 a5 a6 a7 a8 a9 a10 a11 a12 x0 x1 x2 x3 p n q h0 h1 h2 h3 =>
      (congrFun (Pay.out1_13_eq x0 x1 x2 x3 a4 a5 a6 a7 a8 a9 a10 a11 a12) (ix2 p q)).trans
        (Sage.stage2_rows x0 x1 x2 x3 a0 a1 a2 a3 a4 a6 a5 a7 a8 a9 a10 a11 a12 p n q h0 h1 h2 h3)) c

end Stages

/-! ## The result as one function of the arguments -/

/-- The first layer's array: the exponential linear unit of the neighbourhood-mean map of the node features `x`
    along the edge list `e`. -/
def hiddenLayer (x : (⟨S50000x128, .f32⟩ : BufTy).Contents (Elt Ideal)) (e : (⟨S2x600000, .i32⟩ : BufTy).Contents (Elt Ideal))
    (wl wr : (⟨S256x128, .f32⟩ : BufTy).Contents (Elt Ideal)) (b : (⟨S256, .f32⟩ : BufTy).Contents (Elt Ideal)) :
    (⟨S50000x256, .f32⟩ : BufTy).Contents (Elt Ideal) :=
  Sage.hidden1 (M := 50000) (K := 128) (N := 256) x (meanAgg128 (F := Ideal) x (edgeSrc e) (edgeDst e)) wl wr (biasRow256 b)

/-- The kernel's result from its eighteen arguments, in the program's argument order: node features, edge list,
    the first layer's weights and bias, the second layer's, the two residual projections', the three dense layers'. -/
def kernelValue (x : (⟨S50000x128, .f32⟩ : BufTy).Contents (Elt Ideal)) (e : (⟨S2x600000, .i32⟩ : BufTy).Contents (Elt Ideal))
    (wl1 : (⟨S256x128, .f32⟩ : BufTy).Contents (Elt Ideal)) (b1 : (⟨S256, .f32⟩ : BufTy).Contents (Elt Ideal))
    (wr1 : (⟨S256x128, .f32⟩ : BufTy).Contents (Elt Ideal))
    (wl2 : (⟨S256x256, .f32⟩ : BufTy).Contents (Elt Ideal)) (b2 : (⟨S256, .f32⟩ : BufTy).Contents (Elt Ideal))
    (wr2 : (⟨S256x256, .f32⟩ : BufTy).Contents (Elt Ideal))
    (r1w : (⟨S256x128, .f32⟩ : BufTy).Contents (Elt Ideal)) (r1b : (⟨S256, .f32⟩ : BufTy).Contents (Elt Ideal))
    (r2w : (⟨S256x128, .f32⟩ : BufTy).Contents (Elt Ideal)) (r2b : (⟨S256, .f32⟩ : BufTy).Contents (Elt Ideal))
    (f1w : (⟨S256x256, .f32⟩ : BufTy).Contents (Elt Ideal)) (f1b : (⟨S256, .f32⟩ : BufTy).Contents (Elt Ideal))
    (f2w : (⟨S256x256, .f32⟩ : BufTy).Contents (Elt Ideal)) (f2b : (⟨S256, .f32⟩ : BufTy).Contents (Elt Ideal))
    (f3w : (⟨S128x256, .f32⟩ : BufTy).Contents (Elt Ideal)) (f3b : (⟨S128, .f32⟩ : BufTy).Contents (Elt Ideal)) :
    (⟨S50000x128, .f32⟩ : BufTy).Contents (Elt Ideal) :=
  Sage.stage2 (M := 50000) (K := 256) (D1 := 256) (D2 := 256) (D3 := 256) (D4 := 128)
    (hiddenLayer x e wl1 wr1 b1)
    (meanAgg256 (F := Ideal) (hiddenLayer x e wl1 wr1 b1) (edgeSrc e) (edgeDst e))
    (Sage.linT (M := 50000) (K := 128) (N := 256) x r1w (biasRow256 r1b))
    (Sage.linT (M := 50000) (K := 128) (N := 256) x r2w (biasRow256 r2b))
    wl2 wr2 (biasRow256 b2) f1w (biasRow256 f1b) f2w (biasRow256 f2b) f3w (biasRow128 f3b)

variable (m : (ℓ : Loc nD τ sig) → Buf (Elt Ideal) ℓ) (ρ : Dev nD → PrngReg)

/-- Stage 1's first output array, from the arguments. -/
theorem hidden_arr (c : Dev nD) :
    (dat0 (F := Ideal) (V1 m ρ) c).arrAt 9 cfg0.N = hiddenLayer (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) := by
  rw [final0_9 (V1 m ρ) c, V1_main_arg0, V1_main_v22, V1_main_arg2, V1_main_arg4, V1_main_v23]
  rfl

/-- Stage 1's second output array, from the arguments. -/
theorem res1_arr (c : Dev nD) :
    (dat0 (F := Ideal) (V1 m ρ) c).arrAt 10 cfg0.N
      = Sage.linT (M := 50000) (K := 128) (N := 256) (m ((c.tc : Thread nD τ).loc main_arg0)) (m ((c.tc : Thread nD τ).loc main_arg8)) (biasRow256 (m ((c.tc : Thread nD τ).loc main_arg9))) := by
  rw [final0_10 (V1 m ρ) c, V1_main_arg0, V1_main_arg8, V1_main_v24]

/-- Stage 1's third output array, from the arguments. -/
theorem res2_arr (c : Dev nD) :
    (dat0 (F := Ideal) (V1 m ρ) c).arrAt 11 cfg0.N
      = Sage.linT (M := 50000) (K := 128) (N := 256) (m ((c.tc : Thread nD τ).loc main_arg0)) (m ((c.tc : Thread nD τ).loc main_arg10)) (biasRow256 (m ((c.tc : Thread nD τ).loc main_arg11))) := by
  rw [final0_11 (V1 m ρ) c, V1_main_arg0, V1_main_arg10, V1_main_v25]

/-- Equal arguments give equal values, thirteen at a time (the second stage has thirteen operands). -/
theorem congr13 {α0 α1 α2 α3 α4 α5 α6 α7 α8 α9 α10 α11 α12 β : Type}
    (f : α0 → α1 → α2 → α3 → α4 → α5 → α6 → α7 → α8 → α9 → α10 → α11 → α12 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    f a0 a1 a2 a3 a4 a5 a6 a7 a8 a9 a10 a11 a12 = f b0 b1 b2 b3 b4 b5 b6 b7 b8 b9 b10 b11 b12 := by
  subst h0 h1 h2 h3 h4 h5 h6 h7 h8 h9 h10 h11 h12
  rfl

/-- THE RESULT BUFFER at the last boundary of the run is `kernelValue` of the launch contents of the arguments:
    stage 2's output array, each of its thirteen operands read back through the second host stretch, stage 1 and the
    first host stretch. -/
theorem W4_main_v50 (c : Dev nD) :
    W4 m ρ c (Proc.devRef .tc main_v50)
      = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W4_arr m ρ c 13).trans ((final1_13 (V3 m ρ) c).trans ?_)
  unfold kernelValue
  exact congr13 (Sage.stage2 (M := 50000) (K := 256) (D1 := 256) (D2 := 256) (D3 := 256) (D4 := 128))
    ((V3_main_v26_0 m ρ c).trans (hidden_arr m ρ c))
    ((V3_main_v45 m ρ c).trans (congrArg
      (fun h => meanAgg256 (F := Ideal) h (edgeSrc (m ((c.tc : Thread nD τ).loc main_arg1))) (edgeDst (m ((c.tc : Thread nD τ).loc main_arg1)))) (hidden_arr m ρ c)))
    ((V3_main_v26_1 m ρ c).trans (res1_arr m ρ c))
    ((V3_main_v26_2 m ρ c).trans (res2_arr m ρ c))
    (V3_main_arg5 m ρ c) (V3_main_arg7 m ρ c) (V3_main_v46 m ρ c) (V3_main_arg12 m ρ c) (V3_main_v47 m ρ c)
    (V3_main_arg14 m ρ c) (V3_main_v48 m ρ c) (V3_main_arg16 m ρ c) (V3_main_v49 m ρ c)

/-- THE RUN, READ: every weakly fair execution of the idealized kernel from a launch memory with zero counters
    terminates, nothing faulting, with the result buffer at `kernelValue` of the arguments and the arguments as
    launched. -/
theorem run_value : θ_run defs (onTc (τ := τ) (main (F := Ideal))) ⟨m, fun _ => 0, ρ⟩ (fun r => ∀ c : Dev nD,
      r.2.mem ((c.tc : Thread nD τ).loc main_v50)
        = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (W4_main_v50 m ρ c), (h c).2⟩) (run_main m ρ)

end Cert.KernelIdeal.KVal

end
-- ==== Proof.RefStages.lean ====
import proofs.«160599_j22651657519232_1_alg».proof.ReferenceIdeal

/-! # The reference as a composition of named stages

The reference function is a two-layer GraphSAGE with mean aggregation followed by a residual MLP and a
softplus. Each definition below is one stage of it, written with exactly the array functions its StableHLO
operations denote, first as a combinator over the values of earlier stages and then, at the end, as a
function of the program's argument arrays. -/

noncomputable section

namespace Cert.ReferenceIdeal.RefRun

open Cert.ReferenceIdeal Idealize.ShloMosaic
open Facts₀ Facts

variable {F : FTy → Type} [FloatOps F] [Facts]

/-- An f32 array of shape `s`. -/
abbrev CF (F : FTy → Type) (s : Shape) : Type := (⟨s, .f32⟩ : BufTy).Contents (Elt F)
/-- An i32 array of shape `s`. -/
abbrev CI (F : FTy → Type) (s : Shape) : Type := (⟨s, .i32⟩ : BufTy).Contents (Elt F)

/-! ## Edge columns -/

/-- Row 0 of the 2 × E edge table as a vector of length E: the source node of every edge. -/
def srcCol (e : CI F S2x600000) : CI F S600000 :=
  shapeCast S600000 (extractStridedSlice S1x600000 ![0, 0] e slices_S2x600000_S1x600000_0_0) shapeCasts_S1x600000_S600000

/-- Row 1 of the edge table as a vector: the destination node of every edge. -/
def dstCol (e : CI F S2x600000) : CI F S600000 :=
  shapeCast S600000 (extractStridedSlice S1x600000 ![1, 0] e slices_S2x600000_S1x600000_1_0) shapeCasts_S1x600000_S600000

/-- The gather's start indices: each source index `i` read as `i + N` when negative (N = 50000), as an E × 1 column. -/
def gatherIdx (s : CI F S600000) : CI F S600000x1 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The scatter's indices: the destination vector as an E × 1 column. -/
def scatterIdx (d : CI F S600000) : CI F S600000x1 :=
  broadcastInDim S600000x1 ![0] bcast_S600000_S600000x1_0 d

/-! ## Affine maps `x · Wᵀ + b` -/

/-- `x · Wᵀ` for a 256 × 128 weight: N × 128 to N × 256. -/
def mm128 (x : CF F S50000x128) (W : CF F S256x128) : CF F S50000x256 :=
  Host.dotGeneral dot_S50000x128_S128x256_S50000x256_1_0_0_1_n_n none x (transpose S128x256 [1, 0] W transposes_S256x128_S128x256_1_0)

/-- A length-256 bias repeated down the N rows. -/
def bias256 (b : CF F S256) : CF F S50000x256 :=
  broadcastInDim S50000x256 ![0, 1] bcast_S1x256_S50000x256_0_1 (broadcastInDim S1x256 ![1] bcast_S256_S1x256_1 b)

/-- `x · Wᵀ + b`, N × 128 to N × 256. -/
def lin128 (x : CF F S50000x128) (W : CF F S256x128) (b : CF F S256) : CF F S50000x256 :=
  addf (mm128 x W) (bias256 b)

/-- `x · Wᵀ` for a 256 × 256 weight. -/
def mm256 (x : CF F S50000x256) (W : CF F S256x256) : CF F S50000x256 :=
  Host.dotGeneral dot_S50000x256_S256x256_S50000x256_1_0_0_1_n_n none x (transpose S256x256 [1, 0] W transposes_S256x256_S256x256_1_0)

/-- `x · Wᵀ + b`, N × 256 to N × 256. -/
def lin256 (x : CF F S50000x256) (W : CF F S256x256) (b : CF F S256) : CF F S50000x256 :=
  addf (mm256 x W) (bias256 b)

/-- `x · Wᵀ` for the 128 × 256 output weight: N × 256 to N × 128. -/
def mmOut (x : CF F S50000x256) (W : CF F S128x256) : CF F S50000x128 :=
  Host.dotGeneral dot_S50000x256_S256x128_S50000x128_1_0_0_1_n_n none x (transpose S256x128 [1, 0] W transposes_S128x256_S256x128_1_0)

/-- A length-128 bias repeated down the N rows. -/
def bias128 (b : CF F S128) : CF F S50000x128 :=
  broadcastInDim S50000x128 ![0, 1] bcast_S1x128_S50000x128_0_1 (broadcastInDim S1x128 ![1] bcast_S128_S1x128_1 b)

/-- `x · Wᵀ + b`, N × 256 to N × 128. -/
def linOut (x : CF F S50000x256) (W : CF F S128x256) (b : CF F S128) : CF F S50000x128 :=
  addf (mmOut x W) (bias128 b)

/-! ## Mean aggregation over incoming edges -/

/-- The N × 128 array of zeros. -/
def zeros128 : CF F S50000x128 := broadcastInDim S50000x128 ![] bcast_S_S50000x128 (constant S_ .f32 0x00000000#32)

/-- The N × 256 array of zeros. -/
def zeros256 : CF F S50000x256 := broadcastInDim S50000x256 ![] bcast_S_S50000x256 (constant S_ .f32 0x00000000#32)

/-- Row `v` is the sum over the edges into `v` of the source's row of `x` (width 128): a gather at the sources,
    then a scatter-add at the destinations into zeros. -/
def nbrSum128 (x : CF F S50000x128) (s d : CI F S600000) : CF F S50000x128 :=
  Host.scatterAdd scatter_S50000x128_S600000x1_S600000x128_1_0_0_1 zeros128 (scatterIdx d)
    (Host.gather gather_S50000x128_S600000x1_S600000x128_1_0_n_n_0_1_1128 x (gatherIdx s))

/-- The same sum at width 256. -/
def nbrSum256 (h : CF F S50000x256) (s d : CI F S600000) : CF F S50000x256 :=
  Host.scatterAdd scatter_S50000x256_S600000x1_S600000x256_1_0_0_1 zeros256 (scatterIdx d)
    (Host.gather gather_S50000x256_S600000x1_S600000x256_1_0_n_n_0_1_1256 h (gatherIdx s))

/-- The number of edges into each node (a scatter-add of ones into zeros), at least 1. -/
def degClamped (d : CI F S600000) : CF F S50000 :=
  maximumf
    (Host.scatterAdd scatter_S50000_S600000x1_S600000_n_0_0_1
      (broadcastInDim S50000 ![] bcast_S_S50000 (constant S_ .f32 0x00000000#32)) (scatterIdx d)
      (broadcastInDim S600000 ![] bcast_S_S600000 (constant S_ .f32 0x3F800000#32)))
    (broadcastInDim S50000 ![] bcast_S_S50000 (constant S_ .f32 0x3F800000#32))

/-- The mean of the neighbours' rows, width 128: the sum divided by the clamped in-degree. -/
def meanAgg128 (x : CF F S50000x128) (s d : CI F S600000) : CF F S50000x128 :=
  Host.divf (nbrSum128 x s d)
    (broadcastInDim S50000x128 ![0, 1] bcast_S50000x1_S50000x128_0_1 (broadcastInDim S50000x1 ![0] bcast_S50000_S50000x1_0 (degClamped d)))

/-- The mean of the neighbours' rows, width 256. -/
def meanAgg256 (h : CF F S50000x256) (s d : CI F S600000) : CF F S50000x256 :=
  Host.divf (nbrSum256 h s d)
    (broadcastInDim S50000x256 ![0, 1] bcast_S50000x1_S50000x256_0_1 (broadcastInDim S50000x1 ![0] bcast_S50000_S50000x1_0 (degClamped d)))

/-! ## The layers -/

/-- First SAGE layer before its activation: `agg · Wlᵀ + bl + x · Wrᵀ`. -/
def sageLayer1 (agg x : CF F S50000x128) (Wl : CF F S256x128) (bl : CF F S256) (Wr : CF F S256x128) : CF F S50000x256 :=
  addf (lin128 agg Wl bl) (mm128 x Wr)

/-- Second SAGE layer before its activation: `agg · Wlᵀ + bl + h · Wrᵀ`. -/
def sageLayer2 (agg h : CF F S50000x256) (Wl : CF F S256x256) (bl : CF F S256) (Wr : CF F S256x256) : CF F S50000x256 :=
  addf (lin256 agg Wl bl) (mm256 h Wr)

/-- ELU as the reference computes it: `x` where `x > 0`, else `1 · expm1 (x > 0 ? 0 : x)`. -/
def eluRef (x : CF F S50000x256) : CF F S50000x256 :=
  select (cmpf .ogt x zeros256) x
    (mulf (broadcastInDim S50000x256 ![] bcast_S_S50000x256 (constant S_ .f32 0x3F800000#32))
      (Host.expm1 (select (cmpf .ogt x zeros256) zeros256 x)))

/-- Softplus as the reference computes it: with `d = x - 0`, `x + 0` where `d ≠ d`, else
    `max x 0 + log1p (exp (-|d|))`. -/
def softplusRef (x : CF F S50000x128) : CF F S50000x128 :=
  select (cmpf .une (subf x zeros128) (subf x zeros128)) (addf x zeros128)
    (addf (maximumf x zeros128) (Host.log1p (Host.exp (Host.negf (Host.absf (subf x zeros128))))))

/-! ## The stages as functions of the argument arrays

`a0` the node features, `a1` the edge table, `a2 … a17` the weights and biases in the program's order. -/

/-- First residual projection: `a0 · a8ᵀ + a9`. -/
def res1 (a0 : CF F S50000x128) (a8 : CF F S256x128) (a9 : CF F S256) : CF F S50000x256 := lin128 a0 a8 a9
/-- Second residual projection: `a0 · a10ᵀ + a11`. -/
def res2 (a0 : CF F S50000x128) (a10 : CF F S256x128) (a11 : CF F S256) : CF F S50000x256 := lin128 a0 a10 a11
/-- Neighbour mean of the input features. -/
def agg1 (a0 : CF F S50000x128) (a1 : CI F S2x600000) : CF F S50000x128 := meanAgg128 a0 (srcCol a1) (dstCol a1)
/-- First SAGE layer, pre-activation. -/
def sage1 (a0 : CF F S50000x128) (a1 : CI F S2x600000) (a2 : CF F S256x128) (a3 : CF F S256) (a4 : CF F S256x128) : CF F S50000x256 := sageLayer1 (agg1 a0 a1) a0 a2 a3 a4
/-- First hidden state. -/
def h1 (a0 : CF F S50000x128) (a1 : CI F S2x600000) (a2 : CF F S256x128) (a3 : CF F S256) (a4 : CF F S256x128) : CF F S50000x256 := eluRef (sage1 a0 a1 a2 a3 a4)
/-- Neighbour mean of the first hidden state. -/
def agg2 (a0 : CF F S50000x128) (a1 : CI F S2x600000) (a2 : CF F S256x128) (a3 : CF F S256) (a4 : CF F S256x128) : CF F S50000x256 := meanAgg256 (h1 a0 a1 a2 a3 a4) (srcCol a1) (dstCol a1)
/-- Second SAGE layer, pre-activation. -/
def sage2 (a0 : CF F S50000x128) (a1 : CI F S2x600000) (a2 : CF F S256x128) (a3 : CF F S256) (a4 : CF F S256x128) (a5 : CF F S256x256) (a6 : CF F S256) (a7 : CF F S256x256) : CF F S50000x256 := sageLayer2 (agg2 a0 a1 a2 a3 a4) (h1 a0 a1 a2 a3 a4) a5 a6 a7
/-- Second hidden state. -/
def h2 (a0 : CF F S50000x128) (a1 : CI F S2x600000) (a2 : CF F S256x128) (a3 : CF F S256) (a4 : CF F S256x128) (a5 : CF F S256x256) (a6 : CF F S256) (a7 : CF F S256x256) : CF F S50000x256 := eluRef (sage2 a0 a1 a2 a3 a4 a5 a6 a7)
/-- Second hidden state plus the first residual. -/
def t1 (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) : CF F S50000x256 := addf (h2 a0 a1 a2 a3 a4 a5 a6 a7) (res1 a0 a8 a9)
/-- First MLP layer. -/
def m1 (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) (a12 : CF F S256x256) (a13 : CF F S256) : CF F S50000x256 := eluRef (lin256 (t1 a0 a1 a2 a3 a4 a5 a6 a7 a8 a9) a12 a13)
/-- Second MLP layer. -/
def m2 (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) (a12 : CF F S256x256) (a13 : CF F S256) (a14 : CF F S256x256) (a15 : CF F S256) : CF F S50000x256 := eluRef (lin256 (m1 a0 a1 a2 a3 a4 a5 a6 a7 a8 a9 a12 a13) a14 a15)
/-- Second MLP layer plus the second residual. -/
def t2 (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) (a10 : CF F S256x128) (a11 : CF F S256) (a12 : CF F S256x256) (a13 : CF F S256) (a14 : CF F S256x256) (a15 : CF F S256) : CF F S50000x256 := addf (m2 a0 a1 a2 a3 a4 a5 a6 a7 a8 a9 a12 a13 a14 a15) (res2 a0 a10 a11)
/-- Output projection, pre-activation. -/
def pre3 (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) (a10 : CF F S256x128) (a11 : CF F S256) (a12 : CF F S256x256) (a13 : CF F S256) (a14 : CF F S256x256) (a15 : CF F S256) (a16 : CF F S128x256) (a17 : CF F S128) : CF F S50000x128 := linOut (t2 a0 a1 a2 a3 a4 a5 a6 a7 a8 a9 a10 a11 a12 a13 a14 a15) a16 a17
/-- The reference's result. -/
def out (a0 : CF F S50000x128) (a1 : CI F S2x600000) (a2 : CF F S256x128) (a3 : CF F S256) (a4 : CF F S256x128) (a5 : CF F S256x256) (a6 : CF F S256) (a7 : CF F S256x256) (a8 : CF F S256x128) (a9 : CF F S256) (a10 : CF F S256x128) (a11 : CF F S256) (a12 : CF F S256x256) (a13 : CF F S256) (a14 : CF F S256x256) (a15 : CF F S256) (a16 : CF F S128x256) (a17 : CF F S128) : CF F S50000x128 := softplusRef (pre3 a0 a1 a2 a3 a4 a5 a6 a7 a8 a9 a10 a11 a12 a13 a14 a15 a16 a17)

end Cert.ReferenceIdeal.RefRun

end
-- ==== Proof.RefRun.lean ====
import proofs.«160599_j22651657519232_1_alg».proof.Proof.Gen.ReferenceIdeal
import Idealize.ShloMosaic.Lib.StableHlo.Run
import Idealize.ShloMosaic.Lib.Pipeline.Frame
import proofs.«160599_j22651657519232_1_alg».proof.Proof.RefStages

/-! # The reference's run, read back

The reference program's @main is a straight line of 171 array operations (its five calls unfolded at their
sites). Here it is written as that list, cut into fifteen consecutive windows along the stages of the
computation; the program is shown equal to the list run in order, and the contents of the result buffer after
the run are shown equal to the composition of the stages of `RefStages` applied to the argument arrays, the
argument arrays themselves being left as they were. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window -/

/-- Operations 1 … 14 of 171: the edge columns and the two residual projections. -/
abbrev w1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg8 main_v4 ((transpose S128x256 [1, 0] · transposes_S256x128_S128x256_1_0) : (⟨S256x128, .f32⟩ : BufTy).Contents (Elt F) → (⟨S128x256, .f32⟩ : BufTy).Contents (Elt F)),
    StableHlo.binary main_arg0 main_v4 main_v5 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg9 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S50000x256 ![0, 1] bcast_S1x256_S50000x256_0_1 : (⟨S1x256, .f32⟩ : BufTy).Contents (Elt F) → (⟨S50000x256, .f32⟩ : BufTy).Contents (Elt F)),
    StableHlo.binary main_v5 main_v7 main_v8 (addf : (⟨S50000x256, .f32⟩ : BufTy).Contents (Elt F) → (⟨S50000x256, .f32⟩ : BufTy).Contents (Elt F) → (⟨S50000x256, .f32⟩ : BufTy).Contents (Elt F)),
    StableHlo.unary main_arg10 main_v9 ((transpose S128x256 [1, 0] · transposes_S256x128_S128x256_1_0) : (⟨S256x128, .f32⟩ : BufTy).Contents (Elt F) → (⟨S128x256, .f32⟩ : BufTy).Contents (Elt F)),
    StableHlo.binary main_arg0 main_v9 main_v10 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg11 main_v11 (broadcastInDim S1x256 ![1] bcast_S256_S1x256_1 : (⟨S256, .f32⟩ : BufTy).Contents (Elt F) → (⟨S1x256, .f32⟩ : BufTy).Contents (Elt F)),
    StableHlo.unary main_v11 main_v12 (broadcastInDim S50000x256 ![0, 1] bcast_S1x256_S50000x256_0_1 : (⟨S1x256, .f32⟩ : BufTy).Contents (Elt F) → (⟨S50000x256, .f32⟩ : BufTy).Contents (Elt F)),
    StableHlo.binary main_v10 main_v12 main_v13 (addf : (⟨S50000x256, .f32⟩ : BufTy).Contents (Elt F) → (⟨S50000x256, .f32⟩ : BufTy).Contents (Elt F) → (⟨S50000x256, .f32⟩ : BufTy).Contents (Elt F)) ]

/-- Operations 15 … 27 of 171: the gather at the sources and the scatter-add of the input features. -/
abbrev w2 : List (HloOp τ sig (Elt F)) :=
  [ StableHlo.nullary main_c (constantI S_ 32 0#32),
    StableHlo.unary main_c main_v14 (broadcastInDim S600000 ![] bcast_S_S600000 : (⟨S_, .i32⟩ : BufTy).Contents (Elt F) → (⟨S600000, .i32⟩ : BufTy).Contents (Elt F)),
    StableHlo.binary main_v1 main_v14 main_v15 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v16 (broadcastInDim S600000 ![] bcast_S_S600000 : (⟨S_, .i32⟩ : BufTy).Contents (Elt F) → (⟨S600000, .i32⟩ : BufTy).Contents (Elt F)),
    StableHlo.binary main_v1 main_v16 main_v17 (addi : (⟨S600000, .i32⟩ : BufTy).Contents (Elt F) → (⟨S600000, .i32⟩ : BufTy).Contents (Elt F) → (⟨S600000, .i32⟩ : BufTy).Contents (Elt F)),
    StableHlo.ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v18 main_v19 (broadcastInDim S600000x1 ![0] bcast_S600000_S600000x1_0 : (⟨S600000, .i32⟩ : BufTy).Contents (Elt F) → (⟨S600000x1, .i32⟩ : BufTy).Contents (Elt F)),
    StableHlo.binary main_arg0 main_v19 main_v20 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S600000x1 ![0] bcast_S600000_S600000x1_0 : (⟨S600000, .i32⟩ : BufTy).Contents (Elt F) → (⟨S600000x1, .i32⟩ : BufTy).Contents (Elt F)),
    StableHlo.ternary main_v21 main_v22 main_v20 main_v23 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Operations 28 … 39 of 171: the in-degree and the first neighbour mean. -/
abbrev w3 : List (HloOp τ sig (Elt F)) :=
  [ StableHlo.nullary main_cst_1 (constant S_ .f32 0x3F800000#32),
    StableHlo.unary main_cst_1 main_v24 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S600000x1 ![0] bcast_S600000_S600000x1_0 : (⟨S600000, .i32⟩ : BufTy).Contents (Elt F) → (⟨S600000x1, .i32⟩ : BufTy).Contents (Elt F)),
    StableHlo.ternary main_v25 main_v26 main_v24 main_v27 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v23 main_v31 main_v32 (Host.divf : (⟨S50000x128, .f32⟩ : BufTy).Contents (Elt F) → (⟨S50000x128, .f32⟩ : BufTy).Contents (Elt F) → (⟨S50000x128, .f32⟩ : BufTy).Contents (Elt F)) ]

/-- Operations 40 … 47 of 171: the first layer's affine maps. -/
abbrev w4 : List (HloOp τ sig (Elt F)) :=
  [ StableHlo.unary main_arg2 main_v33 ((transpose S128x256 [1, 0] · transposes_S256x128_S128x256_1_0) : (⟨S256x128, .f32⟩ : BufTy).Contents (Elt F) → (⟨S128x256, .f32⟩ : BufTy).Contents (Elt F)),
    StableHlo.binary main_v32 main_v33 main_v34 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    StableHlo.unary main_arg4 main_v38 ((transpose S128x256 [1, 0] · transposes_S256x128_S128x256_1_0) : (⟨S256x128, .f32⟩ : BufTy).Contents (Elt F) → (⟨S128x256, .f32⟩ : BufTy).Contents (Elt F)),
    StableHlo.binary main_arg0 main_v38 main_v39 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v37 main_v39 main_v40 (addf : (⟨S50000x256, .f32⟩ : BufTy).Contents (Elt F) → (⟨S50000x256, .f32⟩ : BufTy).Contents (Elt F) → (⟨S50000x256, .f32⟩ : BufTy).Contents (Elt F)) ]

/-- Operations 48 … 62 of 171: the first activation. -/
abbrev w5 : List (HloOp τ sig (Elt F)) :=
  [ StableHlo.nullary main_call0_cst (constant S_ .f32 0x00000000#32),
    StableHlo.unary main_call0_cst main_call0_v0 (broadcastInDim S50000x256 ![] bcast_S_S50000x256 : (⟨S_, .f32⟩ : BufTy).Contents (Elt F) → (⟨S50000x256, .f32⟩ : BufTy).Contents (Elt F)),
    StableHlo.binary main_v40 main_call0_v0 main_call0_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call0_cst_0 (constant S_ .f32 0x00000000#32),
    StableHlo.unary main_call0_cst_0 main_call0_v2 (broadcastInDim S50000x256 ![] bcast_S_S50000x256 : (⟨S_, .f32⟩ : BufTy).Contents (Elt F) → (⟨S50000x256, .f32⟩ : BufTy).Contents (Elt F)),
    StableHlo.binary main_v40 main_call0_v2 main_call0_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call0_cst_1 (constant S_ .f32 0x00000000#32),
    StableHlo.unary main_call0_cst_1 main_call0_call0_v0 (id : (⟨S_, .f32⟩ : BufTy).Contents (Elt F) → (⟨S_, .f32⟩ : BufTy).Contents (Elt F)),
    StableHlo.unary main_call0_call0_v0 main_call0_call0_v1 (broadcastInDim S50000x256 ![] bcast_S_S50000x256 : (⟨S_, .f32⟩ : BufTy).Contents (Elt F) → (⟨S50000x256, .f32⟩ : BufTy).Contents (Elt F)),
    StableHlo.ternary main_call0_v3 main_call0_call0_v1 main_v40 main_call0_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call0_v4 main_call0_v5 (Host.expm1 : (⟨S50000x256, .f32⟩ : BufTy).Contents (Elt F) → (⟨S50000x256, .f32⟩ : BufTy).Contents (Elt F)),
    StableHlo.nullary main_call0_cst_2 (constant S_ .f32 0x3F800000#32),
    StableHlo.unary main_call0_cst_2 main_call0_v6 (broadcastInDim S50000x256 ![] bcast_S_S50000x256 : (⟨S_, .f32⟩ : BufTy).Contents (Elt F) → (⟨S50000x256, .f32⟩ : BufTy).Contents (Elt F)),
    StableHlo.binary main_call0_v6 main_call0_v5 main_call0_v7 (mulf : (⟨S50000x256, .f32⟩ : BufTy).Contents (Elt F) → (⟨S50000x256, .f32⟩ : BufTy).Contents (Elt F) → (⟨S50000x256, .f32⟩ : BufTy).Contents (Elt F)),
    StableHlo.ternary main_call0_v1 main_v40 main_call0_v7 main_v41 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- Operations 63 … 74 of 171: the second gather and its scatter's operands. -/
abbrev w6 : List (HloOp τ sig (Elt F)) :=
  [ StableHlo.nullary main_c_4 (constantI S_ 32 0#32),
    StableHlo.unary main_c_4 main_v42 (broadcastInDim S600000 ![] bcast_S_S600000 : (⟨S_, .i32⟩ : BufTy).Contents (Elt F) → (⟨S600000, .i32⟩ : BufTy).Contents (Elt F)),
    StableHlo.binary main_v1 main_v42 main_v43 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v44 (broadcastInDim S600000 ![] bcast_S_S600000 : (⟨S_, .i32⟩ : BufTy).Contents (Elt F) → (⟨S600000, .i32⟩ : BufTy).Contents (Elt F)),
    StableHlo.binary main_v1 main_v44 main_v45 (addi : (⟨S600000, .i32⟩ : BufTy).Contents (Elt F) → (⟨S600000, .i32⟩ : BufTy).Contents (Elt F) → (⟨S600000, .i32⟩ : BufTy).Contents (Elt F)),
    StableHlo.ternary main_v43 main_v45 main_v1 main_v46 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v46 main_v47 (broadcastInDim S600000x1 ![0] bcast_S600000_S600000x1_0 : (⟨S600000, .i32⟩ : BufTy).Contents (Elt F) → (⟨S600000x1, .i32⟩ : BufTy).Contents (Elt F)),
    StableHlo.binary main_v41 main_v47 main_v48 ((fun x i => Host.gather gather_S50000x256_S600000x1_S600000x256_1_0_n_n_0_1_1256 x i) : (⟨S50000x256, .f32⟩ : BufTy).Contents (Elt F) → (⟨S600000x1, .i32⟩ : BufTy).Contents (Elt F) → (⟨S600000x256, .f32⟩ : BufTy).Contents (Elt F)),
    StableHlo.nullary main_cst_6 (constant S_ .f32 0x00000000#32),
    StableHlo.unary main_cst_6 main_v49 (broadcastInDim S50000x256 ![] bcast_S_S50000x256 : (⟨S_, .f32⟩ : BufTy).Contents (Elt F) → (⟨S50000x256, .f32⟩ : BufTy).Contents (Elt F)),
    StableHlo.unary main_v3 main_v50 (broadcastInDim S600000x1 ![0] bcast_S600000_S600000x1_0 : (⟨S600000, .i32⟩ : BufTy).Contents (Elt F) → (⟨S600000x1, .i32⟩ : BufTy).Contents (Elt F)) ]

/-- Operations 75 … 87 of 171: the second scatter-add, the in-degree and the second neighbour mean. -/
abbrev w7 : List (HloOp τ sig (Elt F)) :=
  [ StableHlo.ternary main_v49 main_v50 main_v48 main_v51 ((fun x i u => Host.scatterAdd scatter_S50000x256_S600000x1_S600000x256_1_0_0_1 x i u) : (⟨S50000x256, .f32⟩ : BufTy).Contents (Elt F) → (⟨S600000x1, .i32⟩ : BufTy).Contents (Elt F) → (⟨S600000x256, .f32⟩ : BufTy).Contents (Elt F) → (⟨S50000x256, .f32⟩ : BufTy).Contents (Elt F)),
    StableHlo.nullary main_cst_7 (constant S_ .f32 0x3F800000#32),
    StableHlo.unary main_cst_7 main_v52 (broadcastInDim S600000 ![] bcast_S_S600000 : (⟨S_, .f32⟩ : BufTy).Contents (Elt F) → (⟨S600000, .f32⟩ : BufTy).Contents (Elt F)),
    StableHlo.nullary main_cst_8 (constant S_ .f32 0x00000000#32),
    StableHlo.unary main_cst_8 main_v53 (broadcastInDim S50000 ![] bcast_S_S50000 : (⟨S_, .f32⟩ : BufTy).Contents (Elt F) → (⟨S50000, .f32⟩ : BufTy).Contents (Elt F)),
    StableHlo.unary main_v3 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_9 (constant S_ .f32 0x3F800000#32),
    StableHlo.unary main_cst_9 main_v56 (broadcastInDim S50000 ![] bcast_S_S50000 : (⟨S_, .f32⟩ : BufTy).Contents (Elt F) → (⟨S50000, .f32⟩ : BufTy).Contents (Elt F)),
    StableHlo.binary main_v55 main_v56 main_v57 (maximumf : (⟨S50000, .f32⟩ : BufTy).Contents (Elt F) → (⟨S50000, .f32⟩ : BufTy).Contents (Elt F) → (⟨S50000, .f32⟩ : BufTy).Contents (Elt F)),
    StableHlo.unary main_v57 main_v58 (broadcastInDim S50000x1 ![0] bcast_S50000_S50000x1_0 : (⟨S50000, .f32⟩ : BufTy).Contents (Elt F) → (⟨S50000x1, .f32⟩ : BufTy).Contents (Elt F)),
    StableHlo.unary main_v58 main_v59 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v59 main_v60 (Host.divf : (⟨S50000x256, .f32⟩ : BufTy).Contents (Elt F) → (⟨S50000x256, .f32⟩ : BufTy).Contents (Elt F) → (⟨S50000x256, .f32⟩ : BufTy).Contents (Elt F)) ]

/-- Operations 88 … 95 of 171: the second layer's affine maps. -/
abbrev w8 : List (HloOp τ sig (Elt F)) :=
  [ StableHlo.unary main_arg5 main_v61 ((transpose S256x256 [1, 0] · transposes_S256x256_S256x256_1_0) : (⟨S256x256, .f32⟩ : BufTy).Contents (Elt F) → (⟨S256x256, .f32⟩ : BufTy).Contents (Elt F)),
    StableHlo.binary main_v60 main_v61 main_v62 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v64 main_v65 (addf : (⟨S50000x256, .f32⟩ : BufTy).Contents (Elt F) → (⟨S50000x256, .f32⟩ : BufTy).Contents (Elt F) → (⟨S50000x256, .f32⟩ : BufTy).Contents (Elt F)),
    StableHlo.unary main_arg7 main_v66 ((transpose S256x256 [1, 0] · transposes_S256x256_S256x256_1_0) : (⟨S256x256, .f32⟩ : BufTy).Contents (Elt F) → (⟨S256x256, .f32⟩ : BufTy).Contents (Elt F)),
    StableHlo.binary main_v41 main_v66 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v65 main_v67 main_v68 (addf : (⟨S50000x256, .f32⟩ : BufTy).Contents (Elt F) → (⟨S50000x256, .f32⟩ : BufTy).Contents (Elt F) → (⟨S50000x256, .f32⟩ : BufTy).Contents (Elt F)) ]

/-- Operations 96 … 110 of 171: the second activation. -/
abbrev w9 : List (HloOp τ sig (Elt F)) :=
  [ StableHlo.nullary main_call1_cst (constant S_ .f32 0x00000000#32),
    StableHlo.unary main_call1_cst main_call1_v0 (broadcastInDim S50000x256 ![] bcast_S_S50000x256 : (⟨S_, .f32⟩ : BufTy).Contents (Elt F) → (⟨S50000x256, .f32⟩ : BufTy).Contents (Elt F)),
    StableHlo.binary main_v68 main_call1_v0 main_call1_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call1_cst_0 (constant S_ .f32 0x00000000#32),
    StableHlo.unary main_call1_cst_0 main_call1_v2 (broadcastInDim S50000x256 ![] bcast_S_S50000x256 : (⟨S_, .f32⟩ : BufTy).Contents (Elt F) → (⟨S50000x256, .f32⟩ : BufTy).Contents (Elt F)),
    StableHlo.binary main_v68 main_call1_v2 main_call1_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S50000x256 ![] bcast_S_S50000x256 : (⟨S_, .f32⟩ : BufTy).Contents (Elt F) → (⟨S50000x256, .f32⟩ : BufTy).Contents (Elt F)),
    StableHlo.ternary main_call1_v3 main_call1_call0_v1 main_v68 main_call1_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call1_v4 main_call1_v5 (Host.expm1 : (⟨S50000x256, .f32⟩ : BufTy).Contents (Elt F) → (⟨S50000x256, .f32⟩ : BufTy).Contents (Elt F)),
    StableHlo.nullary main_call1_cst_2 (constant S_ .f32 0x3F800000#32),
    StableHlo.unary main_call1_cst_2 main_call1_v6 (broadcastInDim S50000x256 ![] bcast_S_S50000x256 : (⟨S_, .f32⟩ : BufTy).Contents (Elt F) → (⟨S50000x256, .f32⟩ : BufTy).Contents (Elt F)),
    StableHlo.binary main_call1_v6 main_call1_v5 main_call1_v7 (mulf : (⟨S50000x256, .f32⟩ : BufTy).Contents (Elt F) → (⟨S50000x256, .f32⟩ : BufTy).Contents (Elt F) → (⟨S50000x256, .f32⟩ : BufTy).Contents (Elt F)),
    StableHlo.ternary main_call1_v1 main_v68 main_call1_v7 main_v69 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- Operations 111 … 116 of 171: the first residual sum and the first MLP affine map. -/
abbrev w10 : List (HloOp τ sig (Elt F)) :=
  [ StableHlo.binary main_v69 main_v8 main_v70 (addf : (⟨S50000x256, .f32⟩ : BufTy).Contents (Elt F) → (⟨S50000x256, .f32⟩ : BufTy).Contents (Elt F) → (⟨S50000x256, .f32⟩ : BufTy).Contents (Elt F)),
    StableHlo.unary main_arg12 main_v71 ((transpose S256x256 [1, 0] · transposes_S256x256_S256x256_1_0) : (⟨S256x256, .f32⟩ : BufTy).Contents (Elt F) → (⟨S256x256, .f32⟩ : BufTy).Contents (Elt F)),
    StableHlo.binary main_v70 main_v71 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S50000x256 ![0, 1] bcast_S1x256_S50000x256_0_1 : (⟨S1x256, .f32⟩ : BufTy).Contents (Elt F) → (⟨S50000x256, .f32⟩ : BufTy).Contents (Elt F)),
    StableHlo.binary main_v72 main_v74 main_v75 (addf : (⟨S50000x256, .f32⟩ : BufTy).Contents (Elt F) → (⟨S50000x256, .f32⟩ : BufTy).Contents (Elt F) → (⟨S50000x256, .f32⟩ : BufTy).Contents (Elt F)) ]

/-- Operations 117 … 131 of 171: the third activation. -/
abbrev w11 : List (HloOp τ sig (Elt F)) :=
  [ StableHlo.nullary main_call2_cst (constant S_ .f32 0x00000000#32),
    StableHlo.unary main_call2_cst main_call2_v0 (broadcastInDim S50000x256 ![] bcast_S_S50000x256 : (⟨S_, .f32⟩ : BufTy).Contents (Elt F) → (⟨S50000x256, .f32⟩ : BufTy).Contents (Elt F)),
    StableHlo.binary main_v75 main_call2_v0 main_call2_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call2_cst_0 (constant S_ .f32 0x00000000#32),
    StableHlo.unary main_call2_cst_0 main_call2_v2 (broadcastInDim S50000x256 ![] bcast_S_S50000x256 : (⟨S_, .f32⟩ : BufTy).Contents (Elt F) → (⟨S50000x256, .f32⟩ : BufTy).Contents (Elt F)),
    StableHlo.binary main_v75 main_call2_v2 main_call2_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S50000x256 ![] bcast_S_S50000x256 : (⟨S_, .f32⟩ : BufTy).Contents (Elt F) → (⟨S50000x256, .f32⟩ : BufTy).Contents (Elt F)),
    StableHlo.ternary main_call2_v3 main_call2_call0_v1 main_v75 main_call2_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call2_v4 main_call2_v5 (Host.expm1 : (⟨S50000x256, .f32⟩ : BufTy).Contents (Elt F) → (⟨S50000x256, .f32⟩ : BufTy).Contents (Elt F)),
    StableHlo.nullary main_call2_cst_2 (constant S_ .f32 0x3F800000#32),
    StableHlo.unary main_call2_cst_2 main_call2_v6 (broadcastInDim S50000x256 ![] bcast_S_S50000x256 : (⟨S_, .f32⟩ : BufTy).Contents (Elt F) → (⟨S50000x256, .f32⟩ : BufTy).Contents (Elt F)),
    StableHlo.binary main_call2_v6 main_call2_v5 main_call2_v7 (mulf : (⟨S50000x256, .f32⟩ : BufTy).Contents (Elt F) → (⟨S50000x256, .f32⟩ : BufTy).Contents (Elt F) → (⟨S50000x256, .f32⟩ : BufTy).Contents (Elt F)),
    StableHlo.ternary main_call2_v1 main_v75 main_call2_v7 main_v76 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- Operations 132 … 136 of 171: the second MLP affine map. -/
abbrev w12 : List (HloOp τ sig (Elt F)) :=
  [ StableHlo.unary main_arg14 main_v77 ((transpose S256x256 [1, 0] · transposes_S256x256_S256x256_1_0) : (⟨S256x256, .f32⟩ : BufTy).Contents (Elt F) → (⟨S256x256, .f32⟩ : BufTy).Contents (Elt F)),
    StableHlo.binary main_v76 main_v77 main_v78 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg15 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S50000x256 ![0, 1] bcast_S1x256_S50000x256_0_1 : (⟨S1x256, .f32⟩ : BufTy).Contents (Elt F) → (⟨S50000x256, .f32⟩ : BufTy).Contents (Elt F)),
    StableHlo.binary main_v78 main_v80 main_v81 (addf : (⟨S50000x256, .f32⟩ : BufTy).Contents (Elt F) → (⟨S50000x256, .f32⟩ : BufTy).Contents (Elt F) → (⟨S50000x256, .f32⟩ : BufTy).Contents (Elt F)) ]

/-- Operations 137 … 151 of 171: the fourth activation. -/
abbrev w13 : List (HloOp τ sig (Elt F)) :=
  [ StableHlo.nullary main_call3_cst (constant S_ .f32 0x00000000#32),
    StableHlo.unary main_call3_cst main_call3_v0 (broadcastInDim S50000x256 ![] bcast_S_S50000x256 : (⟨S_, .f32⟩ : BufTy).Contents (Elt F) → (⟨S50000x256, .f32⟩ : BufTy).Contents (Elt F)),
    StableHlo.binary main_v81 main_call3_v0 main_call3_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_0 (constant S_ .f32 0x00000000#32),
    StableHlo.unary main_call3_cst_0 main_call3_v2 (broadcastInDim S50000x256 ![] bcast_S_S50000x256 : (⟨S_, .f32⟩ : BufTy).Contents (Elt F) → (⟨S50000x256, .f32⟩ : BufTy).Contents (Elt F)),
    StableHlo.binary main_v81 main_call3_v2 main_call3_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S50000x256 ![] bcast_S_S50000x256 : (⟨S_, .f32⟩ : BufTy).Contents (Elt F) → (⟨S50000x256, .f32⟩ : BufTy).Contents (Elt F)),
    StableHlo.ternary main_call3_v3 main_call3_call0_v1 main_v81 main_call3_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call3_v4 main_call3_v5 (Host.expm1 : (⟨S50000x256, .f32⟩ : BufTy).Contents (Elt F) → (⟨S50000x256, .f32⟩ : BufTy).Contents (Elt F)),
    StableHlo.nullary main_call3_cst_2 (constant S_ .f32 0x3F800000#32),
    StableHlo.unary main_call3_cst_2 main_call3_v6 (broadcastInDim S50000x256 ![] bcast_S_S50000x256 : (⟨S_, .f32⟩ : BufTy).Contents (Elt F) → (⟨S50000x256, .f32⟩ : BufTy).Contents (Elt F)),
    StableHlo.binary main_call3_v6 main_call3_v5 main_call3_v7 (mulf : (⟨S50000x256, .f32⟩ : BufTy).Contents (Elt F) → (⟨S50000x256, .f32⟩ : BufTy).Contents (Elt F) → (⟨S50000x256, .f32⟩ : BufTy).Contents (Elt F)),
    StableHlo.ternary main_call3_v1 main_v81 main_call3_v7 main_v82 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- Operations 152 … 157 of 171: the second residual sum and the output projection. -/
abbrev w14 : List (HloOp τ sig (Elt F)) :=
  [ StableHlo.binary main_v82 main_v13 main_v83 (addf : (⟨S50000x256, .f32⟩ : BufTy).Contents (Elt F) → (⟨S50000x256, .f32⟩ : BufTy).Contents (Elt F) → (⟨S50000x256, .f32⟩ : BufTy).Contents (Elt F)),
    StableHlo.unary main_arg16 main_v84 ((transpose S256x128 [1, 0] · transposes_S128x256_S256x128_1_0) : (⟨S128x256, .f32⟩ : BufTy).Contents (Elt F) → (⟨S256x128, .f32⟩ : BufTy).Contents (Elt F)),
    StableHlo.binary main_v83 main_v84 main_v85 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg17 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v87 main_v88 (addf : (⟨S50000x128, .f32⟩ : BufTy).Contents (Elt F) → (⟨S50000x128, .f32⟩ : BufTy).Contents (Elt F) → (⟨S50000x128, .f32⟩ : BufTy).Contents (Elt F)) ]

/-- Operations 158 … 171 of 171: the softplus. -/
abbrev w15 : List (HloOp τ sig (Elt F)) :=
  [ StableHlo.nullary main_call4_cst (constant S_ .f32 0x00000000#32),
    StableHlo.unary main_call4_cst main_call4_v0 (broadcastInDim S50000x128 ![] bcast_S_S50000x128 : (⟨S_, .f32⟩ : BufTy).Contents (Elt F) → (⟨S50000x128, .f32⟩ : BufTy).Contents (Elt F)),
    StableHlo.binary main_v88 main_call4_v0 main_call4_v1 (maximumf : (⟨S50000x128, .f32⟩ : BufTy).Contents (Elt F) → (⟨S50000x128, .f32⟩ : BufTy).Contents (Elt F) → (⟨S50000x128, .f32⟩ : BufTy).Contents (Elt F)),
    StableHlo.unary main_call4_cst main_call4_v2 (broadcastInDim S50000x128 ![] bcast_S_S50000x128 : (⟨S_, .f32⟩ : BufTy).Contents (Elt F) → (⟨S50000x128, .f32⟩ : BufTy).Contents (Elt F)),
    StableHlo.binary main_v88 main_call4_v2 main_call4_v3 (subf : (⟨S50000x128, .f32⟩ : BufTy).Contents (Elt F) → (⟨S50000x128, .f32⟩ : BufTy).Contents (Elt F) → (⟨S50000x128, .f32⟩ : BufTy).Contents (Elt F)),
    StableHlo.binary main_call4_v3 main_call4_v3 main_call4_v4 (cmpf .une : (⟨S50000x128, .f32⟩ : BufTy).Contents (Elt F) → (⟨S50000x128, .f32⟩ : BufTy).Contents (Elt F) → (⟨S50000x128, .i1⟩ : BufTy).Contents (Elt F)),
    StableHlo.unary main_call4_cst main_call4_v5 (broadcastInDim S50000x128 ![] bcast_S_S50000x128 : (⟨S_, .f32⟩ : BufTy).Contents (Elt F) → (⟨S50000x128, .f32⟩ : BufTy).Contents (Elt F)),
    StableHlo.binary main_v88 main_call4_v5 main_call4_v6 (addf : (⟨S50000x128, .f32⟩ : BufTy).Contents (Elt F) → (⟨S50000x128, .f32⟩ : BufTy).Contents (Elt F) → (⟨S50000x128, .f32⟩ : BufTy).Contents (Elt F)),
    StableHlo.unary main_call4_v3 main_call4_v7 (Host.absf : (⟨S50000x128, .f32⟩ : BufTy).Contents (Elt F) → (⟨S50000x128, .f32⟩ : BufTy).Contents (Elt F)),
    StableHlo.unary main_call4_v7 main_call4_v8 (Host.negf : (⟨S50000x128, .f32⟩ : BufTy).Contents (Elt F) → (⟨S50000x128, .f32⟩ : BufTy).Contents (Elt F)),
    StableHlo.unary main_call4_v8 main_call4_v9 (Host.exp : (⟨S50000x128, .f32⟩ : BufTy).Contents (Elt F) → (⟨S50000x128, .f32⟩ : BufTy).Contents (Elt F)),
    StableHlo.unary main_call4_v9 main_call4_v10 (Host.log1p : (⟨S50000x128, .f32⟩ : BufTy).Contents (Elt F) → (⟨S50000x128, .f32⟩ : BufTy).Contents (Elt F)),
    StableHlo.binary main_call4_v1 main_call4_v10 main_call4_v11 (addf : (⟨S50000x128, .f32⟩ : BufTy).Contents (Elt F) → (⟨S50000x128, .f32⟩ : BufTy).Contents (Elt F) → (⟨S50000x128, .f32⟩ : BufTy).Contents (Elt F)),
    StableHlo.ternary main_call4_v4 main_call4_v6 main_call4_v11 main_v89 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

/-- The operations of the program's first part. -/
abbrev ops0 : List (HloOp τ sig (Elt F)) := w1 ++ w2 ++ w3 ++ w4 ++ w5 ++ w6
/-- The operations of the program's second part. -/
abbrev ops1 : List (HloOp τ sig (Elt F)) := w7 ++ w8 ++ w9 ++ w10 ++ w11 ++ w12 ++ w13 ++ w14 ++ w15
/-- @main's 171 operations, in order. -/
abbrev ops : List (HloOp τ sig (Elt F)) := ops0 ++ ops1

/-! ## The program is the list run in order

Each part of @main unfolds to its operations one after the other: the called functions' bodies are inlined by
unfolding, and an operation of a called function, stated over typed references, is the same operation over the
buffers the call's record names. -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem w1_sub : (w1 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub ..⟩
theorem w1_fresh : ∀ op ∈ (w1 : List (HloOp τ sig (Elt F))), op.fresh = ∅ := by
  intro _ h; (repeat (cases h with | head => rfl | tail _ h => ?_)); exact nomatch h
theorem w2_sub : (w2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem w2_fresh : ∀ op ∈ (w2 : List (HloOp τ sig (Elt F))), op.fresh = ∅ := by
  intro _ h; (repeat (cases h with | head => rfl | tail _ h => ?_)); exact nomatch h
theorem w3_sub : (w3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem w3_fresh : ∀ op ∈ (w3 : List (HloOp τ sig (Elt F))), op.fresh = ∅ := by
  intro _ h; (repeat (cases h with | head => rfl | tail _ h => ?_)); exact nomatch h
theorem w4_sub : (w4 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩
theorem w4_fresh : ∀ op ∈ (w4 : List (HloOp τ sig (Elt F))), op.fresh = ∅ := by
  intro _ h; (repeat (cases h with | head => rfl | tail _ h => ?_)); exact nomatch h
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w5_fresh : ∀ op ∈ (w5 : List (HloOp τ sig (Elt F))), op.fresh = ∅ := by
  intro _ h; (repeat (cases h with | head => rfl | tail _ h => ?_)); exact nomatch h
theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem w6_fresh : ∀ op ∈ (w6 : List (HloOp τ sig (Elt F))), op.fresh = ∅ := by
  intro _ h; (repeat (cases h with | head => rfl | tail _ h => ?_)); exact nomatch h
theorem w7_sub : (w7 : List (HloOp τ sig (Elt F))).Forall fun op => op.bufs ⊆ tcRefs τ sig :=
  ⟨ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem w7_fresh : ∀ op ∈ (w7 : List (HloOp τ sig (Elt F))), op.fresh = ∅ := by
  intro _ h; (repeat (cases h with | head => rfl | tail _ h => ?_)); exact nomatch h
theorem w8_sub : (w8 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩
theorem w8_fresh : ∀ op ∈ (w8 : List (HloOp τ sig (Elt F))), op.fresh = ∅ := by
  intro _ h; (repeat (cases h with | head => rfl | tail _ h => ?_)); exact nomatch h
theorem w9_sub : (w9 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w9_fresh : ∀ op ∈ (w9 : List (HloOp τ sig (Elt F))), op.fresh = ∅ := by
  intro _ h; (repeat (cases h with | head => rfl | tail _ h => ?_)); exact nomatch h
theorem w10_sub : (w10 : List (HloOp τ sig (Elt F))).Forall fun op => op.bufs ⊆ tcRefs τ sig :=
  ⟨binary_bufs_sub .., unary_bufs_sub .., binary_bufs_sub .., unary_bufs_sub .., unary_bufs_sub .., binary_bufs_sub ..⟩
theorem w10_fresh : ∀ op ∈ (w10 : List (HloOp τ sig (Elt F))), op.fresh = ∅ := by
  intro _ h; (repeat (cases h with | head => rfl | tail _ h => ?_)); exact nomatch h
theorem w11_sub : (w11 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w11_fresh : ∀ op ∈ (w11 : List (HloOp τ sig (Elt F))), op.fresh = ∅ := by
  intro _ h; (repeat (cases h with | head => rfl | tail _ h => ?_)); exact nomatch h
theorem w12_sub : (w12 : List (HloOp τ sig (Elt F))).Forall fun op => op.bufs ⊆ tcRefs τ sig :=
  ⟨unary_bufs_sub .., binary_bufs_sub .., unary_bufs_sub .., unary_bufs_sub .., binary_bufs_sub ..⟩
theorem w12_fresh : ∀ op ∈ (w12 : List (HloOp τ sig (Elt F))), op.fresh = ∅ := by
  intro _ h; (repeat (cases h with | head => rfl | tail _ h => ?_)); exact nomatch h
theorem w13_sub : (w13 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w13_fresh : ∀ op ∈ (w13 : List (HloOp τ sig (Elt F))), op.fresh = ∅ := by
  intro _ h; (repeat (cases h with | head => rfl | tail _ h => ?_)); exact nomatch h
theorem w14_sub : (w14 : List (HloOp τ sig (Elt F))).Forall fun op => op.bufs ⊆ tcRefs τ sig :=
  ⟨binary_bufs_sub .., unary_bufs_sub .., binary_bufs_sub .., unary_bufs_sub .., unary_bufs_sub .., binary_bufs_sub ..⟩
theorem w14_fresh : ∀ op ∈ (w14 : List (HloOp τ sig (Elt F))), op.fresh = ∅ := by
  intro _ h; (repeat (cases h with | head => rfl | tail _ h => ?_)); exact nomatch h
theorem w15_sub : (w15 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem w15_fresh : ∀ op ∈ (w15 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, ops0, ops1, List.mem_append] at h
    rcases h with (((((h | h) | h) | h) | h) | h) | ((((((((h | h) | h) | h) | h) | h) | h) | h) | h)
    all_goals first | exact List.forall_iff_forall_mem.mp w1_sub op h | exact List.forall_iff_forall_mem.mp w2_sub op h | exact List.forall_iff_forall_mem.mp w3_sub op h | exact List.forall_iff_forall_mem.mp w4_sub op h | exact List.forall_iff_forall_mem.mp w5_sub op h | exact List.forall_iff_forall_mem.mp w6_sub op h | exact List.forall_iff_forall_mem.mp w7_sub op h | exact List.forall_iff_forall_mem.mp w8_sub op h | exact List.forall_iff_forall_mem.mp w9_sub op h | exact List.forall_iff_forall_mem.mp w10_sub op h | exact List.forall_iff_forall_mem.mp w11_sub op h | exact List.forall_iff_forall_mem.mp w12_sub op h | exact List.forall_iff_forall_mem.mp w13_sub op h | exact List.forall_iff_forall_mem.mp w14_sub op h | exact List.forall_iff_forall_mem.mp w15_sub op h

theorem ops_fresh : ∀ op ∈ (ops : List (HloOp τ sig (Elt F))), op.fresh = ∅ := by
  intro op h
  simp only [ops, ops0, ops1, List.mem_append] at h
  rcases h with (((((h | h) | h) | h) | h) | h) | ((((((((h | h) | h) | h) | h) | h) | h) | h) | h)
  all_goals first | exact w1_fresh op h | exact w2_fresh op h | exact w3_fresh op h | exact w4_fresh op h | exact w5_fresh op h | exact w6_fresh op h | exact w7_fresh op h | exact w8_fresh op h | exact w9_fresh op h | exact w10_fresh op h | exact w11_fresh op h | exact w12_fresh op h | exact w13_fresh op h | exact w14_fresh op h | exact w15_fresh op h

/-! ## The buffers' contents, window by window

`valK V0` is what the device's buffers hold after the first K windows, from contents `V0`. After each window,
every buffer a later window reads is given as a stage of `RefStages` applied to `V0` at the argument buffers;
a buffer the window does not write is what it was. -/

/-- The buffers' contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl

/-- The buffers' contents after the first 1 window. -/
def val1 (V0 : Valuation τ sig (Elt F)) : Valuation τ sig (Elt F) := after w1 (val0 V0)
/-- The buffers window 1 writes. -/
abbrev w1_W : List (Ref sig .tc) := [main_v0, main_v1, main_v2, main_v3, main_v4, main_v5, main_v6, main_v7, main_v8, main_v9, main_v10, main_v11, main_v12, main_v13]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 1 does not write keeps its contents through it. -/
theorem val1_keep (V0 : Valuation τ sig (Elt F)) (r : Ref sig .tc) (h : r ∉ w1_W) :
    val1 V0 (Proc.devRef .tc r) = val0 V0 (Proc.devRef .tc r) :=
  after_of_writes_sub w1 _ w1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
set_option maxRecDepth 8192 in
set_option maxHeartbeats 2000000 in
theorem val1_main_v1 (V0 : Valuation τ sig (Elt F)) : val1 V0 (no_index (Proc.devRef .tc main_v1)) = srcCol (V0 (Proc.devRef .tc main_arg1)) := by
  unfold val1
  simp only [w1]
  after_results_simp
  simp only [val0_main_arg1] <;> rfl
set_option maxRecDepth 8192 in
set_option maxHeartbeats 2000000 in
theorem val1_main_v3 (V0 : Valuation τ sig (Elt F)) : val1 V0 (no_index (Proc.devRef .tc main_v3)) = dstCol (V0 (Proc.devRef .tc main_arg1)) := by
  unfold val1
  simp only [w1]
  after_results_simp
  simp only [val0_main_arg1] <;> rfl
set_option maxRecDepth 8192 in
set_option maxHeartbeats 2000000 in
theorem val1_main_v8 (V0 : Valuation τ sig (Elt F)) : val1 V0 (no_index (Proc.devRef .tc main_v8)) = res1 (V0 (Proc.devRef .tc main_arg0)) (V0 (Proc.devRef .tc main_arg8)) (V0 (Proc.devRef .tc main_arg9)) := by
  unfold val1
  simp only [w1]
  after_results_simp
  simp only [val0_main_arg9, val0_main_arg8, val0_main_arg0] <;> rfl
set_option maxRecDepth 8192 in
set_option maxHeartbeats 2000000 in
theorem val1_main_v13 (V0 : Valuation τ sig (Elt F)) : val1 V0 (no_index (Proc.devRef .tc main_v13)) = res2 (V0 (Proc.devRef .tc main_arg0)) (V0 (Proc.devRef .tc main_arg10)) (V0 (Proc.devRef .tc main_arg11)) := by
  unfold val1
  simp only [w1]
  after_results_simp
  simp only [val0_main_arg11, val0_main_arg10, val0_main_arg0] <;> rfl

/-- The buffers' contents after the first 2 windows. -/
def val2 (V0 : Valuation τ sig (Elt F)) : Valuation τ sig (Elt F) := after w2 (val1 V0)
/-- The buffers window 2 writes. -/
abbrev w2_W : List (Ref sig .tc) := [main_c, main_v14, main_v15, main_c_0, main_v16, main_v17, main_v18, main_v19, main_v20, main_cst, main_v21, main_v22, main_v23]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_v1 (V0 : Valuation τ sig (Elt F)) : val2 V0 (no_index (Proc.devRef .tc main_v1)) = srcCol (V0 (Proc.devRef .tc main_arg1)) :=
  (val2_keep V0 main_v1 (by decide)).trans (val1_main_v1 V0)
theorem val2_main_v3 (V0 : Valuation τ sig (Elt F)) : val2 V0 (no_index (Proc.devRef .tc main_v3)) = dstCol (V0 (Proc.devRef .tc main_arg1)) :=
  (val2_keep V0 main_v3 (by decide)).trans (val1_main_v3 V0)
theorem val2_main_v8 (V0 : Valuation τ sig (Elt F)) : val2 V0 (no_index (Proc.devRef .tc main_v8)) = res1 (V0 (Proc.devRef .tc main_arg0)) (V0 (Proc.devRef .tc main_arg8)) (V0 (Proc.devRef .tc main_arg9)) :=
  (val2_keep V0 main_v8 (by decide)).trans (val1_main_v8 V0)
theorem val2_main_v13 (V0 : Valuation τ sig (Elt F)) : val2 V0 (no_index (Proc.devRef .tc main_v13)) = res2 (V0 (Proc.devRef .tc main_arg0)) (V0 (Proc.devRef .tc main_arg10)) (V0 (Proc.devRef .tc main_arg11)) :=
  (val2_keep V0 main_v13 (by decide)).trans (val1_main_v13 V0)
set_option maxRecDepth 8192 in
set_option maxHeartbeats 2000000 in
theorem val2_main_v23 (V0 : Valuation τ sig (Elt F)) : val2 V0 (no_index (Proc.devRef .tc main_v23)) = nbrSum128 (V0 (Proc.devRef .tc main_arg0)) (srcCol (V0 (Proc.devRef .tc main_arg1))) (dstCol (V0 (Proc.devRef .tc main_arg1))) := by
  unfold val2
  simp only [w2]
  after_results_simp
  simp only [val1_main_v1, val1_main_arg0, val1_main_v3] <;> rfl

/-- The buffers' contents after the first 3 windows. -/
def val3 (V0 : Valuation τ sig (Elt F)) : Valuation τ sig (Elt F) := after w3 (val2 V0)
/-- The buffers window 3 writes. -/
abbrev w3_W : List (Ref sig .tc) := [main_cst_1, main_v24, main_cst_2, main_v25, main_v26, main_v27, main_cst_3, main_v28, main_v29, main_v30, main_v31, main_v32]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_v1 (V0 : Valuation τ sig (Elt F)) : val3 V0 (no_index (Proc.devRef .tc main_v1)) = srcCol (V0 (Proc.devRef .tc main_arg1)) :=
  (val3_keep V0 main_v1 (by decide)).trans (val2_main_v1 V0)
theorem val3_main_v3 (V0 : Valuation τ sig (Elt F)) : val3 V0 (no_index (Proc.devRef .tc main_v3)) = dstCol (V0 (Proc.devRef .tc main_arg1)) :=
  (val3_keep V0 main_v3 (by decide)).trans (val2_main_v3 V0)
theorem val3_main_v8 (V0 : Valuation τ sig (Elt F)) : val3 V0 (no_index (Proc.devRef .tc main_v8)) = res1 (V0 (Proc.devRef .tc main_arg0)) (V0 (Proc.devRef .tc main_arg8)) (V0 (Proc.devRef .tc main_arg9)) :=
  (val3_keep V0 main_v8 (by decide)).trans (val2_main_v8 V0)
theorem val3_main_v13 (V0 : Valuation τ sig (Elt F)) : val3 V0 (no_index (Proc.devRef .tc main_v13)) = res2 (V0 (Proc.devRef .tc main_arg0)) (V0 (Proc.devRef .tc main_arg10)) (V0 (Proc.devRef .tc main_arg11)) :=
  (val3_keep V0 main_v13 (by decide)).trans (val2_main_v13 V0)
set_option maxRecDepth 8192 in
set_option maxHeartbeats 2000000 in
theorem val3_main_v32 (V0 : Valuation τ sig (Elt F)) : val3 V0 (no_index (Proc.devRef .tc main_v32)) = agg1 (V0 (Proc.devRef .tc main_arg0)) (V0 (Proc.devRef .tc main_arg1)) := by
  unfold val3
  simp only [w3]
  after_results_simp
  simp only [val2_main_v3, val2_main_v23] <;> rfl

/-- The buffers' contents after the first 4 windows. -/
def val4 (V0 : Valuation τ sig (Elt F)) : Valuation τ sig (Elt F) := after w4 (val3 V0)
/-- The buffers window 4 writes. -/
abbrev w4_W : List (Ref sig .tc) := [main_v33, main_v34, main_v35, main_v36, main_v37, main_v38, main_v39, main_v40]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_v1 (V0 : Valuation τ sig (Elt F)) : val4 V0 (no_index (Proc.devRef .tc main_v1)) = srcCol (V0 (Proc.devRef .tc main_arg1)) :=
  (val4_keep V0 main_v1 (by decide)).trans (val3_main_v1 V0)
theorem val4_main_v3 (V0 : Valuation τ sig (Elt F)) : val4 V0 (no_index (Proc.devRef .tc main_v3)) = dstCol (V0 (Proc.devRef .tc main_arg1)) :=
  (val4_keep V0 main_v3 (by decide)).trans (val3_main_v3 V0)
theorem val4_main_v8 (V0 : Valuation τ sig (Elt F)) : val4 V0 (no_index (Proc.devRef .tc main_v8)) = res1 (V0 (Proc.devRef .tc main_arg0)) (V0 (Proc.devRef .tc main_arg8)) (V0 (Proc.devRef .tc main_arg9)) :=
  (val4_keep V0 main_v8 (by decide)).trans (val3_main_v8 V0)
theorem val4_main_v13 (V0 : Valuation τ sig (Elt F)) : val4 V0 (no_index (Proc.devRef .tc main_v13)) = res2 (V0 (Proc.devRef .tc main_arg0)) (V0 (Proc.devRef .tc main_arg10)) (V0 (Proc.devRef .tc main_arg11)) :=
  (val4_keep V0 main_v13 (by decide)).trans (val3_main_v13 V0)
set_option maxRecDepth 8192 in
set_option maxHeartbeats 2000000 in
theorem val4_main_v40 (V0 : Valuation τ sig (Elt F)) : val4 V0 (no_index (Proc.devRef .tc main_v40)) = sage1 (V0 (Proc.devRef .tc main_arg0)) (V0 (Proc.devRef .tc main_arg1)) (V0 (Proc.devRef .tc main_arg2)) (V0 (Proc.devRef .tc main_arg3)) (V0 (Proc.devRef .tc main_arg4)) := by
  unfold val4
  simp only [w4]
  after_results_simp
  simp only [val3_main_arg4, val3_main_arg0, val3_main_arg3, val3_main_arg2, val3_main_v32] <;> rfl

/-- The buffers' contents after the first 5 windows. -/
def val5 (V0 : Valuation τ sig (Elt F)) : Valuation τ sig (Elt F) := after w5 (val4 V0)
/-- The buffers window 5 writes. -/
abbrev w5_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v41]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_v1 (V0 : Valuation τ sig (Elt F)) : val5 V0 (no_index (Proc.devRef .tc main_v1)) = srcCol (V0 (Proc.devRef .tc main_arg1)) :=
  (val5_keep V0 main_v1 (by decide)).trans (val4_main_v1 V0)
theorem val5_main_v3 (V0 : Valuation τ sig (Elt F)) : val5 V0 (no_index (Proc.devRef .tc main_v3)) = dstCol (V0 (Proc.devRef .tc main_arg1)) :=
  (val5_keep V0 main_v3 (by decide)).trans (val4_main_v3 V0)
theorem val5_main_v8 (V0 : Valuation τ sig (Elt F)) : val5 V0 (no_index (Proc.devRef .tc main_v8)) = res1 (V0 (Proc.devRef .tc main_arg0)) (V0 (Proc.devRef .tc main_arg8)) (V0 (Proc.devRef .tc main_arg9)) :=
  (val5_keep V0 main_v8 (by decide)).trans (val4_main_v8 V0)
theorem val5_main_v13 (V0 : Valuation τ sig (Elt F)) : val5 V0 (no_index (Proc.devRef .tc main_v13)) = res2 (V0 (Proc.devRef .tc main_arg0)) (V0 (Proc.devRef .tc main_arg10)) (V0 (Proc.devRef .tc main_arg11)) :=
  (val5_keep V0 main_v13 (by decide)).trans (val4_main_v13 V0)
set_option maxRecDepth 8192 in
set_option maxHeartbeats 2000000 in
theorem val5_main_v41 (V0 : Valuation τ sig (Elt F)) : val5 V0 (no_index (Proc.devRef .tc main_v41)) = h1 (V0 (Proc.devRef .tc main_arg0)) (V0 (Proc.devRef .tc main_arg1)) (V0 (Proc.devRef .tc main_arg2)) (V0 (Proc.devRef .tc main_arg3)) (V0 (Proc.devRef .tc main_arg4)) := by
  unfold val5
  simp only [w5]
  after_results_simp
  simp only [val4_main_v40] <;> rfl

/-- The buffers' contents after the first 6 windows. -/
def val6 (V0 : Valuation τ sig (Elt F)) : Valuation τ sig (Elt F) := after w6 (val5 V0)
/-- The buffers window 6 writes. -/
abbrev w6_W : List (Ref sig .tc) := [main_c_4, main_v42, main_v43, main_c_5, main_v44, main_v45, main_v46, main_v47, main_v48, main_cst_6, main_v49, main_v50]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_v3 (V0 : Valuation τ sig (Elt F)) : val6 V0 (no_index (Proc.devRef .tc main_v3)) = dstCol (V0 (Proc.devRef .tc main_arg1)) :=
  (val6_keep V0 main_v3 (by decide)).trans (val5_main_v3 V0)
theorem val6_main_v8 (V0 : Valuation τ sig (Elt F)) : val6 V0 (no_index (Proc.devRef .tc main_v8)) = res1 (V0 (Proc.devRef .tc main_arg0)) (V0 (Proc.devRef .tc main_arg8)) (V0 (Proc.devRef .tc main_arg9)) :=
  (val6_keep V0 main_v8 (by decide)).trans (val5_main_v8 V0)
theorem val6_main_v13 (V0 : Valuation τ sig (Elt F)) : val6 V0 (no_index (Proc.devRef .tc main_v13)) = res2 (V0 (Proc.devRef .tc main_arg0)) (V0 (Proc.devRef .tc main_arg10)) (V0 (Proc.devRef .tc main_arg11)) :=
  (val6_keep V0 main_v13 (by decide)).trans (val5_main_v13 V0)
theorem val6_main_v41 (V0 : Valuation τ sig (Elt F)) : val6 V0 (no_index (Proc.devRef .tc main_v41)) = h1 (V0 (Proc.devRef .tc main_arg0)) (V0 (Proc.devRef .tc main_arg1)) (V0 (Proc.devRef .tc main_arg2)) (V0 (Proc.devRef .tc main_arg3)) (V0 (Proc.devRef .tc main_arg4)) :=
  (val6_keep V0 main_v41 (by decide)).trans (val5_main_v41 V0)
set_option maxRecDepth 8192 in
set_option maxHeartbeats 2000000 in
theorem val6_main_v48 (V0 : Valuation τ sig (Elt F)) : val6 V0 (no_index (Proc.devRef .tc main_v48)) = Host.gather gather_S50000x256_S600000x1_S600000x256_1_0_n_n_0_1_1256 (h1 (V0 (Proc.devRef .tc main_arg0)) (V0 (Proc.devRef .tc main_arg1)) (V0 (Proc.devRef .tc main_arg2)) (V0 (Proc.devRef .tc main_arg3)) (V0 (Proc.devRef .tc main_arg4))) (gatherIdx (srcCol (V0 (Proc.devRef .tc main_arg1)))) := by
  unfold val6
  simp only [w6]
  after_results_simp
  simp only [val5_main_v1, val5_main_v41] <;> rfl
set_option maxRecDepth 8192 in
set_option maxHeartbeats 2000000 in
theorem val6_main_v49 (V0 : Valuation τ sig (Elt F)) : val6 V0 (no_index (Proc.devRef .tc main_v49)) = zeros256 (F := F) := by
  unfold val6
  simp only [w6]
  after_results_simp
  all_goals rfl
set_option maxRecDepth 8192 in
set_option maxHeartbeats 2000000 in
theorem val6_main_v50 (V0 : Valuation τ sig (Elt F)) : val6 V0 (no_index (Proc.devRef .tc main_v50)) = scatterIdx (dstCol (V0 (Proc.devRef .tc main_arg1))) := by
  unfold val6
  simp only [w6]
  after_results_simp
  simp only [val5_main_v3] <;> rfl

/-- The buffers' contents after the first 7 windows. -/
def val7 (V0 : Valuation τ sig (Elt F)) : Valuation τ sig (Elt F) := after w7 (val6 V0)
/-- The buffers window 7 writes. -/
abbrev w7_W : List (Ref sig .tc) := [main_v51, main_cst_7, main_v52, main_cst_8, main_v53, main_v54, main_v55, main_cst_9, main_v56, main_v57, main_v58, main_v59, main_v60]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_v8 (V0 : Valuation τ sig (Elt F)) : val7 V0 (no_index (Proc.devRef .tc main_v8)) = res1 (V0 (Proc.devRef .tc main_arg0)) (V0 (Proc.devRef .tc main_arg8)) (V0 (Proc.devRef .tc main_arg9)) :=
  (val7_keep V0 main_v8 (by decide)).trans (val6_main_v8 V0)
theorem val7_main_v13 (V0 : Valuation τ sig (Elt F)) : val7 V0 (no_index (Proc.devRef .tc main_v13)) = res2 (V0 (Proc.devRef .tc main_arg0)) (V0 (Proc.devRef .tc main_arg10)) (V0 (Proc.devRef .tc main_arg11)) :=
  (val7_keep V0 main_v13 (by decide)).trans (val6_main_v13 V0)
theorem val7_main_v41 (V0 : Valuation τ sig (Elt F)) : val7 V0 (no_index (Proc.devRef .tc main_v41)) = h1 (V0 (Proc.devRef .tc main_arg0)) (V0 (Proc.devRef .tc main_arg1)) (V0 (Proc.devRef .tc main_arg2)) (V0 (Proc.devRef .tc main_arg3)) (V0 (Proc.devRef .tc main_arg4)) :=
  (val7_keep V0 main_v41 (by decide)).trans (val6_main_v41 V0)
set_option maxRecDepth 8192 in
set_option maxHeartbeats 2000000 in
theorem val7_main_v60 (V0 : Valuation τ sig (Elt F)) : val7 V0 (no_index (Proc.devRef .tc main_v60)) = agg2 (V0 (Proc.devRef .tc main_arg0)) (V0 (Proc.devRef .tc main_arg1)) (V0 (Proc.devRef .tc main_arg2)) (V0 (Proc.devRef .tc main_arg3)) (V0 (Proc.devRef .tc main_arg4)) := by
  unfold val7
  simp only [w7]
  after_results_simp
  simp only [val6_main_v3, val6_main_v48, val6_main_v50, val6_main_v49] <;> rfl

/-- The buffers' contents after the first 8 windows. -/
def val8 (V0 : Valuation τ sig (Elt F)) : Valuation τ sig (Elt F) := after w8 (val7 V0)
/-- The buffers window 8 writes. -/
abbrev w8_W : List (Ref sig .tc) := [main_v61, main_v62, main_v63, main_v64, main_v65, main_v66, main_v67, main_v68]
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 8 does not write keeps its contents through it. -/
theorem val8_keep (V0 : Valuation τ sig (Elt F)) (r : Ref sig .tc) (h : r ∉ w8_W) :
    val8 V0 (Proc.devRef .tc r) = val7 V0 (Proc.devRef .tc r) :=
  after_of_writes_sub w8 _ w8_writes h
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_v8 (V0 : Valuation τ sig (Elt F)) : val8 V0 (no_index (Proc.devRef .tc main_v8)) = res1 (V0 (Proc.devRef .tc main_arg0)) (V0 (Proc.devRef .tc main_arg8)) (V0 (Proc.devRef .tc main_arg9)) :=
  (val8_keep V0 main_v8 (by decide)).trans (val7_main_v8 V0)
theorem val8_main_v13 (V0 : Valuation τ sig (Elt F)) : val8 V0 (no_index (Proc.devRef .tc main_v13)) = res2 (V0 (Proc.devRef .tc main_arg0)) (V0 (Proc.devRef .tc main_arg10)) (V0 (Proc.devRef .tc main_arg11)) :=
  (val8_keep V0 main_v13 (by decide)).trans (val7_main_v13 V0)
set_option maxRecDepth 8192 in
set_option maxHeartbeats 2000000 in
theorem val8_main_v68 (V0 : Valuation τ sig (Elt F)) : val8 V0 (no_index (Proc.devRef .tc main_v68)) = sage2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [w8]
  after_results_simp
  simp only [val7_main_arg7, val7_main_v41, val7_main_arg6, val7_main_arg5, val7_main_v60] <;> rfl

/-- The buffers' contents after the first 9 windows. -/
def val9 (V0 : Valuation τ sig (Elt F)) : Valuation τ sig (Elt F) := after w9 (val8 V0)
/-- The buffers window 9 writes. -/
abbrev w9_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v69]
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 9 does not write keeps its contents through it. -/
theorem val9_keep (V0 : Valuation τ sig (Elt F)) (r : Ref sig .tc) (h : r ∉ w9_W) :
    val9 V0 (Proc.devRef .tc r) = val8 V0 (Proc.devRef .tc r) :=
  after_of_writes_sub w9 _ w9_writes h
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_v8 (V0 : Valuation τ sig (Elt F)) : val9 V0 (no_index (Proc.devRef .tc main_v8)) = res1 (V0 (Proc.devRef .tc main_arg0)) (V0 (Proc.devRef .tc main_arg8)) (V0 (Proc.devRef .tc main_arg9)) :=
  (val9_keep V0 main_v8 (by decide)).trans (val8_main_v8 V0)
theorem val9_main_v13 (V0 : Valuation τ sig (Elt F)) : val9 V0 (no_index (Proc.devRef .tc main_v13)) = res2 (V0 (Proc.devRef .tc main_arg0)) (V0 (Proc.devRef .tc main_arg10)) (V0 (Proc.devRef .tc main_arg11)) :=
  (val9_keep V0 main_v13 (by decide)).trans (val8_main_v13 V0)
set_option maxRecDepth 8192 in
set_option maxHeartbeats 2000000 in
theorem val9_main_v69 (V0 : Valuation τ sig (Elt F)) : val9 V0 (no_index (Proc.devRef .tc main_v69)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val9
  simp only [w9]
  after_results_simp
  simp only [val8_main_v68] <;> rfl

/-- The buffers' contents after the first 10 windows. -/
def val10 (V0 : Valuation τ sig (Elt F)) : Valuation τ sig (Elt F) := after w10 (val9 V0)
/-- The buffers window 10 writes. -/
abbrev w10_W : List (Ref sig .tc) := [main_v70, main_v71, main_v72, main_v73, main_v74, main_v75]
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 10 does not write keeps its contents through it. -/
theorem val10_keep (V0 : Valuation τ sig (Elt F)) (r : Ref sig .tc) (h : r ∉ w10_W) :
    val10 V0 (Proc.devRef .tc r) = val9 V0 (Proc.devRef .tc r) :=
  after_of_writes_sub w10 _ w10_writes h
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_v13 (V0 : Valuation τ sig (Elt F)) : val10 V0 (no_index (Proc.devRef .tc main_v13)) = res2 (V0 (Proc.devRef .tc main_arg0)) (V0 (Proc.devRef .tc main_arg10)) (V0 (Proc.devRef .tc main_arg11)) :=
  (val10_keep V0 main_v13 (by decide)).trans (val9_main_v13 V0)
set_option maxRecDepth 8192 in
set_option maxHeartbeats 2000000 in
theorem val10_main_v75 (V0 : Valuation τ sig (Elt F)) : val10 V0 (no_index (Proc.devRef .tc main_v75)) = lin256 (t1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg12)) (V0 (Proc.devRef .tc main_arg13)) := by
  unfold val10
  simp only [w10]
  after_results_simp
  simp only [val9_main_arg13, val9_main_arg12, val9_main_v8, val9_main_v69] <;> rfl

/-- The buffers' contents after the first 11 windows. -/
def val11 (V0 : Valuation τ sig (Elt F)) : Valuation τ sig (Elt F) := after w11 (val10 V0)
/-- The buffers window 11 writes. -/
abbrev w11_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v76]
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 11 does not write keeps its contents through it. -/
theorem val11_keep (V0 : Valuation τ sig (Elt F)) (r : Ref sig .tc) (h : r ∉ w11_W) :
    val11 V0 (Proc.devRef .tc r) = val10 V0 (Proc.devRef .tc r) :=
  after_of_writes_sub w11 _ w11_writes h
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_v13 (V0 : Valuation τ sig (Elt F)) : val11 V0 (no_index (Proc.devRef .tc main_v13)) = res2 (V0 (Proc.devRef .tc main_arg0)) (V0 (Proc.devRef .tc main_arg10)) (V0 (Proc.devRef .tc main_arg11)) :=
  (val11_keep V0 main_v13 (by decide)).trans (val10_main_v13 V0)
set_option maxRecDepth 8192 in
set_option maxHeartbeats 2000000 in
theorem val11_main_v76 (V0 : Valuation τ sig (Elt F)) : val11 V0 (no_index (Proc.devRef .tc main_v76)) = m1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) := by
  unfold val11
  simp only [w11]
  after_results_simp
  simp only [val10_main_v75] <;> rfl

/-- The buffers' contents after the first 12 windows. -/
def val12 (V0 : Valuation τ sig (Elt F)) : Valuation τ sig (Elt F) := after w12 (val11 V0)
/-- The buffers window 12 writes. -/
abbrev w12_W : List (Ref sig .tc) := [main_v77, main_v78, main_v79, main_v80, main_v81]
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 12 does not write keeps its contents through it. -/
theorem val12_keep (V0 : Valuation τ sig (Elt F)) (r : Ref sig .tc) (h : r ∉ w12_W) :
    val12 V0 (Proc.devRef .tc r) = val11 V0 (Proc.devRef .tc r) :=
  after_of_writes_sub w12 _ w12_writes h
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_v13 (V0 : Valuation τ sig (Elt F)) : val12 V0 (no_index (Proc.devRef .tc main_v13)) = res2 (V0 (Proc.devRef .tc main_arg0)) (V0 (Proc.devRef .tc main_arg10)) (V0 (Proc.devRef .tc main_arg11)) :=
  (val12_keep V0 main_v13 (by decide)).trans (val11_main_v13 V0)
set_option maxRecDepth 8192 in
set_option maxHeartbeats 2000000 in
theorem val12_main_v81 (V0 : Valuation τ sig (Elt F)) : val12 V0 (no_index (Proc.devRef .tc main_v81)) = lin256 (m1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13))) (V0 (Proc.devRef .tc main_arg14)) (V0 (Proc.devRef .tc main_arg15)) := by
  unfold val12
  simp only [w12]
  after_results_simp
  simp only [val11_main_arg15, val11_main_arg14, val11_main_v76] <;> rfl

/-- The buffers' contents after the first 13 windows. -/
def val13 (V0 : Valuation τ sig (Elt F)) : Valuation τ sig (Elt F) := after w13 (val12 V0)
/-- The buffers window 13 writes. -/
abbrev w13_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v82]
theorem w13_writes : (w13 : List (HloOp τ sig (Elt F))).Forall fun op => op.writes ⊆ (w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 13 does not write keeps its contents through it. -/
theorem val13_keep (V0 : Valuation τ sig (Elt F)) (r : Ref sig .tc) (h : r ∉ w13_W) :
    val13 V0 (Proc.devRef .tc r) = val12 V0 (Proc.devRef .tc r) :=
  after_of_writes_sub w13 _ w13_writes h
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_v13 (V0 : Valuation τ sig (Elt F)) : val13 V0 (no_index (Proc.devRef .tc main_v13)) = res2 (V0 (Proc.devRef .tc main_arg0)) (V0 (Proc.devRef .tc main_arg10)) (V0 (Proc.devRef .tc main_arg11)) :=
  (val13_keep V0 main_v13 (by decide)).trans (val12_main_v13 V0)
set_option maxRecDepth 8192 in
set_option maxHeartbeats 2000000 in
theorem val13_main_v82 (V0 : Valuation τ sig (Elt F)) : val13 V0 (no_index (Proc.devRef .tc main_v82)) = m2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) (V0 (Proc.devRef .tc main_arg14)) (V0 (Proc.devRef .tc main_arg15)) := by
  unfold val13
  simp only [w13]
  after_results_simp
  simp only [val12_main_v81] <;> rfl

/-- The buffers' contents after the first 14 windows. -/
def val14 (V0 : Valuation τ sig (Elt F)) : Valuation τ sig (Elt F) := after w14 (val13 V0)
/-- The buffers window 14 writes. -/
abbrev w14_W : List (Ref sig .tc) := [main_v83, main_v84, main_v85, main_v86, main_v87, main_v88]
theorem w14_writes : (w14 : List (HloOp τ sig (Elt F))).Forall fun op => op.writes ⊆ (w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 14 does not write keeps its contents through it. -/
theorem val14_keep (V0 : Valuation τ sig (Elt F)) (r : Ref sig .tc) (h : r ∉ w14_W) :
    val14 V0 (Proc.devRef .tc r) = val13 V0 (Proc.devRef .tc r) :=
  after_of_writes_sub w14 _ w14_writes h
set_option maxRecDepth 8192 in
set_option maxHeartbeats 2000000 in
theorem val14_main_v88 (V0 : Valuation τ sig (Elt F)) : val14 V0 (no_index (Proc.devRef .tc main_v88)) = pre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val14
  simp only [w14]
  after_results_simp
  simp only [val13_main_arg17, val13_main_arg16, val13_main_v13, val13_main_v82] <;> rfl

/-- The buffers' contents after the first 15 windows. -/
def val15 (V0 : Valuation τ sig (Elt F)) : Valuation τ sig (Elt F) := after w15 (val14 V0)
/-- The buffers window 15 writes. -/
abbrev w15_W : List (Ref sig .tc) := [main_call4_cst, main_call4_v0, main_call4_v1, main_call4_v2, main_call4_v3, main_call4_v4, main_call4_v5, main_call4_v6, main_call4_v7, main_call4_v8, main_call4_v9, main_call4_v10, main_call4_v11, main_v89]
theorem w15_writes : (w15 : List (HloOp τ sig (Elt F))).Forall fun op => op.writes ⊆ (w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 15 does not write keeps its contents through it. -/
theorem val15_keep (V0 : Valuation τ sig (Elt F)) (r : Ref sig .tc) (h : r ∉ w15_W) :
    val15 V0 (Proc.devRef .tc r) = val14 V0 (Proc.devRef .tc r) :=
  after_of_writes_sub w15 _ w15_writes h
set_option maxRecDepth 8192 in
set_option maxHeartbeats 2000000 in
theorem val15_main_v89 (V0 : Valuation τ sig (Elt F)) : val15 V0 (no_index (Proc.devRef .tc main_v89)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val15
  simp only [w15]
  after_results_simp
  simp only [val14_main_v88] <;> rfl

/-- A buffer no window writes ends as it began. -/
theorem keep_all (V0 : Valuation τ sig (Elt F)) (r : Ref sig .tc) (h1 : r ∉ w1_W) (h2 : r ∉ w2_W) (h3 : r ∉ w3_W) (h4 : r ∉ w4_W) (h5 : r ∉ w5_W) (h6 : r ∉ w6_W) (h7 : r ∉ w7_W) (h8 : r ∉ w8_W) (h9 : r ∉ w9_W) (h10 : r ∉ w10_W) (h11 : r ∉ w11_W) (h12 : r ∉ w12_W) (h13 : r ∉ w13_W) (h14 : r ∉ w14_W) (h15 : r ∉ w15_W) :
    val15 V0 (Proc.devRef .tc r) = V0 (Proc.devRef .tc r) :=
  (val15_keep V0 r h15).trans ((val14_keep V0 r h14).trans ((val13_keep V0 r h13).trans ((val12_keep V0 r h12).trans ((val11_keep V0 r h11).trans ((val10_keep V0 r h10).trans ((val9_keep V0 r h9).trans ((val8_keep V0 r h8).trans ((val7_keep V0 r h7).trans ((val6_keep V0 r h6).trans ((val5_keep V0 r h5).trans ((val4_keep V0 r h4).trans ((val3_keep V0 r h3).trans ((val2_keep V0 r h2).trans ((val1_keep V0 r h1).trans rfl))))))))))))))

/-- The whole list run from `V0` leaves the contents after the fifteenth window. -/
theorem after_ops (V0 : Valuation τ sig (Elt F)) : after ops V0 = val15 V0 := by
  simp only [ops, ops0, ops1, after_append]
  rfl

/-! ## The run -/

/-- On every device, for any float values, from any memory with zero counters: every weakly fair execution of
    @main terminates with the result buffer at `out` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v89).trans (by simp only [after_ops]; exact val15_main_v89 (launchContents m c)),
      (h c main_arg0).trans (by simp only [after_ops]; exact keep_all (launchContents m c) main_arg0 (by decide) (by decide) (by decide) (by decide) (by decide) (by decide) (by decide) (by decide) (by decide) (by decide) (by decide) (by decide) (by decide) (by decide) (by decide)),
      (h c main_arg1).trans (by simp only [after_ops]; exact keep_all (launchContents m c) main_arg1 (by decide) (by decide) (by decide) (by decide) (by decide) (by decide) (by decide) (by decide) (by decide) (by decide) (by decide) (by decide) (by decide) (by decide) (by decide)),
      (h c main_arg2).trans (by simp only [after_ops]; exact keep_all (launchContents m c) main_arg2 (by decide) (by decide) (by decide) (by decide) (by decide) (by decide) (by decide) (by decide) (by decide) (by decide) (by decide) (by decide) (by decide) (by decide) (by decide)),
      (h c main_arg3).trans (by simp only [after_ops]; exact keep_all (launchContents m c) main_arg3 (by decide) (by decide) (by decide) (by decide) (by decide) (by decide) (by decide) (by decide) (by decide) (by decide) (by decide) (by decide) (by decide) (by decide) (by decide)),
      (h c main_arg4).trans (by simp only [after_ops]; exact keep_all (launchContents m c) main_arg4 (by decide) (by decide) (by decide) (by decide) (by decide) (by decide) (by decide) (by decide) (by decide) (by decide) (by decide) (by decide) (by decide) (by decide) (by decide)),
      (h c main_arg5).trans (by simp only [after_ops]; exact keep_all (launchContents m c) main_arg5 (by decide) (by decide) (by decide) (by decide) (by decide) (by decide) (by decide) (by decide) (by decide) (by decide) (by decide) (by decide) (by decide) (by decide) (by decide)),
      (h c main_arg6).trans (by simp only [after_ops]; exact keep_all (launchContents m c) main_arg6 (by decide) (by decide) (by decide) (by decide) (by decide) (by decide) (by decide) (by decide) (by decide) (by decide) (by decide) (by decide) (by decide) (by decide) (by decide)),
      (h c main_arg7).trans (by simp only [after_ops]; exact keep_all (launchContents m c) main_arg7 (by decide) (by decide) (by decide) (by decide) (by decide) (by decide) (by decide) (by decide) (by decide) (by decide) (by decide) (by decide) (by decide) (by decide) (by decide)),
      (h c main_arg8).trans (by simp only [after_ops]; exact keep_all (launchContents m c) main_arg8 (by decide) (by decide) (by decide) (by decide) (by decide) (by decide) (by decide) (by decide) (by decide) (by decide) (by decide) (by decide) (by decide) (by decide) (by decide)),
      (h c main_arg9).trans (by simp only [after_ops]; exact keep_all (launchContents m c) main_arg9 (by decide) (by decide) (by decide) (by decide) (by decide) (by decide) (by decide) (by decide) (by decide) (by decide) (by decide) (by decide) (by decide) (by decide) (by decide)),
      (h c main_arg10).trans (by simp only [after_ops]; exact keep_all (launchContents m c) main_arg10 (by decide) (by decide) (by decide) (by decide) (by decide) (by decide) (by decide) (by decide) (by decide) (by decide) (by decide) (by decide) (by decide) (by decide) (by decide)),
      (h c main_arg11).trans (by simp only [after_ops]; exact keep_all (launchContents m c) main_arg11 (by decide) (by decide) (by decide) (by decide) (by decide) (by decide) (by decide) (by decide) (by decide) (by decide) (by decide) (by decide) (by decide) (by decide) (by decide)),
      (h c main_arg12).trans (by simp only [after_ops]; exact keep_all (launchContents m c) main_arg12 (by decide) (by decide) (by decide) (by decide) (by decide) (by decide) (by decide) (by decide) (by decide) (by decide) (by decide) (by decide) (by decide) (by decide) (by decide)),
      (h c main_arg13).trans (by simp only [after_ops]; exact keep_all (launchContents m c) main_arg13 (by decide) (by decide) (by decide) (by decide) (by decide) (by decide) (by decide) (by decide) (by decide) (by decide) (by decide) (by decide) (by decide) (by decide) (by decide)),
      (h c main_arg14).trans (by simp only [after_ops]; exact keep_all (launchContents m c) main_arg14 (by decide) (by decide) (by decide) (by decide) (by decide) (by decide) (by decide) (by decide) (by decide) (by decide) (by decide) (by decide) (by decide) (by decide) (by decide)),
      (h c main_arg15).trans (by simp only [after_ops]; exact keep_all (launchContents m c) main_arg15 (by decide) (by decide) (by decide) (by decide) (by decide) (by decide) (by decide) (by decide) (by decide) (by decide) (by decide) (by decide) (by decide) (by decide) (by decide)),
      (h c main_arg16).trans (by simp only [after_ops]; exact keep_all (launchContents m c) main_arg16 (by decide) (by decide) (by decide) (by decide) (by decide) (by decide) (by decide) (by decide) (by decide) (by decide) (by decide) (by decide) (by decide) (by decide) (by decide)),
      (h c main_arg17).trans (by simp only [after_ops]; exact keep_all (launchContents m c) main_arg17 (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefFrame.lean ====
import proofs.«160599_j22651657519232_1_alg».proof.Defs
import proofs.«160599_j22651657519232_1_alg».proof.Proof.Gen.ReferenceIdeal
import proofs.«160599_j22651657519232_1_alg».proof.Proof.Gen.Pre_finite_inputs
import proofs.«160599_j22651657519232_1_alg».proof.Proof.RefRun

/-! # The reference's frame

The reference terminates without fault and leaves its argument arrays as they were: this is its run read at
the extended reals, with the equation for the result buffer dropped. -/

noncomputable section

namespace Cert.ReferenceIdeal.RefRun

open Idealize.ShloMosaic Idealize.SL.Sem

theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.SageHost.lean ====
/-
  The host's spellings of the layers of SageSpec, each read at an index over the extended reals: a dense layer as a
  contraction with the transposed weight plus a bias row broadcast over the rows; the exponential linear unit as
  `select (x > 0) x (1 · expm1 (select (x > 0) 0 x))`; the output unit with a negation where the kernel body subtracts
  from zero. A scalar broadcast to a shape reads the scalar, so the comparisons are with the words for zero and one.
-/
import proofs.«160599_j22651657519232_1_alg».proof.Proof.SageBody

noncomputable section

open Idealize.ShloMosaic Idealize.ShloMosaic.ValueIdx

namespace Sage

variable {M K N : Nat}

/-- A dense layer on the host. -/
theorem host_linT (A : FVec Ideal ⟨2, ![M, K]⟩ .f32) (W : FVec Ideal ⟨2, ![N, K]⟩ .f32) (B : FVec Ideal ⟨2, ![1, N]⟩ .f32)
    (ht : (⟨2, ![N, K]⟩ : Shape).Transposes [1, 0] ⟨2, ![K, N]⟩)
    (hb : (⟨2, ![1, N]⟩ : Shape).BroadcastsInDim ⟨2, ![M, N]⟩ ![0, 1]) :
    addf (Host.dotGeneral (DotDims.plain M K N) none A (transpose ⟨2, ![K, N]⟩ [1, 0] W ht))
        (broadcastInDim ⟨2, ![M, N]⟩ ![0, 1] hb B)
      = linT A W B := by
  funext j
  rw [addf_apply, dotGeneralT_apply, PlainDot.broadcastInDim_row]
  rfl

/-- The neighbourhood-mean map on the host. -/
theorem host_sageT (A X : FVec Ideal ⟨2, ![M, K]⟩ .f32) (Wl Wr : FVec Ideal ⟨2, ![N, K]⟩ .f32)
    (B : FVec Ideal ⟨2, ![1, N]⟩ .f32) (ht : (⟨2, ![N, K]⟩ : Shape).Transposes [1, 0] ⟨2, ![K, N]⟩)
    (hb : (⟨2, ![1, N]⟩ : Shape).BroadcastsInDim ⟨2, ![M, N]⟩ ![0, 1]) :
    addf (addf (Host.dotGeneral (DotDims.plain M K N) none A (transpose ⟨2, ![K, N]⟩ [1, 0] Wl ht))
          (broadcastInDim ⟨2, ![M, N]⟩ ![0, 1] hb B))
        (Host.dotGeneral (DotDims.plain M K N) none X (transpose ⟨2, ![K, N]⟩ [1, 0] Wr ht))
      = sageT A X Wl Wr B := by
  funext j
  rw [addf_apply, addf_apply, dotGeneralT_apply, dotGeneralT_apply, PlainDot.broadcastInDim_row]
  rfl

/-- The exponential linear unit on the host. -/
theorem host_elu {s : Shape} (v : FVec Ideal s .f32) (h : (⟨0, ![]⟩ : Shape).BroadcastsInDim s ![]) :
    select (cmpf .ogt v (broadcastInDim s ![] h (constant (F := Ideal) ⟨0, ![]⟩ .f32 0x00000000#32))) v
        (mulf (broadcastInDim s ![] h (constant (F := Ideal) ⟨0, ![]⟩ .f32 0x3F800000#32))
          (Host.expm1 (select (cmpf .ogt v (broadcastInDim s ![] h (constant (F := Ideal) ⟨0, ![]⟩ .f32 0x00000000#32)))
            (broadcastInDim s ![] h (id (constant (F := Ideal) ⟨0, ![]⟩ .f32 0x00000000#32))) v)))
      = fun i => elu z32 o32 (v i) := by
  funext i
  simp only [Host.expm1, select_apply, cmpf_apply, mulf_apply, PlainDot.broadcastInDim_scalar, constant_apply, id]
  exact elu_scaled (v i)

/-- The output unit on the host. -/
theorem host_softplus {s : Shape} (v : FVec Ideal s .f32) (h : (⟨0, ![]⟩ : Shape).BroadcastsInDim s ![]) :
    select (cmpf .une (subf v (broadcastInDim s ![] h (constant (F := Ideal) ⟨0, ![]⟩ .f32 0x00000000#32)))
          (subf v (broadcastInDim s ![] h (constant (F := Ideal) ⟨0, ![]⟩ .f32 0x00000000#32))))
        (addf v (broadcastInDim s ![] h (constant (F := Ideal) ⟨0, ![]⟩ .f32 0x00000000#32)))
        (addf (maximumf v (broadcastInDim s ![] h (constant (F := Ideal) ⟨0, ![]⟩ .f32 0x00000000#32)))
          (Host.log1p (Host.exp (Host.negf (Host.absf
            (subf v (broadcastInDim s ![] h (constant (F := Ideal) ⟨0, ![]⟩ .f32 0x00000000#32))))))))
      = fun i => softplus z32 (v i) := by
  funext i
  simp only [Host.log1p, Host.exp, Host.negf, Host.absf, select_apply, cmpf_apply, addf_apply, subf_apply, maximumf_apply,
    PlainDot.broadcastInDim_scalar, constant_apply]
  exact softplus_neg (v i)

end Sage

end
-- ==== Proof.RefValue.lean ====
/-
  The reference's stages, read as the layer functions of SageSpec on whole arrays (50000 node rows).

  A dense stage `x · Wᵀ + b` is `linT` with the bias laid out as one row; the first layer is `hidden1` of the features
  and their neighbourhood mean; everything after the second neighbourhood mean is `stage2`. The neighbourhood means
  themselves (a gather at the edge sources, a sum at the edge destinations, a division by the clamped in-degree) are
  kept as they are: the kernel's host side performs the very same operations.
-/
import proofs.«160599_j22651657519232_1_alg».proof.Proof.RefStages
import proofs.«160599_j22651657519232_1_alg».proof.Proof.SageHost

noncomputable section

open Idealize.ShloMosaic Idealize.ShloMosaic.ValueIdx

namespace Cert.ReferenceIdeal.RefVal

open Cert.ReferenceIdeal Cert.ReferenceIdeal.RefRun
open Facts₀ Facts

variable [Facts]

/-- A bias of 256 entries as one row. -/
abbrev row256 (b : CF Ideal S256) : CF Ideal S1x256 := broadcastInDim S1x256 ![1] bcast_S256_S1x256_1 b
/-- A bias of 128 entries as one row. -/
abbrev row128 (b : CF Ideal S128) : CF Ideal S1x128 := broadcastInDim S1x128 ![1] bcast_S128_S1x128_1 b

theorem lin128_eq (x : CF Ideal S50000x128) (W : CF Ideal S256x128) (b : CF Ideal S256) :
    (lin128 (F := Ideal) x W b : S50000x256.Idx → EReal) = Sage.linT (M := 50000) (K := 128) (N := 256) x W (row256 b) :=
  Sage.host_linT (M := 50000) (K := 128) (N := 256) x W (row256 b) transposes_S256x128_S128x256_1_0 bcast_S1x256_S50000x256_0_1

theorem lin256_eq (x : CF Ideal S50000x256) (W : CF Ideal S256x256) (b : CF Ideal S256) :
    (lin256 (F := Ideal) x W b : S50000x256.Idx → EReal) = Sage.linT (M := 50000) (K := 256) (N := 256) x W (row256 b) :=
  Sage.host_linT (M := 50000) (K := 256) (N := 256) x W (row256 b) transposes_S256x256_S256x256_1_0 bcast_S1x256_S50000x256_0_1

theorem linOut_eq (x : CF Ideal S50000x256) (W : CF Ideal S128x256) (b : CF Ideal S128) :
    (linOut (F := Ideal) x W b : S50000x128.Idx → EReal) = Sage.linT (M := 50000) (K := 256) (N := 128) x W (row128 b) :=
  Sage.host_linT (M := 50000) (K := 256) (N := 128) x W (row128 b) transposes_S128x256_S256x128_1_0 bcast_S1x128_S50000x128_0_1

theorem sageLayer1_eq (agg x : CF Ideal S50000x128) (Wl : CF Ideal S256x128) (bl : CF Ideal S256) (Wr : CF Ideal S256x128) :
    (sageLayer1 (F := Ideal) agg x Wl bl Wr : S50000x256.Idx → EReal)
      = Sage.sageT (M := 50000) (K := 128) (N := 256) agg x Wl Wr (row256 bl) :=
  Sage.host_sageT (M := 50000) (K := 128) (N := 256) agg x Wl Wr (row256 bl) transposes_S256x128_S128x256_1_0
    bcast_S1x256_S50000x256_0_1

theorem sageLayer2_eq (agg h : CF Ideal S50000x256) (Wl : CF Ideal S256x256) (bl : CF Ideal S256) (Wr : CF Ideal S256x256) :
    (sageLayer2 (F := Ideal) agg h Wl bl Wr : S50000x256.Idx → EReal)
      = Sage.sageT (M := 50000) (K := 256) (N := 256) agg h Wl Wr (row256 bl) :=
  Sage.host_sageT (M := 50000) (K := 256) (N := 256) agg h Wl Wr (row256 bl) transposes_S256x256_S256x256_1_0
    bcast_S1x256_S50000x256_0_1

theorem eluRef_eq (x : CF Ideal S50000x256) :
    (eluRef (F := Ideal) x : S50000x256.Idx → EReal) = fun i => Sage.elu Sage.z32 Sage.o32 (x i) :=
  Sage.host_elu x bcast_S_S50000x256

theorem softplusRef_eq (x : CF Ideal S50000x128) :
    (softplusRef (F := Ideal) x : S50000x128.Idx → EReal) = fun i => Sage.softplus Sage.z32 (x i) :=
  Sage.host_softplus x bcast_S_S50000x128

/-- The first hidden state is the first layer of the features and of their neighbourhood mean. -/
theorem h1_eq (a0 : CF Ideal S50000x128) (a1 : CI Ideal S2x600000) (a2 : CF Ideal S256x128) (a3 : CF Ideal S256)
    (a4 : CF Ideal S256x128) :
    (h1 (F := Ideal) a0 a1 a2 a3 a4 : S50000x256.Idx → EReal)
      = Sage.hidden1 (M := 50000) (K := 128) (N := 256) a0 (agg1 a0 a1) a2 a4 (row256 a3) := by
  unfold h1 sage1
  rw [eluRef_eq, sageLayer1_eq]
  rfl

/-- The reference's result is the second stage of the first hidden state, of its neighbourhood mean and of the two
    residual projections. -/
theorem out_eq (a0 : CF Ideal S50000x128) (a1 : CI Ideal S2x600000) (a2 : CF Ideal S256x128) (a3 : CF Ideal S256)
    (a4 : CF Ideal S256x128) (a5 : CF Ideal S256x256) (a6 : CF Ideal S256) (a7 : CF Ideal S256x256)
    (a8 : CF Ideal S256x128) (a9 : CF Ideal S256) (a10 : CF Ideal S256x128) (a11 : CF Ideal S256)
    (a12 : CF Ideal S256x256) (a13 : CF Ideal S256) (a14 : CF Ideal S256x256) (a15 : CF Ideal S256)
    (a16 : CF Ideal S128x256) (a17 : CF Ideal S128) :
    (out (F := Ideal) a0 a1 a2 a3 a4 a5 a6 a7 a8 a9 a10 a11 a12 a13 a14 a15 a16 a17 : S50000x128.Idx → EReal)
      = Sage.stage2 (M := 50000) (K := 256) (D1 := 256) (D2 := 256) (D3 := 256) (D4 := 128)
          (h1 (F := Ideal) a0 a1 a2 a3 a4) (agg2 (F := Ideal) a0 a1 a2 a3 a4)
          (Sage.linT (M := 50000) (K := 128) (N := 256) a0 a8 (row256 a9))
          (Sage.linT (M := 50000) (K := 128) (N := 256) a0 a10 (row256 a11))
          a5 a7 (row256 a6) a12 (row256 a13) a14 (row256 a15) a16 (row128 a17) := by
  unfold out pre3 t2 m2 m1 t1 h2 sage2 res1 res2
  rw [softplusRef_eq, linOut_eq, eluRef_eq, lin256_eq, eluRef_eq, lin256_eq, eluRef_eq, sageLayer2_eq, lin128_eq, lin128_eq]
  rfl

end Cert.ReferenceIdeal.RefVal

end
-- ==== Proof.Bridge.lean ====
/-
  The kernel's host side and the reference name the same things.

  The edge list's two node-number vectors, and the neighbourhood mean along them (gather at the sources, sum at the
  destinations, division by the clamped in-degree), are the same operations in both programs, so they are the same
  functions. A bias vector laid out as one row by a reshape (the kernel's host side) and by a broadcast along a new
  leading axis (the reference) is the same one-row array.
-/
import proofs.«160599_j22651657519232_1_alg».proof.Proof.KArrays
import proofs.«160599_j22651657519232_1_alg».proof.Proof.RefValue
import proofs.«160599_j22651657519232_1_alg».proof.Proof.RefRun

noncomputable section

open Idealize.ShloMosaic Idealize.ShloMosaic.ValueIdx

namespace Cert.Bridge

open Cert.KernelIdeal.KVal Cert.ReferenceIdeal.RefRun Cert.ReferenceIdeal.RefVal

theorem edgeSrc_eq (e : CI Ideal Cert.ReferenceIdeal.S2x600000) : edgeSrc (F := Ideal) e = srcCol (F := Ideal) e := rfl

theorem edgeDst_eq (e : CI Ideal Cert.ReferenceIdeal.S2x600000) : edgeDst (F := Ideal) e = dstCol (F := Ideal) e := rfl

theorem meanAgg128_eq (x : CF Ideal Cert.ReferenceIdeal.S50000x128) (s d : CI Ideal Cert.ReferenceIdeal.S600000) :
    Cert.KernelIdeal.KVal.meanAgg128 (F := Ideal) x s d = Cert.ReferenceIdeal.RefRun.meanAgg128 (F := Ideal) x s d := rfl

theorem meanAgg256_eq (x : CF Ideal Cert.ReferenceIdeal.S50000x256) (s d : CI Ideal Cert.ReferenceIdeal.S600000) :
    Cert.KernelIdeal.KVal.meanAgg256 (F := Ideal) x s d = Cert.ReferenceIdeal.RefRun.meanAgg256 (F := Ideal) x s d := rfl

theorem biasRow256_eq (b : CF Ideal Cert.ReferenceIdeal.S256) : biasRow256 (F := Ideal) b = row256 b :=
  PlainDot.shapeCast_eq_broadcastInDim_row (N := 256) b Cert.KernelIdeal.Facts₀.shapeCasts_S256_S1x256
    Cert.ReferenceIdeal.Facts₀.bcast_S256_S1x256_1

theorem biasRow128_eq (b : CF Ideal Cert.ReferenceIdeal.S128) : biasRow128 (F := Ideal) b = row128 b :=
  PlainDot.shapeCast_eq_broadcastInDim_row (N := 128) b Cert.KernelIdeal.Facts₀.shapeCasts_S128_S1x128
    Cert.ReferenceIdeal.Facts₀.bcast_S128_S1x128_1

/-- THE TWO PROGRAMS COMPUTE ONE FUNCTION of the eighteen argument arrays: the kernel's result (the second stage of
    the first layer, of its neighbourhood mean and of the two residual projections, each stage read block by block off
    the kernels) is the reference's, stage by stage: the same neighbourhood means, the same dense layers with the
    bias laid out as one row either way, the exponential linear unit and the output unit the same scalar functions. -/
theorem kernelValue_eq (a0 : CF Ideal Cert.ReferenceIdeal.S50000x128) (a1 : CI Ideal Cert.ReferenceIdeal.S2x600000)
    (a2 : CF Ideal Cert.ReferenceIdeal.S256x128) (a3 : CF Ideal Cert.ReferenceIdeal.S256)
    (a4 : CF Ideal Cert.ReferenceIdeal.S256x128) (a5 : CF Ideal Cert.ReferenceIdeal.S256x256)
    (a6 : CF Ideal Cert.ReferenceIdeal.S256) (a7 : CF Ideal Cert.ReferenceIdeal.S256x256)
    (a8 : CF Ideal Cert.ReferenceIdeal.S256x128) (a9 : CF Ideal Cert.ReferenceIdeal.S256)
    (a10 : CF Ideal Cert.ReferenceIdeal.S256x128) (a11 : CF Ideal Cert.ReferenceIdeal.S256)
    (a12 : CF Ideal Cert.ReferenceIdeal.S256x256) (a13 : CF Ideal Cert.ReferenceIdeal.S256)
    (a14 : CF Ideal Cert.ReferenceIdeal.S256x256) (a15 : CF Ideal Cert.ReferenceIdeal.S256)
    (a16 : CF Ideal Cert.ReferenceIdeal.S128x256) (a17 : CF Ideal Cert.ReferenceIdeal.S128) :
    out (F := Ideal) a0 a1 a2 a3 a4 a5 a6 a7 a8 a9 a10 a11 a12 a13 a14 a15 a16 a17
      = kernelValue a0 a1 a2 a3 a4 a5 a6 a7 a8 a9 a10 a11 a12 a13 a14 a15 a16 a17 := by
  rw [out_eq]
  unfold agg2
  rw [h1_eq]
  unfold agg1 kernelValue hiddenLayer
  rw [biasRow256_eq, biasRow256_eq, biasRow256_eq, biasRow256_eq, biasRow256_eq, biasRow256_eq, biasRow128_eq, meanAgg256_eq,
    meanAgg128_eq, edgeSrc_eq, edgeDst_eq]

end Cert.Bridge

end
-- ==== Proof.lean ====
/-
  Two implementations of a two-layer neighbourhood-mean network with a residual dense head compute the same function
  over the extended reals.

  The network: from node features `x` (50000 x 128) and an edge list, the mean of each node's in-neighbours' rows
  (a gather at the edge sources, a sum at the destinations, a division by the in-degree clamped below by one);
  `h1 = elu (mean(x)·Wl1ᵀ + bl1 + x·Wr1ᵀ)`; two residual projections `x·Wᵀ + b`; then
  `softplus (elu (elu (elu (mean(h1)·Wl2ᵀ + bl2 + h1·Wr2ᵀ) + res1)·F1ᵀ + c1)·F2ᵀ + c2) + res2)·F3ᵀ + c3)`.
  One program computes the dense stages in two kernels over 25 blocks of 2000 node rows each, with the neighbourhood
  means on the host between them; the other is plain array code.

  Why they agree, index by index. Every dense stage is row-local: row `r` of its output depends only on row `r` of its
  row-blocked operands, so a block computed by itself is those rows of the whole-array stage (SageSpec's `_rows`
  lemmas), and 25 blocks of 2000 rows cover the 50000 rows. A product with the transposed weight is the same sum
  `∑ₖ A[r,k]·W[c,k]` whether the matrix unit forms it into a zero accumulator or the host contracts; rounding an operand
  to a narrower float format is the identity on extended reals; the bias is the same one-row array whether laid out by a
  reshape or by a broadcast. The exponential linear unit spelt `select (x > 0) x (exp x - 1)` and spelt
  `select (x > 0) x (1·(exp (select (x > 0) 0 x) - 1))` are one function, and so are the two spellings of the guarded
  `softplus` (`0 - |d|` against `-|d|`). The neighbourhood means are the same operations in both programs. No law used
  needs finiteness, so the precondition is never opened.

  The frames: each kernel's program terminates without fault and leaves its arguments unchanged (the frame proofs of
  the two regions); the reference's frame is its run with the result dropped. The idealization rewrote no operation.
-/
import proofs.«160599_j22651657519232_1_alg».proof.Defs
import proofs.«160599_j22651657519232_1_alg».proof.Proof.Gen.Kernel
import proofs.«160599_j22651657519232_1_alg».proof.Proof.Gen.KernelIdeal
import proofs.«160599_j22651657519232_1_alg».proof.Proof.Gen.ReferenceIdeal
import proofs.«160599_j22651657519232_1_alg».proof.Proof.Gen.Pre_finite_inputs
import proofs.«160599_j22651657519232_1_alg».proof.Proof.KernelFrameP
import proofs.«160599_j22651657519232_1_alg».proof.Proof.KernelIdealFrameP
import proofs.«160599_j22651657519232_1_alg».proof.Proof.KArrays
import proofs.«160599_j22651657519232_1_alg».proof.Proof.RefFrame
import proofs.«160599_j22651657519232_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.GenP.frame m ρ

/-- The idealized kernel program runs and leaves its arguments unchanged. -/
theorem frame_ki : Cert.frame_KernelIdeal := fun m ρ _ => Cert.KernelIdeal.GenP.frame m ρ

/-- The reference runs and leaves its arguments unchanged. -/
theorem frame_ri : Cert.frame_ReferenceIdeal := Cert.ReferenceIdeal.RefRun.frame_ri

/-- The idealization rewrote nothing. -/
theorem preserves : Cert.preserves_Kernel_KernelIdeal := trivial

/-- From memories agreeing on the arguments both programs end with the same result array: the kernel's at its
    function of the arguments, the reference's at its own, and the two are one function. -/
theorem algebraic : Cert.algebraic_KernelIdeal_ReferenceIdeal := by
  intro m ρ m' ρ' _ hagree
  refine ⟨_, Cert.KernelIdeal.KVal.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact Cert.Bridge.kernelValue_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
